-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000x128 : Shape := ⟨2, ![800000, 128]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_arg15 : FVec F S128x128 .f32) (main_arg16 : FVec F S128 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg12 : FVec F S128 .f32) (main_arg13 : FVec F S128x128 .f32) (main_arg14 : FVec F S128 .f32) (main_arg15 : FVec F S128x128 .f32) (main_arg16 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x256 .f32) (main_arg1 : IVec S2x800000 32) (main_arg2 : FVec F S800000x128 .f32) (main_arg3 : FVec F S256x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000x128 .f32 := Host.absf main_arg2
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x256 : Shape := ⟨2, ![50000, 256]⟩
abbrev S2x800000 : Shape := ⟨2, ![2, 800000]⟩
abbrev S800000x128 : Shape := ⟨2, ![800000, 128]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S50000x128 : Shape := ⟨2, ![50000, 128]⟩
abbrev S8000x128 : Shape := ⟨2, ![8000, 128]⟩
abbrev S5000x256 : Shape := ⟨2, ![5000, 256]⟩
abbrev S5000x1 : Shape := ⟨2, ![5000, 1]⟩
abbrev S5000x128 : Shape := ⟨2, ![5000, 128]⟩

abbrev nBuf : Space → Nat
  | .hbm => 90
  | .vmem => 48
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000x128, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S_, .f32⟩
  | .hbm, ⟨22, _⟩ => ⟨S800000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .i1⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S1x128, .f32⟩
  | .hbm, ⟨40, _⟩ => ⟨S1x128, .f32⟩
  | .hbm, ⟨41, _⟩ => ⟨S800000x128, .f32⟩
  | .hbm, ⟨42, _⟩ => ⟨S1x128, .f32⟩
  | .hbm, ⟨43, _⟩ => ⟨S1x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x128, .f32⟩
  | .hbm, ⟨84, _⟩ => ⟨S_, .f32⟩
  | .hbm, ⟨85, _⟩ => ⟨S50000x128, .f32⟩
  | .hbm, ⟨86, _⟩ => ⟨S800000x1, .i32⟩
  | .hbm, ⟨87, _⟩ => ⟨S50000x128, .f32⟩
  | .hbm, ⟨88, _⟩ => ⟨S1x128, .f32⟩
  | .hbm, ⟨89, _⟩ => ⟨S50000x128, .f32⟩
  | .local _ .vmem, ⟨0, _⟩ => ⟨S8000x128, .f32⟩
  | .local _ .vmem, ⟨1, _⟩ => ⟨S8000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S8000x128, .f32⟩
  | .local _ .vmem, ⟨7, _⟩ => ⟨S8000x128, .f32⟩
  | .local _ .vmem, ⟨8, _⟩ => ⟨S5000x256, .f32⟩
  | .local _ .vmem, ⟨9, _⟩ => ⟨S5000x256, .f32⟩
  | .local _ .vmem, ⟨10, _⟩ => ⟨S256x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S5000x1, .f32⟩
  | .local _ .vmem, ⟨16, _⟩ => ⟨S5000x1, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S128x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x1, .f32⟩
  | .local _ .vmem, ⟨34, _⟩ => ⟨S5000x1, .f32⟩
  | .local _ .vmem, ⟨35, _⟩ => ⟨S1x128, .f32⟩
  | .local _ .vmem, ⟨36, _⟩ => ⟨S128x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x1, .f32⟩
  | .local _ .vmem, ⟨44, _⟩ => ⟨S5000x1, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_cst : Ref sig .tc := ⟨.hbm, 21, rfl⟩
abbrev main_call0_v4 : Ref sig .tc := ⟨.hbm, 22, rfl⟩
abbrev main_call0_cst_0 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_v9 : Ref sig .tc := ⟨.hbm, 29, rfl⟩
abbrev main_call0_cst_2 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_cst_3 : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_v13 : Ref sig .tc := ⟨.hbm, 37, rfl⟩
abbrev main_call0_v14 : Ref sig .tc := ⟨.hbm, 38, rfl⟩
abbrev main_call0_v15 : Ref sig .tc := ⟨.hbm, 39, rfl⟩
abbrev main_call0_v16 : Ref sig .tc := ⟨.hbm, 40, rfl⟩
abbrev main_v0_1 : Ref sig .tc := ⟨.hbm, 41, rfl⟩
abbrev main_call0_v18 : Ref sig .tc := ⟨.hbm, 42, rfl⟩
abbrev main_call0_v19 : Ref sig .tc := ⟨.hbm, 43, rfl⟩
abbrev main_call0_v20 : Ref sig .tc := ⟨.hbm, 44, rfl⟩
abbrev main_call0_c : Ref sig .tc := ⟨.hbm, 45, rfl⟩
abbrev main_call0_v21 : Ref sig .tc := ⟨.hbm, 46, rfl⟩
abbrev main_call0_v22 : Ref sig .tc := ⟨.hbm, 47, rfl⟩
abbrev main_call0_c_4 : Ref sig .tc := ⟨.hbm, 48, rfl⟩
abbrev main_call0_v23 : Ref sig .tc := ⟨.hbm, 49, rfl⟩
abbrev main_call0_v24 : Ref sig .tc := ⟨.hbm, 50, rfl⟩
abbrev main_call0_v25 : Ref sig .tc := ⟨.hbm, 51, rfl⟩
abbrev main_call0_v26 : Ref sig .tc := ⟨.hbm, 52, rfl⟩
abbrev main_call0_v27 : Ref sig .tc := ⟨.hbm, 53, rfl⟩
abbrev main_call0_cst_5 : Ref sig .tc := ⟨.hbm, 54, rfl⟩
abbrev main_call0_v28 : Ref sig .tc := ⟨.hbm, 55, rfl⟩
abbrev main_call0_v29 : Ref sig .tc := ⟨.hbm, 56, rfl⟩
abbrev main_call0_v30 : Ref sig .tc := ⟨.hbm, 57, rfl⟩
abbrev main_call0_v31 : Ref sig .tc := ⟨.hbm, 58, rfl⟩
abbrev main_call0_v32 : Ref sig .tc := ⟨.hbm, 59, rfl⟩
abbrev main_call0_c_6 : Ref sig .tc := ⟨.hbm, 60, rfl⟩
abbrev main_call0_v33 : Ref sig .tc := ⟨.hbm, 61, rfl⟩
abbrev main_call0_v34 : Ref sig .tc := ⟨.hbm, 62, rfl⟩
abbrev main_call0_c_7 : Ref sig .tc := ⟨.hbm, 63, rfl⟩
abbrev main_call0_v35 : Ref sig .tc := ⟨.hbm, 64, rfl⟩
abbrev main_call0_v36 : Ref sig .tc := ⟨.hbm, 65, rfl⟩
abbrev main_call0_v37 : Ref sig .tc := ⟨.hbm, 66, rfl⟩
abbrev main_call0_v38 : Ref sig .tc := ⟨.hbm, 67, rfl⟩
abbrev main_call0_v39 : Ref sig .tc := ⟨.hbm, 68, rfl⟩
abbrev main_call0_cst_8 : Ref sig .tc := ⟨.hbm, 69, rfl⟩
abbrev main_call0_v40 : Ref sig .tc := ⟨.hbm, 70, rfl⟩
abbrev main_call0_v41 : Ref sig .tc := ⟨.hbm, 71, rfl⟩
abbrev main_call0_v42 : Ref sig .tc := ⟨.hbm, 72, rfl⟩
abbrev main_call0_v43 : Ref sig .tc := ⟨.hbm, 73, rfl⟩
abbrev main_call0_v44 : Ref sig .tc := ⟨.hbm, 74, rfl⟩
abbrev main_call0_c_9 : Ref sig .tc := ⟨.hbm, 75, rfl⟩
abbrev main_call0_v45 : Ref sig .tc := ⟨.hbm, 76, rfl⟩
abbrev main_call0_v46 : Ref sig .tc := ⟨.hbm, 77, rfl⟩
abbrev main_call0_c_10 : Ref sig .tc := ⟨.hbm, 78, rfl⟩
abbrev main_call0_v47 : Ref sig .tc := ⟨.hbm, 79, rfl⟩
abbrev main_call0_v48 : Ref sig .tc := ⟨.hbm, 80, rfl⟩
abbrev main_call0_v49 : Ref sig .tc := ⟨.hbm, 81, rfl⟩
abbrev main_call0_v50 : Ref sig .tc := ⟨.hbm, 82, rfl⟩
abbrev main_call0_v51 : Ref sig .tc := ⟨.hbm, 83, rfl⟩
abbrev main_call0_cst_11 : Ref sig .tc := ⟨.hbm, 84, rfl⟩
abbrev main_call0_v52 : Ref sig .tc := ⟨.hbm, 85, rfl⟩
abbrev main_call0_v53 : Ref sig .tc := ⟨.hbm, 86, rfl⟩
abbrev main_call0_v54 : Ref sig .tc := ⟨.hbm, 87, rfl⟩
abbrev main_call0_v55 : Ref sig .tc := ⟨.hbm, 88, rfl⟩
abbrev main_v0_0 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg5_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg2_1 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg4_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem5_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem4_0 : DmaSem sig := 36
abbrev cc3_sem5_0 : DmaSem sig := 37
abbrev cc3_sem5_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem2_1 : DmaSem sig := 44
abbrev cc4_sem3_0 : DmaSem sig := 45
abbrev cc4_sem4_0 : DmaSem sig := 46
abbrev cc4_sem4_1 : DmaSem sig := 47

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S128_S1x128 : S128.ShapeCasts S1x128
  bcast_S_S50000x128 : S_.BroadcastsInDim S50000x128 (![] : Fin 0 → Fin S50000x128.rank)
  inb_S8000x128_S8000x128_0_0 : ∀ a, (![0, 0] : Fin 2 → Nat) a + S8000x128.size a ≤ S8000x128.size a
  h_S8000x128 : 0 < S8000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S5000x256_S5000x256_0_0 : ∀ a, (![0, 0] : Fin 2 → Nat) a + S5000x256.size a ≤ S5000x256.size a
  h_S5000x256 : 0 < S5000x256.numel
  inb_S256x128_S256x128_0_0 : ∀ a, (![0, 0] : Fin 2 → Nat) a + S256x128.size a ≤ S256x128.size a
  h_S256x128 : 0 < S256x128.numel
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S8000x128_S128x128_S8000x128_1_0_0_1_n_n_wf : DotDims.WF S8000x128 S128x128 S8000x128 [1] [0] [0] [1] [] []
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S800000x128.size a
  hwx0_5 : ∀ i : grid0.Coords, EltTy.bits .f32 = 32 ∨ (Rect.block (s := S800000x128) S8000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x1.size a ≤ S50000x1.size a
  hwx1_6 : ∀ i : grid1.Coords, EltTy.bits .f32 = 32 ∨ (Rect.block (s := S50000x1) S5000x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg2) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S8000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v18) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v19) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v14) S5000x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_call0_v20) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_call0_v30) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v20) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v14) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v31) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v32) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_call0_v42) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v32) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v14) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_call0_v43) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg15) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v44) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_call0_v54) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v44) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_call0_v14) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_call0_v55) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v0_0) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000x128 : Shape := ⟨2, ![800000, 128]⟩
abbrev S256x128 : Shape := ⟨2, ![256, 128]⟩
abbrev S128 : Shape := ⟨1, ![128]⟩
abbrev S128x128 : Shape := ⟨2, ![128, 128]⟩
abbrev S50000x128 : Shape := ⟨2, ![50000, 128]⟩
abbrev S1x128 : Shape := ⟨2, ![1, 128]⟩
abbrev S_ : Shape := ⟨0, ![]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x128 : Shape := ⟨2, ![850000, 128]⟩

abbrev nBuf : Space → Nat
  | .hbm => 151
  | .vmem => 0
  | .smem => 0
  | _ => 0

abbrev hbmTy0_0 (i : Nat) : BufTy := match i % 128 with
  | 0 => ⟨S50000x256, .f32⟩
  | 1 => ⟨S2x800000, .i32⟩
  | 2 => ⟨S800000x128, .f32⟩
  | 3 => ⟨S256x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S50000x128, .f32⟩
  | 18 => ⟨S1x128, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S_, .f32⟩
  | 29 => ⟨S50000x128, .f32⟩
  | 30 => ⟨S50000x128, .f32⟩
  | 31 => ⟨S800000x128, .f32⟩
  | 32 => ⟨S1x128, .f32⟩
  | 33 => ⟨S800000x128, .f32⟩
  | 34 => ⟨S800000x128, .f32⟩
  | 35 => ⟨S_, .f32⟩
  | 36 => ⟨S800000x128, .f32⟩
  | 37 => ⟨S800000x128, .f32⟩
  | 38 => ⟨S800000x128, .f32⟩
  | 39 => ⟨S1x128, .f32⟩
  | 40 => ⟨S800000x128, .f32⟩
  | 41 => ⟨S800000x128, .f32⟩
  | 42 => ⟨S_, .f32⟩
  | 43 => ⟨S800000x128, .f32⟩
  | 44 => ⟨S800000x128, .f32⟩
  | 45 => ⟨S50000, .i32⟩
  | 46 => ⟨S1x800000, .i32⟩
  | 47 => ⟨S800000, .i32⟩
  | 48 => ⟨S850000, .i32⟩
  | 49 => ⟨S1x800000, .i32⟩
  | 50 => ⟨S800000, .i32⟩
  | 51 => ⟨S850000, .i32⟩
  | 52 => ⟨S_, .f32⟩
  | 53 => ⟨S850000, .f32⟩
  | 54 => ⟨S_, .f32⟩
  | 55 => ⟨S50000, .f32⟩
  | 56 => ⟨S850000x1, .i32⟩
  | 57 => ⟨S50000, .f32⟩
  | 58 => ⟨S_, .f32⟩
  | 59 => ⟨S50000, .f32⟩
  | 60 => ⟨S50000, .i1⟩
  | 61 => ⟨S50000, .f32⟩
  | 62 => ⟨S_, .f32⟩
  | 63 => ⟨S_, .f32⟩
  | 64 => ⟨S50000, .f32⟩
  | 65 => ⟨S50000, .f32⟩
  | 66 => ⟨S_, .i32⟩
  | 67 => ⟨S850000, .i32⟩
  | 68 => ⟨S850000, .i1⟩
  | 69 => ⟨S_, .i32⟩
  | 70 => ⟨S850000, .i32⟩
  | 71 => ⟨S850000, .i32⟩
  | 72 => ⟨S850000, .i32⟩
  | 73 => ⟨S850000x1, .i32⟩
  | 74 => ⟨S850000, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000, .f32⟩
  | 84 => ⟨S850000, .f32⟩
  | 85 => ⟨S50000x128, .f32⟩
  | 86 => ⟨S850000x1, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000x128, .f32⟩
  | 96 => ⟨S850000x128, .f32⟩
  | 97 => ⟨S850000x128, .f32⟩
  | 98 => ⟨S_, .f32⟩
  | 99 => ⟨S50000x128, .f32⟩
  | 100 => ⟨S850000x1, .i32⟩
  | 101 => ⟨S50000x128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S50000x128, .f32⟩
  | 109 => ⟨S850000x1, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x128, .f32⟩
  | 119 => ⟨S850000x128, .f32⟩
  | 120 => ⟨S850000x128, .f32⟩
  | 121 => ⟨S_, .f32⟩
  | 122 => ⟨S50000x128, .f32⟩
  | 123 => ⟨S850000x1, .i32⟩
  | 124 => ⟨S50000x128, .f32⟩
  | 125 => ⟨S1x128, .f32⟩
  | 126 => ⟨S50000x128, .f32⟩
  | 127 => ⟨S50000x128, .f32⟩
  | _ => ⟨S50000x256, .f32⟩

abbrev hbmTy0_1 (i : Nat) : BufTy := match i % 128 with
  | 0 => ⟨S_, .f32⟩
  | 1 => ⟨S50000x128, .f32⟩
  | 2 => ⟨S50000x128, .f32⟩
  | 3 => ⟨S50000x128, .f32⟩
  | 4 => ⟨S850000x1, .f32⟩
  | 5 => ⟨S_, .i32⟩
  | 6 => ⟨S850000, .i32⟩
  | 7 => ⟨S850000, .i1⟩
  | 8 => ⟨S_, .i32⟩
  | 9 => ⟨S850000, .i32⟩
  | 10 => ⟨S850000, .i32⟩
  | 11 => ⟨S850000, .i32⟩
  | 12 => ⟨S850000x1, .i32⟩
  | 13 => ⟨S850000x128, .f32⟩
  | 14 => ⟨S850000x128, .f32⟩
  | 15 => ⟨S850000x128, .f32⟩
  | 16 => ⟨S_, .f32⟩
  | 17 => ⟨S50000x128, .f32⟩
  | 18 => ⟨S850000x1, .i32⟩
  | 19 => ⟨S50000x128, .f32⟩
  | 20 => ⟨S1x128, .f32⟩
  | 21 => ⟨S50000x128, .f32⟩
  | 22 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_cst : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_call1_cst : Ref sig .tc := ⟨.hbm, 28, rfl⟩
abbrev main_call1_v0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_call2_cst : Ref sig .tc := ⟨.hbm, 35, rfl⟩
abbrev main_call2_v0 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_call3_cst : Ref sig .tc := ⟨.hbm, 42, rfl⟩
abbrev main_call3_v0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst : Ref sig .tc := ⟨.hbm, 52, rfl⟩
abbrev main_v27 : Ref sig .tc := ⟨.hbm, 53, rfl⟩
abbrev main_cst_0 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_1 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_2 : Ref sig .tc := ⟨.hbm, 62, rfl⟩
abbrev main_call4_v0 : Ref sig .tc := ⟨.hbm, 63, rfl⟩
abbrev main_call4_v1 : Ref sig .tc := ⟨.hbm, 64, rfl⟩
abbrev main_v34 : Ref sig .tc := ⟨.hbm, 65, rfl⟩
abbrev main_c : Ref sig .tc := ⟨.hbm, 66, rfl⟩
abbrev main_v35 : Ref sig .tc := ⟨.hbm, 67, rfl⟩
abbrev main_v36 : Ref sig .tc := ⟨.hbm, 68, rfl⟩
abbrev main_c_3 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_c_4 : Ref sig .tc := ⟨.hbm, 75, rfl⟩
abbrev main_v42 : Ref sig .tc := ⟨.hbm, 76, rfl⟩
abbrev main_v43 : Ref sig .tc := ⟨.hbm, 77, rfl⟩
abbrev main_c_5 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_6 : Ref sig .tc := ⟨.hbm, 87, rfl⟩
abbrev main_v52 : Ref sig .tc := ⟨.hbm, 88, rfl⟩
abbrev main_v53 : Ref sig .tc := ⟨.hbm, 89, rfl⟩
abbrev main_c_7 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_8 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_call5_cst : Ref sig .tc := ⟨.hbm, 105, rfl⟩
abbrev main_call5_v0 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_c_9 : Ref sig .tc := ⟨.hbm, 110, rfl⟩
abbrev main_v70 : Ref sig .tc := ⟨.hbm, 111, rfl⟩
abbrev main_v71 : Ref sig .tc := ⟨.hbm, 112, rfl⟩
abbrev main_c_10 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_cst_11 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_call6_cst : Ref sig .tc := ⟨.hbm, 128, rfl⟩
abbrev main_call6_v0 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_c_12 : Ref sig .tc := ⟨.hbm, 133, rfl⟩
abbrev main_v88 : Ref sig .tc := ⟨.hbm, 134, rfl⟩
abbrev main_v89 : Ref sig .tc := ⟨.hbm, 135, rfl⟩
abbrev main_c_13 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_14 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.LibDense.lean ====
/-
  Dense layers read as functions of rows, at the ideal values.

  A dense layer of an MLP takes an [A, K] matrix of rows, a [K, N] weight matrix and an [N] bias to the [A, N]
  matrix whose entry (r, n) is  sum_k x(r, k) * w(k, n) + b(n).  Entry (r, n) depends on row r of x only, so the
  layer applied to a block of rows is the block of the layer applied to all rows; that is what lets a kernel
  that walks over row blocks be compared with a reference that multiplies whole matrices.

  Two spellings of the layer are read to this one function: the kernel's (the operands narrowed to bf16, which
  changes nothing at the ideal values; a matrix product accumulated into a zero splat; the bias cast to one row
  and broadcast down the rows) and the host's (a dot_general; the bias broadcast to one row, then down the rows).
  Likewise the tanh form of gelu,  x * (1/2 * (1 + tanh (c1 * (x + c0 * x^3)))),  is read pointwise in the
  kernel's spelling (x^3 as x * (x * x), splatted scalars) and the host's (x^3 as (x * x) * x, broadcast
  constants); the two cubes agree because multiplication of extended reals is commutative.  All of it is generic in the extents.
-/
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibDense

open Idealize.ShloMosaic Idealize.ShloMosaic.ValueIdx

/-! ## The contraction of a plain matrix product as a sum over the shared axis -/

/-- For the plain dimension numbers (rows x contraction times contraction x columns) the contraction index is
    its one coordinate, and the operand indices at output (r, n) and contraction k are (r, k) and (k, n). -/
theorem plain_sum (A K N : Nat) (l : (⟨2, ![A, K]⟩ : Shape).Idx → EReal) (r : (⟨2, ![K, N]⟩ : Shape).Idx → EReal)
    (j : (⟨2, ![A, N]⟩ : Shape).Idx) :
    ∑ k : (DotDims.plain A K N).contr.Idx, l ((DotDims.plain A K N).lhsIdx j k) * r ((DotDims.plain A K N).rhsIdx j k)
      = ∑ k : Fin K, l (ix2 (j 0 : Fin A) k) * r (ix2 k (j 1 : Fin N)) := by
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx j ((contrEquiv1 (DotDims.plain A K N) K rfl rfl).symm k) = ix2 (j 0 : Fin A) k := by
    funext a
    match a with
    | ⟨0, _⟩ => rfl
    | ⟨1, _⟩ => exact Fin.ext hk
  have er : (DotDims.plain A K N).rhsIdx j ((contrEquiv1 (DotDims.plain A K N) K rfl rfl).symm k) = ix2 k (j 1 : Fin N) := by
    funext a
    match a with
    | ⟨0, _⟩ => exact Fin.ext hk
    | ⟨1, _⟩ => rfl
  exact congrArg₂ (· * ·) (congrArg l el) (congrArg r er)

/-! ## The bias laid along every row -/

/-- The kernel's spelling: the bias cast to one row and broadcast down the rows reads the bias at the column. -/
theorem bias_rows_kernel {A N : Nat} {α : Type} (b : (⟨1, ![N]⟩ : Shape).Idx → α)
    (h1 : (⟨1, ![N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix1 (i 1 : Fin N)) := by
  have e1 := broadcastTo_apply (shapeCast ⟨2, ![1, N]⟩ b h1) hb i (ix2 (0 : Fin 1) (i 1 : Fin N)) (by
    intro a
    match a with
    | ⟨0, _⟩ => rfl
    | ⟨1, _⟩ =>
      show (i 1).val = if N = 1 then 0 else (i 1).val
      split
      · have := (i 1).isLt; have e : (i 1).val < N := this; omega
      · rfl)
  have e2 := shapeCast_apply b h1 (ix2 (0 : Fin 1) (i 1 : Fin N)) (ix1 (i 1 : Fin N)) (by
    rw [Shape.rowMajor_val_two, Shape.rowMajor_val_one]; show (i 1).val = 0 * N + (i 1).val; omega)
  exact e1.trans e2

/-- The host's spelling: the bias broadcast to one row along axis 1, then down the rows, reads the bias at the column. -/
theorem bias_rows_host_ix {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1]) (p : Fin A) (q : Fin N) :
    broadcastInDim ⟨2, ![A, N]⟩ ![0, 1] hbc (broadcastInDim ⟨2, ![1, N]⟩ ![1] hd b) (ix2 p q) = b (ix1 q) := by
  rw [broadcastInDim_oneRow_apply hbc _ p q]
  refine broadcastInDim_apply ![1] hd b (ix2 (0 : Fin 1) q) (ix1 q) ?_
  intro a
  match a with
  | ⟨0, _⟩ =>
    show q.val = if N = 1 then 0 else q.val
    split
    · have := q.isLt; omega
    · rfl

/-- The same at any index. -/
theorem bias_rows_host {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1])
    (i : (⟨2, ![A, N]⟩ : Shape).Idx) :
    broadcastInDim ⟨2, ![A, N]⟩ ![0, 1] hbc (broadcastInDim ⟨2, ![1, N]⟩ ![1] hd b) i = b (ix1 (i 1 : Fin N)) := by
  obtain ⟨p, q, rfl⟩ : ∃ (p : Fin A) (q : Fin N), i = ix2 p q := ⟨i 0, i 1, eq_ix2 i⟩
  exact bias_rows_host_ix b hd hbc p q

/-! ## The dense layer -/

/-- The dense layer on rows: entry (r, n) is the sum over k of x(r, k) * w(k, n), plus b(n). -/
def dense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal :=
  fun j => (∑ k : Fin K, x (ix2 (j 0 : Fin A) k) * w (ix2 k (j 1 : Fin N))) + b (ix1 (j 1 : Fin N))

/-- The kernel's layer (bf16 operands, zero accumulator, bias cast and broadcast) is the dense layer. -/
theorem dense_kernel {A K N : Nat} (x : FVec Ideal ⟨2, ![A, K]⟩ .f32) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = dense A K N x w b := by
  funext j
  rw [addf_apply, bias_rows_kernel b h1 hb j]
  refine congrArg (· + b (ix1 (j 1 : Fin N))) ?_
  refine (Ideal.matmul_constant_zero_apply (DotDims.plain A K N) none (truncf .bf16 x hlt) (truncf .bf16 w hlt) j).trans ?_
  exact plain_sum A K N x w j

/-- The host's layer (dot_general, bias broadcast twice) is the dense layer. -/
theorem dense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral (DotDims.plain A K N) none x w)
      (broadcastInDim ⟨2, ![A, N]⟩ ![0, 1] hbc (broadcastInDim ⟨2, ![1, N]⟩ ![1] hd b)) = dense A K N x w b := by
  funext j
  rw [addf_apply, bias_rows_host b hd hbc j]
  refine congrArg (· + b (ix1 (j 1 : Fin N))) ?_
  refine (Ideal.dotGeneral_apply (DotDims.plain A K N) none _ x w j).trans ?_
  exact plain_sum A K N x w j

/-- Entry (p, q) of the layer depends on row p only: two matrices that agree on a row give the same entry there. -/
theorem dense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    dense A K N x w b (ix2 p q) = dense A' K N x' w b (ix2 r q) := by
  show (∑ k : Fin K, x (ix2 p k) * w (ix2 k q)) + b (ix1 q) = (∑ k : Fin K, x' (ix2 r k) * w (ix2 k q)) + b (ix1 q)
  rw [Finset.sum_congr rfl fun k _ => by rw [h k]]

/-! ## gelu, tanh form -/

/-- gelu's tanh approximation on one extended real, the four f32 constants at their binary values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The kernel's spelling, pointwise: splatted scalars, the cube as x * (x * x). -/
theorem gelu_kernel {s : Shape} (v : FVec Ideal s .f32) :
    mulf v (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf v (mulf (broadcast s (Scalar.ofBits (F := Ideal) .f32 0x3D372713#32)) (mulf v (mulf v v))))))))
      = fun j => gelu (v j) := rfl

/-- The host's spelling, pointwise: broadcast constants, the cube as (x * x) * x. -/
theorem gelu_host {s : Shape} (v : FVec Ideal s .f32) (hS : (⟨0, ![]⟩ : Shape).BroadcastsInDim s (![] : Fin 0 → Fin s.rank)) :
    mulf v (mulf (broadcastInDim s ![] hS (constant (F := Ideal) ⟨0, ![]⟩ .f32 0x3F000000#32))
      (addf (broadcastInDim s ![] hS (constant (F := Ideal) ⟨0, ![]⟩ .f32 0x3F800000#32))
        (Host.tanh (mulf (broadcastInDim s ![] hS (constant (F := Ideal) ⟨0, ![]⟩ .f32 0x3F4C422A#32))
          (addf v (mulf (broadcastInDim s ![] hS (constant (F := Ideal) ⟨0, ![]⟩ .f32 0x3D372713#32)) (mulf (mulf v v) v)))))))
      = fun j => gelu (v j) := by
  funext j
  show v j * (Ideal.ofBits .f32 0x3F000000#32 * (Ideal.ofBits .f32 0x3F800000#32
    + Ideal.tanh (Ideal.ofBits .f32 0x3F4C422A#32 * (v j + Ideal.ofBits .f32 0x3D372713#32 * ((v j * v j) * v j))))) = gelu (v j)
  rw [mul_comm (v j * v j) (v j)]
  rfl

end Cert.LibDense

end
-- ==== Proof.LibRowOps.lean ====
/-
  Row-indexed scatter and gather of a matrix, read at an index.

  An accumulating scatter of the rows of an `[e, f]` matrix of updates into an `[n, f]` operand, at one row id per
  update row (the index array `[e, 1]`, each id read as a signed integer, an id outside `[0, n)` dropping its row), is,
  at entry `(r, c)`, the operand there plus the sum over the update rows `k` whose id is `r` of update `(k, c)`.
  A gather of whole rows of an `[n, f]` operand (or of entries of a flat `[n]` operand) at one row id per result row
  reads, at result row `k`, the operand's row `clampRow (id k)`: the id read as a signed integer and clamped into
  `[0, n - 1]`. All three are generic in the extents.
-/
import Idealize.ShloMosaic.PureOps.Ideal
import Idealize.ShloMosaic.Lib.ValueIdx
import Idealize.ShloMosaic.Lib.Pipeline.Value

noncomputable section

namespace Idealize.ShloMosaic.RowOps

open Idealize.ShloMosaic Idealize.ShloMosaic.ValueIdx
open scoped BigOperators

/-- A row id read as a signed integer and clamped into `[0, n - 1]`. -/
def clampRow (n : Nat) (hn : 0 < n) {w : Nat} (x : BitVec w) : Fin n := ⟨min x.toInt.toNat (n - 1), by omega⟩

/-! ## The row scatter -/

/-- The dimension numbers of a scatter of update rows `[e, f]` into an operand `[n, f]` at indices `[e, 1]`: the
    feature axis is the window axis, the operand's row axis inserted and indexed by the index vector's one component. -/
abbrev rowsDims (n e f : Nat) (wf : ScatterDims.WF ⟨2, ![n, f]⟩ ⟨2, ![e, 1]⟩ ⟨2, ![e, f]⟩ [1] [0] [0] 1) :
    ScatterDims ⟨2, ![n, f]⟩ ⟨2, ![e, 1]⟩ ⟨2, ![e, f]⟩ where
  updateWindowDims := [1]
  insertedWindowDims := [0]
  scatterDimsToOperandDims := [0]
  indexVectorDim := 1
  wf := wf

section Rows
variable {n e f w : Nat} (wf : ScatterDims.WF ⟨2, ![n, f]⟩ ⟨2, ![e, 1]⟩ ⟨2, ![e, f]⟩ [1] [0] [0] 1)

/-- On the row axis update `j` starts at the id of its row; -/
theorem rows_start0 (j : (⟨2, ![e, f]⟩ : Shape).Idx) (idx : IVec ⟨2, ![e, 1]⟩ w) :
    (rowsDims n e f wf).start j idx 0 = (idx (ix2 (j 0) 0)).toInt := by
  unfold ScatterDims.start
  rw [dif_pos (show (0 : Fin 2) ∈ (rowsDims n e f wf).scatterDimsToOperandDims from List.mem_singleton.mpr rfl)]
  have hsi : (rowsDims n e f wf).siIdx j ⟨List.idxOf (0 : Fin 2) (rowsDims n e f wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- on the feature axis at `0`. -/
theorem rows_start1 (j : (⟨2, ![e, f]⟩ : Shape).Idx) (idx : IVec ⟨2, ![e, 1]⟩ w) :
    (rowsDims n e f wf).start j idx 1 = 0 := by
  unfold ScatterDims.start
  rw [dif_neg (show ¬ (1 : Fin 2) ∈ ([0] : List (Fin 2)) by decide)]

/-- The row axis is inserted: no window coordinate there; -/
theorem rows_window0 (j : (⟨2, ![e, f]⟩ : Shape).Idx) : (rowsDims n e f wf).window j 0 = 0 := by
  unfold ScatterDims.window
  rw [dif_neg (fun h => by
    have h2 := (List.mem_filter.mp h).2
    simp at h2)]

/-- the feature axis carries the update's column coordinate. -/
theorem rows_window1 (j : (⟨2, ![e, f]⟩ : Shape).Idx) : (rowsDims n e f wf).window j 1 = (j 1).val := by
  unfold ScatterDims.window
  rw [dif_pos (show (1 : Fin 2) ∈ (rowsDims n e f wf).sKept from
    List.mem_filter.mpr ⟨List.mem_finRange _, by simp⟩)]
  rfl

/-- Update `j` lands on position `i` exactly when its row's id is `i`'s row and its column is `i`'s column. -/
theorem rows_resultIdx (j : (⟨2, ![e, f]⟩ : Shape).Idx) (idx : IVec ⟨2, ![e, 1]⟩ w) (i : (⟨2, ![n, f]⟩ : Shape).Idx) :
    (rowsDims n e f wf).resultIdx? j idx = some i
      ↔ (idx (ix2 (j 0) 0)).toInt = ((i 0).val : ℤ) ∧ (j 1).val = (i 1).val := by
  unfold ScatterDims.resultIdx?
  split_ifs with h
  · rw [Option.some.injEq]
    constructor
    · intro hi
      have h0 := (h 0).1
      rw [← hi]
      constructor
      · show _ = (((rowsDims n e f wf).start j idx 0 + ((rowsDims n e f wf).window j 0 : ℕ)).toNat : ℤ)
        rw [Int.toNat_of_nonneg h0, rows_start0, rows_window0]; simp
      · show _ = ((rowsDims n e f wf).start j idx 1 + ((rowsDims n e f wf).window j 1 : ℕ)).toNat
        rw [rows_start1, rows_window1]; simp
    · rintro ⟨hi0, hi1⟩
      funext a
      refine Fin.ext ?_
      match a with
      | ⟨0, _⟩ =>
        show ((rowsDims n e f wf).start j idx 0 + ((rowsDims n e f wf).window j 0 : ℕ)).toNat = (i 0).val
        rw [rows_start0, rows_window0, hi0]; simp
      | ⟨1, _⟩ =>
        show ((rowsDims n e f wf).start j idx 1 + ((rowsDims n e f wf).window j 1 : ℕ)).toNat = (i 1).val
        rw [rows_start1, rows_window1, hi1]; simp
  · constructor
    · intro hi; exact absurd hi (by simp)
    · rintro ⟨hi0, hi1⟩
      exfalso; apply h
      intro a
      match a with
      | ⟨0, _⟩ =>
        show 0 ≤ (rowsDims n e f wf).start j idx 0 + ((rowsDims n e f wf).window j 0 : ℕ)
          ∧ (rowsDims n e f wf).start j idx 0 + ((rowsDims n e f wf).window j 0 : ℕ) < ((⟨2, ![n, f]⟩ : Shape).size 0 : ℕ)
        rw [rows_start0, rows_window0, hi0]
        have := (i 0).isLt
        constructor <;> omega
      | ⟨1, _⟩ =>
        show 0 ≤ (rowsDims n e f wf).start j idx 1 + ((rowsDims n e f wf).window j 1 : ℕ)
          ∧ (rowsDims n e f wf).start j idx 1 + ((rowsDims n e f wf).window j 1 : ℕ) < ((⟨2, ![n, f]⟩ : Shape).size 1 : ℕ)
        rw [rows_start1, rows_window1, hi1]
        have := (i 1).isLt
        constructor <;> omega

end Rows

/-- THE ROW SCATTER READ AT `(r, c)`: the operand there plus column `c` of the update rows whose id is `r`. -/
theorem rows_apply {n e f w : Nat} (wf : ScatterDims.WF ⟨2, ![n, f]⟩ ⟨2, ![e, 1]⟩ ⟨2, ![e, f]⟩ [1] [0] [0] 1)
    (x : (⟨2, ![n, f]⟩ : Shape).Idx → EReal) (idx : IVec ⟨2, ![e, 1]⟩ w)
    (upd : (⟨2, ![e, f]⟩ : Shape).Idx → EReal) (r : Fin n) (c : Fin f) :
    Ideal.hostScatterAdd (rowsDims n e f wf) x idx upd (ix2 r c)
      = x (ix2 r c) + ∑ k : Fin e, if (idx (ix2 k (0 : Fin 1))).toInt = (r.val : ℤ) then upd (ix2 k c) else 0 := by
  unfold Ideal.hostScatterAdd
  refine congrArg (x (ix2 r c) + ·) ?_
  rw [Finset.sum_filter, sum_idx2]
  refine Finset.sum_congr rfl fun k _ => ?_
  by_cases h : (idx (ix2 k (0 : Fin 1))).toInt = (r.val : ℤ)
  · rw [if_pos h, Finset.sum_eq_single c]
    · exact if_pos ((rows_resultIdx wf (ix2 k c) idx (ix2 r c)).mpr ⟨h, rfl⟩)
    · intro b _ hb
      exact if_neg fun hr => hb (Fin.ext ((rows_resultIdx wf (ix2 k b) idx (ix2 r c)).mp hr).2)
    · intro hc; exact absurd (Finset.mem_univ c) hc
  · rw [if_neg h]
    refine Finset.sum_eq_zero fun b _ => ?_
    exact if_neg fun hr => h ((rows_resultIdx wf (ix2 k b) idx (ix2 r c)).mp hr).1

/-! ## The gathers -/

/-- The dimension numbers of a gather of entries of a flat operand `[n]` at indices `[e, 1]` into `[e]`. -/
abbrev vecGatherDims (n e : Nat) (wf : GatherDims.WF ⟨1, ![n]⟩ ⟨2, ![e, 1]⟩ ⟨1, ![e]⟩ [] [0] [] [0] [] 1 ![1]) :
    GatherDims ⟨1, ![n]⟩ ⟨2, ![e, 1]⟩ ⟨1, ![e]⟩ where
  offsetDims := []
  collapsedSliceDims := [0]
  operandBatchingDims := []
  startIndicesBatchingDims := []
  startIndexMap := [0]
  indexVectorDim := 1
  sliceSizes := ![1]
  wf := wf

/-- THE FLAT GATHER READ AT `k`: the operand at the clamped id of row `k`. -/
theorem vecGather_apply {α : Type} {n e w : Nat} (hn : 0 < n)
    (wf : GatherDims.WF ⟨1, ![n]⟩ ⟨2, ![e, 1]⟩ ⟨1, ![e]⟩ [] [0] [] [0] [] 1 ![1])
    (x : (⟨1, ![n]⟩ : Shape).Idx → α) (idx : IVec ⟨2, ![e, 1]⟩ w) (k : Fin e) :
    Host.gather (vecGatherDims n e wf) x idx (ix1 k) = x (ix1 (clampRow n hn (idx (ix2 k (0 : Fin 1))))) := by
  unfold Host.gather
  congr 1
  funext a
  obtain rfl : a = 0 := Subsingleton.elim _ _
  refine Fin.ext ?_
  show (vecGatherDims n e wf).start (ix1 k) idx 0 + (vecGatherDims n e wf).batchCoord (ix1 k) 0
    + (vecGatherDims n e wf).offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims n e wf).startIndexMap from List.mem_singleton.mpr rfl)]
  have hsi : (vecGatherDims n e wf).siIdx (ix1 k) ⟨List.idxOf (0 : Fin 1) (vecGatherDims n e wf).startIndexMap,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

/-- The dimension numbers of a gather of whole rows of an operand `[n, f]` at indices `[e, 1]` into `[e, f]`. -/
abbrev rowGatherDims (n e f : Nat) (wf : GatherDims.WF ⟨2, ![n, f]⟩ ⟨2, ![e, 1]⟩ ⟨2, ![e, f]⟩ [1] [0] [] [0] [] 1 ![1, f]) :
    GatherDims ⟨2, ![n, f]⟩ ⟨2, ![e, 1]⟩ ⟨2, ![e, f]⟩ where
  offsetDims := [1]
  collapsedSliceDims := [0]
  operandBatchingDims := []
  startIndicesBatchingDims := []
  startIndexMap := [0]
  indexVectorDim := 1
  sliceSizes := ![1, f]
  wf := wf

/-- THE ROW GATHER READ AT `(k, c)`: column `c` of the operand's row at the clamped id of row `k`. -/
theorem rowGather_apply {α : Type} {n e f w : Nat} (hn : 0 < n)
    (wf : GatherDims.WF ⟨2, ![n, f]⟩ ⟨2, ![e, 1]⟩ ⟨2, ![e, f]⟩ [1] [0] [] [0] [] 1 ![1, f])
    (x : (⟨2, ![n, f]⟩ : Shape).Idx → α) (idx : IVec ⟨2, ![e, 1]⟩ w) (k : Fin e) (c : Fin f) :
    Host.gather (rowGatherDims n e f wf) x idx (ix2 k c) = x (ix2 (clampRow n hn (idx (ix2 k (0 : Fin 1)))) c) := by
  unfold Host.gather
  congr 1
  funext a
  refine Fin.ext ?_
  match a with
  | ⟨0, _⟩ =>
    show (rowGatherDims n e f wf).start (ix2 k c) idx 0 + (rowGatherDims n e f wf).batchCoord (ix2 k c) 0
      + (rowGatherDims n e f wf).offCoord (ix2 k c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e f wf).startIndexMap from List.mem_singleton.mpr rfl)]
    have hsi : (rowGatherDims n e f wf).siIdx (ix2 k c) ⟨List.idxOf (0 : Fin 2) (rowGatherDims n e f wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show (rowGatherDims n e f wf).start (ix2 k c) idx 1 + (rowGatherDims n e f wf).batchCoord (ix2 k c) 1
      + (rowGatherDims n e f wf).offCoord (ix2 k c) 1 = c.val
    rw [GatherDims.batchCoord_eq_zero _ _ _ List.not_mem_nil]
    have hs : (rowGatherDims n e f wf).start (ix2 k c) idx 1 = 0 := by
      unfold GatherDims.start
      rw [dif_neg (show ¬ (1 : Fin 2) ∈ ([0] : List (Fin 2)) by decide)]
    have ho : (rowGatherDims n e f wf).offCoord (ix2 k c) 1 = c.val := by
      unfold GatherDims.offCoord
      rw [dif_pos (show (1 : Fin 2) ∈ (rowGatherDims n e f wf).sKept from
        (GatherDims.mem_sKept _ _).mpr
          ⟨(show ¬ (1 : Fin 2) ∈ ([0] : List (Fin 2)) by decide), List.not_mem_nil⟩)]
      rfl
    rw [hs, ho, Nat.zero_add]

end Idealize.ShloMosaic.RowOps

end
-- ==== Proof.Spec.lean ====
/-
  The function both programs compute, written once over plain index types.

  A graph of 50000 nodes and 800000 directed edges (edge k runs from node `row k` to node `col k`, both read from a
  [2, 800000] array of 32-bit words) carries a 256-wide feature row per node and a 128-wide one per edge.  Edge
  features go through a two-layer perceptron with relu after each layer.  Node features go through such a perceptron
  and then through three graph-convolution layers with the symmetric normalisation  D^(-1/2) (A + I) D^(-1/2):
  with  deg i = 1 + #{k | col k = i}  and  dis i = deg i ^ (-1/2),  a layer takes h to

      out(i, c) = sum over the edges k with col k = i, and over the self loop at i, of
                    dis(source) * dis(i) * (h W)(source, c)       + b(c),

  followed by relu on the first two layers.  One program scales every row of h W by dis first, sums the scaled rows of
  the real edges' sources, adds the node's own scaled row and scales the total by dis i; the other appends the 50000
  self loops to the edge list and sums the terms above over the 850000 entries.  This file states both forms; that they
  agree is `Cert.GraphLaw`.
-/
import proofs.«173266_j39247411151001_2_alg».proof.Proof.LibDense
import proofs.«173266_j39247411151001_2_alg».proof.Proof.LibRowOps
import Idealize.ShloMosaic.PureOps.Ideal
import Idealize.ShloMosaic.Lib.ValueIdx

noncomputable section

open scoped BigOperators

namespace Cert.Spec

open Idealize.ShloMosaic Idealize.ShloMosaic.ValueIdx Idealize.ShloMosaic.RowOps

/-- An [a, b] matrix and an [a] vector of extended reals. -/
abbrev Mat (a b : ℕ) := (⟨2, ![a, b]⟩ : Shape).Idx → EReal
abbrev Vc (a : ℕ) := (⟨1, ![a]⟩ : Shape).Idx → EReal

/-- The words of zero and one. -/
abbrev z32 : EReal := Ideal.ofBits .f32 0x00000000#32
abbrev o32 : EReal := Ideal.ofBits .f32 0x3F800000#32

/-- relu of every entry. -/
def relu {a b : ℕ} (y : Mat a b) : Mat a b := fun j => max (y j) z32

/-- Entry (r, n) of x times w. -/
def lin (A K N : ℕ) (x : Mat A K) (w : Mat K N) : Mat A N :=
  fun j => ∑ k : Fin K, x (ix2 (j 0 : Fin A) k) * w (ix2 k (j 1 : Fin N))

/-- A two-layer perceptron on rows, relu after each layer. -/
def mlp2 (A K H N : ℕ) (x : Mat A K) (w1 : Mat K H) (b1 : Vc H) (w2 : Mat H N) (b2 : Vc N) : Mat A N :=
  relu (Cert.LibDense.dense A H N (relu (Cert.LibDense.dense A K H x w1 b1)) w2 b2)

/-! ## The edge list -/

/-- The edge array: row 0 holds the sources, row 1 the targets. -/
abbrev Edges := (⟨2, ![2, 800000]⟩ : Shape).Idx → BitVec 32

def rowOf (ei : Edges) (k : Fin 800000) : BitVec 32 := ei (ix2 (0 : Fin 2) k)
def colOf (ei : Edges) (k : Fin 800000) : BitVec 32 := ei (ix2 (1 : Fin 2) k)

/-- The edge list with the 50000 self loops appended: entry k past the real edges is the node k - 800000. -/
def rowAll (ei : Edges) (k : Fin 850000) : BitVec 32 :=
  if h : k.val < 800000 then rowOf ei ⟨k.val, h⟩ else BitVec.ofNat 32 (k.val - 800000)
def colAll (ei : Edges) (k : Fin 850000) : BitVec 32 :=
  if h : k.val < 800000 then colOf ei ⟨k.val, h⟩ else BitVec.ofNat 32 (k.val - 800000)

/-- A negative id counts from the end. -/
def wrap (w : BitVec 32) : BitVec 32 := Scalar.select (IntOp.cmpi .slt w 0#32) (IntOp.addi w 50000#32) w

/-- The node whose row a gather reads for the id `w`: wrapped, read signed, clamped into the array. -/
def gidx (w : BitVec 32) : Fin 50000 := clampRow 50000 (by decide) (wrap w)

/-! ## The normalisation -/

/-- The factor of a node of degree `deg`: deg^(-1/2) where deg > 0, else 0. -/
def disOf (deg : EReal) : EReal :=
  Scalar.select (FloatOps.cmpf (F := Ideal) (φ := .f32) .ogt deg z32) (Ideal.rsqrt deg) z32

/-- Counted over the real edges, the self loop added afterwards. -/
def degK (ei : Edges) (i : Fin 50000) : EReal :=
  (z32 + ∑ k : Fin 800000, if (colOf ei k).toInt = (i.val : ℤ) then o32 else 0) + o32
def disK (ei : Edges) (i : Fin 50000) : EReal := disOf (degK ei i)

/-- Counted over the list with the self loops in it. -/
def degR (ei : Edges) (i : Fin 50000) : EReal :=
  z32 + ∑ k : Fin 850000, if (colAll ei k).toInt = (i.val : ℤ) then o32 else 0
def disR (ei : Edges) (i : Fin 50000) : EReal := disOf (degR ei i)

/-! ## One layer, scaled rows first -/

/-- The rows of h W, each scaled by its node's factor. -/
def scaledLin (ei : Edges) (K : ℕ) (h : Mat 50000 K) (w : Mat K 128) : Mat 50000 128 :=
  fun j => disK ei (j 0 : Fin 50000) * lin 50000 K 128 h w j

/-- The scaled rows of the sources of the real edges into node i, summed. -/
def segK (ei : Edges) (hws : Mat 50000 128) : Mat 50000 128 :=
  fun j => z32 + ∑ k : Fin 800000,
    if (colOf ei k).toInt = (((j 0 : Fin 50000)).val : ℤ) then hws (ix2 (gidx (rowOf ei k)) (j 1 : Fin 128)) else 0

/-- The layer's result before its activation: the sum and the node's own scaled row, scaled, plus the bias. -/
def finK (ei : Edges) (hws : Mat 50000 128) (b : Vc 128) : Mat 50000 128 :=
  fun j => disK ei (j 0 : Fin 50000) * (segK ei hws j + hws j) + b (ix1 (j 1 : Fin 128))

/-- The node output, this way. -/
def nodeK (ei : Edges) (x : Mat 50000 256) (nW1 : Mat 256 128) (nb1 : Vc 128) (nW2 : Mat 128 128) (nb2 : Vc 128)
    (cW1 : Mat 128 128) (cb1 : Vc 128) (cW2 : Mat 128 128) (cb2 : Vc 128) (cW3 : Mat 128 128) (cb3 : Vc 128) :
    Mat 50000 128 :=
  finK ei (scaledLin ei 128 (relu (finK ei (scaledLin ei 128 (relu (finK ei
    (scaledLin ei 128 (mlp2 50000 256 128 128 x nW1 nb1 nW2 nb2) cW1) cb1)) cW2) cb2)) cW3) cb3

/-! ## One layer, one weight per entry of the long list -/

/-- The weight of entry k of the long list: the factors of its two ends. -/
def normR (ei : Edges) (k : Fin 850000) : EReal := disR ei (gidx (rowAll ei k)) * disR ei (gidx (colAll ei k))

/-- The weighted rows of the sources of the entries into node i, summed. -/
def aggR (ei : Edges) (hw : Mat 50000 128) : Mat 50000 128 :=
  fun j => z32 + ∑ k : Fin 850000,
    if (colAll ei k).toInt = (((j 0 : Fin 50000)).val : ℤ) then normR ei k * hw (ix2 (gidx (rowAll ei k)) (j 1 : Fin 128)) else 0

/-- The layer's result before its activation. -/
def convR (ei : Edges) (K : ℕ) (h : Mat 50000 K) (w : Mat K 128) (b : Vc 128) : Mat 50000 128 :=
  fun j => aggR ei (lin 50000 K 128 h w) j + b (ix1 (j 1 : Fin 128))

/-- The node output, that way. -/
def nodeR (ei : Edges) (x : Mat 50000 256) (nW1 : Mat 256 128) (nb1 : Vc 128) (nW2 : Mat 128 128) (nb2 : Vc 128)
    (cW1 : Mat 128 128) (cb1 : Vc 128) (cW2 : Mat 128 128) (cb2 : Vc 128) (cW3 : Mat 128 128) (cb3 : Vc 128) :
    Mat 50000 128 :=
  convR ei 128 (relu (convR ei 128 (relu (convR ei 128 (mlp2 50000 256 128 128 x nW1 nb1 nW2 nb2) cW1 cb1)) cW2 cb2)) cW3 cb3

end Cert.Spec

end
-- ==== Proof.LibScaleSum.lean ====
/-
  A nonnegative real factor and a guarded finite sum of extended reals.

  On the extended reals a product does not distribute over a sum in general (`⊤ + ⊥`), but a NONNEGATIVE REAL factor
  does: `(∑ a) * x = ∑ (a * x)`. So a sum of terms `a e * s e` over the rows `e` selected by a predicate, scaled
  afterwards by one factor `d`, is the sum of the terms `a e * (s e * t e)` whenever `t e = d` on the selected rows.
  The factor met here is an inverse square root of one plus a count, which is such a real. Two words: the bit
  pattern `0x3F800000` is the real `1`; and a 32-bit word that is nonnegative as a signed integer is left alone by
  the wrap-around `if w < 0 then w + n else w`.
-/
import Idealize.ShloMosaic.PureOps.Ideal
import Idealize.ShloMosaic.Lib.ValueIdx

noncomputable section

namespace Idealize.ShloMosaic.ScaleSum

open Idealize.ShloMosaic Idealize.ShloMosaic.ValueIdx
open scoped BigOperators

/-- A nonnegative real factor distributes over a finite sum of extended reals. -/
theorem sum_mul_of_nonneg {ι : Type*} (s : Finset ι) (a : ι → EReal) {x : ℝ} (hx : 0 ≤ x) :
    (∑ i ∈ s, a i) * (x : EReal) = ∑ i ∈ s, a i * (x : EReal) := by
  classical
  refine Finset.induction_on s ?_ ?_
  · rw [Finset.sum_empty, Finset.sum_empty, zero_mul]
  · intro i s hi ih
    rw [Finset.sum_insert hi, Finset.sum_insert hi,
      EReal.right_distrib_of_nonneg_of_ne_top (EReal.coe_nonneg.mpr hx) (EReal.coe_ne_top x), ih]

/-- THE LAW: the selected rows' terms `a e * s e` summed (onto `0`) and then scaled by `d` are the selected rows'
    terms `a e * (s e * t e)` summed, when `d` is a nonnegative real and `t e = d` on every selected row. -/
theorem scaled_sum_law {E : ℕ} (P : Fin E → Prop) [DecidablePred P] (a s t : Fin E → EReal) (d : EReal)
    (hd : ∃ x : ℝ, 0 ≤ x ∧ d = (x : EReal)) (ht : ∀ e, P e → t e = d) :
    ((0 : EReal) + ∑ e : Fin E, if P e then a e * s e else 0) * d
      = (0 : EReal) + ∑ e : Fin E, if P e then a e * (s e * t e) else 0 := by
  obtain ⟨x, hx, rfl⟩ := hd
  rw [zero_add, zero_add, sum_mul_of_nonneg Finset.univ _ hx]
  refine Finset.sum_congr rfl fun e _ => ?_
  by_cases hP : P e
  · rw [if_pos hP, if_pos hP, ht e hP, mul_assoc]
  · rw [if_neg hP, if_neg hP, zero_mul]

/-- The inverse square root of one plus a count (a sum of ones over the selected rows, onto `0`) is a nonnegative real. -/
theorem rsqrt_count {E : ℕ} (P : Fin E → Prop) [DecidablePred P] :
    ∃ x : ℝ, 0 ≤ x ∧ Ideal.rsqrt (((0 : EReal) + ∑ e : Fin E, if P e then (1 : EReal) else 0) + 1) = (x : EReal) := by
  -- the sum of ones over the selected rows is the (real) number of selected rows
  have hsum : (∑ e : Fin E, if P e then (1 : EReal) else 0)
      = (((Finset.univ.filter P).card : ℝ) : EReal) := by
    rw [Finset.sum_boole]; rfl
  have hpos : (0 : ℝ) < ((Finset.univ.filter P).card : ℝ) + 1 := by positivity
  refine ⟨(Real.sqrt (((Finset.univ.filter P).card : ℝ) + 1))⁻¹, inv_nonneg.mpr (Real.sqrt_nonneg _), ?_⟩
  rw [zero_add, hsum, ← EReal.coe_one, ← EReal.coe_add, Ideal.rsqrt_coe,
    if_neg (not_lt.mpr hpos.le), if_neg hpos.ne']

/-- The single-precision bit pattern of one is the real `1`. -/
theorem ofBits_one : Ideal.ofBits .f32 0x3F800000#32 = (1 : EReal) := by
  simp [Ideal.ofBits, Ideal.ieee, -EReal.coe_mul]; norm_num

/-- A word that is nonnegative as a signed integer is left alone by the wrap-around of negative indices. -/
theorem wrap_of_nonneg (w n : BitVec 32) (h : 0 ≤ w.toInt) :
    Scalar.select (IntOp.cmpi .slt w 0#32) (IntOp.addi w n) w = w := by
  have hs : w.slt 0#32 = false := by
    simp only [BitVec.slt, BitVec.toInt_zero, decide_eq_false_iff_not, not_lt]
    exact h
  unfold IntOp.cmpi
  simp only [hs]
  exact select_zero _ _

end Idealize.ShloMosaic.ScaleSum

end
-- ==== Proof.GraphLaw.lean ====
/-
  The two forms of the graph-convolution layer agree.

  One form counts the degree of a node over the 800000 real edges and adds the self loop afterwards, scales the rows
  of h W by the factor dis first, sums the scaled rows over the real edges into a node, adds the node's own scaled
  row, and scales the total by dis of the node.  The other appends the 50000 self loops to the edge list and sums, over
  the 850000 entries into a node, the product of the two ends' factors times the source's row.  The long sum splits
  into the real edges and the loops; of the loops only the one at the node itself is selected, and its two ends are
  the node.  On a selected real edge the target is the node.  The factor dis is a nonnegative real (an inverse square
  root of one plus a count, or zero), and a nonnegative real factor distributes over sums of extended reals.
-/
import proofs.«173266_j39247411151001_2_alg».proof.Proof.Spec
import proofs.«173266_j39247411151001_2_alg».proof.Proof.LibScaleSum

noncomputable section

open scoped BigOperators

namespace Cert.GraphLaw

open Cert.Spec Idealize.ShloMosaic Idealize.ShloMosaic.ValueIdx Idealize.ShloMosaic.RowOps Idealize.ShloMosaic.ScaleSum

/-! ## Sums: splitting a long one, a single selected entry, a factor moved inside -/

/-- A sum over the first `e + n` naturals is the sum over the first `e` plus the sum over the `n` that follow,
    each part given termwise. -/
theorem sum_split {e n M : ℕ} (hM : M = e + n) (f : Fin M → EReal) (a : Fin e → EReal) (c : Fin n → EReal)
    (ha : ∀ (k : Fin e) (hk : k.val < M), f ⟨k.val, hk⟩ = a k)
    (hc : ∀ (j : Fin n) (hj : e + j.val < M), f ⟨e + j.val, hj⟩ = c j) :
    ∑ k, f k = ∑ k, a k + ∑ j, c j := by
  subst hM
  rw [Fin.sum_univ_add]
  exact congrArg₂ (· + ·) (Finset.sum_congr rfl fun k _ => ha k _) (Finset.sum_congr rfl fun j _ => hc j _)

/-- Of the terms guarded by "the entry's number is `i`", only the one at `i` is left. -/
theorem sum_loops {n : ℕ} (i : Fin n) (f : Fin n → EReal) :
    (∑ j : Fin n, if (j.val : ℤ) = (i.val : ℤ) then f j else 0) = f i := by
  rw [Finset.sum_eq_single i]
  · rw [if_pos rfl]
  · intro j _ hj
    rw [if_neg]
    intro h
    exact hj (Fin.ext (by exact_mod_cast h))
  · intro h
    exact absurd (Finset.mem_univ i) h

/-- A nonnegative real factor goes inside a guarded sum. -/
theorem mul_guarded_sum {E : ℕ} (P : Fin E → Prop) [DecidablePred P] (a : Fin E → EReal) {x : ℝ} (hx : 0 ≤ x) :
    (x : EReal) * (∑ e : Fin E, if P e then a e else 0) = ∑ e : Fin E, if P e then a e * (x : EReal) else 0 := by
  rw [mul_comm, sum_mul_of_nonneg Finset.univ _ hx]
  refine Finset.sum_congr rfl fun e _ => ?_
  by_cases h : P e
  · rw [if_pos h, if_pos h]
  · rw [if_neg h, if_neg h, zero_mul]

/-- The arithmetic of one layer: a nonnegative real `x` times (a guarded sum onto `0`, plus `x * y`) is the guarded
    sum of the terms times `x`, plus `(x * x) * y`, onto `0`. -/
theorem scaled_law {E : ℕ} (P : Fin E → Prop) [DecidablePred P] (a : Fin E → EReal) (y : EReal) {x : ℝ} (hx : 0 ≤ x) :
    (x : EReal) * (((0 : EReal) + ∑ e : Fin E, if P e then a e else 0) + (x : EReal) * y)
      = (0 : EReal) + ((∑ e : Fin E, if P e then a e * (x : EReal) else 0) + ((x : EReal) * (x : EReal)) * y) := by
  rw [zero_add, zero_add, EReal.left_distrib_of_nonneg_of_ne_top (EReal.coe_nonneg.mpr hx) (EReal.coe_ne_top x),
    mul_guarded_sum P a hx, mul_assoc]

/-- A choice on one bit between two nonnegative reals is a nonnegative real. -/
theorem select_real (c : BitVec 1) (a b : EReal) (ha : ∃ x : ℝ, 0 ≤ x ∧ a = (x : EReal))
    (hb : ∃ x : ℝ, 0 ≤ x ∧ b = (x : EReal)) : ∃ x : ℝ, 0 ≤ x ∧ Scalar.select c a b = (x : EReal) := by
  rcases BitVec.eq_zero_or_eq_one c with h | h
  · rw [h, select_zero]; exact hb
  · rw [h, select_one]; exact ha

/-! ## The entries of the long list, and the node a word names -/

theorem colAll_lo (ei : Edges) (k : Fin 800000) (hk : k.val < 850000) : colAll ei ⟨k.val, hk⟩ = colOf ei k := by
  unfold colAll
  rw [dif_pos k.isLt]

theorem rowAll_lo (ei : Edges) (k : Fin 800000) (hk : k.val < 850000) : rowAll ei ⟨k.val, hk⟩ = rowOf ei k := by
  unfold rowAll
  rw [dif_pos k.isLt]

theorem colAll_hi (ei : Edges) (j : Fin 50000) (hj : 800000 + j.val < 850000) :
    colAll ei ⟨800000 + j.val, hj⟩ = BitVec.ofNat 32 j.val := by
  unfold colAll
  rw [dif_neg (show ¬ 800000 + j.val < 800000 by omega), Nat.add_sub_cancel_left]

theorem rowAll_hi (ei : Edges) (j : Fin 50000) (hj : 800000 + j.val < 850000) :
    rowAll ei ⟨800000 + j.val, hj⟩ = BitVec.ofNat 32 j.val := by
  unfold rowAll
  rw [dif_neg (show ¬ 800000 + j.val < 800000 by omega), Nat.add_sub_cancel_left]

/-- A node number, as a 32-bit word, reads back as itself as a signed integer: it is below `2 ^ 31`. -/
theorem toInt_ofNat_node (j : Fin 50000) : (BitVec.ofNat 32 j.val).toInt = (j.val : ℤ) := by
  have hj := j.isLt
  have h1 : (BitVec.ofNat 32 j.val).toNat = j.val := by
    rw [BitVec.toNat_ofNat]
    exact Nat.mod_eq_of_lt (by omega)
  rw [BitVec.toInt_eq_toNat_of_lt (by rw [h1]; omega), h1]

/-- A word whose signed value is the node number `i` names the node `i`: it is not negative, so it is not wrapped,
    and it is below `50000`, so it is not clamped. -/
theorem gidx_of_toInt (w : BitVec 32) (i : Fin 50000) (h : w.toInt = (i.val : ℤ)) : gidx w = i := by
  have hw : wrap w = w := wrap_of_nonneg w 50000#32 (by omega)
  unfold gidx
  rw [hw]
  apply Fin.ext
  show min w.toInt.toNat (50000 - 1) = i.val
  have := i.isLt
  omega

/-! ## The degree and the factor -/

/-- The count over the long list: the count over the real edges, plus one for the loop at the node. -/
theorem degK_eq_degR (ei : Edges) (i : Fin 50000) : degK ei i = degR ei i := by
  unfold degK degR
  rw [add_assoc]
  refine congrArg (z32 + ·) ?_
  refine Eq.trans ?_ (sum_split (show 850000 = 800000 + 50000 by norm_num) _
    (fun k => if (colOf ei k).toInt = (i.val : ℤ) then o32 else 0)
    (fun j => if (j.val : ℤ) = (i.val : ℤ) then o32 else 0) ?_ ?_).symm
  · rw [sum_loops i (fun _ => o32)]
  · intro k hk
    rw [colAll_lo]
  · intro j hj
    rw [colAll_hi, toInt_ofNat_node]

theorem disK_eq_disR (ei : Edges) (i : Fin 50000) : disK ei i = disR ei i := by
  unfold disK disR
  rw [degK_eq_degR]

theorem disK_real (ei : Edges) (i : Fin 50000) : ∃ x : ℝ, 0 ≤ x ∧ disK ei i = (x : EReal) := by
  have hz : z32 = 0 := Ideal.ofBits_zero_f32
  have ho : o32 = 1 := ofBits_one
  unfold disK disOf
  refine select_real _ _ _ ?_ ⟨0, le_rfl, by rw [hz, EReal.coe_zero]⟩
  unfold degK
  rw [hz, ho]
  exact rsqrt_count (fun k : Fin 800000 => (colOf ei k).toInt = (i.val : ℤ))

/-! ## One layer -/

/-- The layer at node `i`, for one column `L` of h W. -/
theorem layer_law (ei : Edges) (L : Fin 50000 → EReal) (i : Fin 50000) :
    disK ei i * ((z32 + ∑ k : Fin 800000, if (colOf ei k).toInt = (i.val : ℤ)
        then disK ei (gidx (rowOf ei k)) * L (gidx (rowOf ei k)) else 0) + disK ei i * L i)
      = z32 + ∑ k : Fin 850000, if (colAll ei k).toInt = (i.val : ℤ)
        then (disR ei (gidx (rowAll ei k)) * disR ei (gidx (colAll ei k))) * L (gidx (rowAll ei k)) else 0 := by
  have hd : disR ei = disK ei := funext fun r => (disK_eq_disR ei r).symm
  have hz : z32 = 0 := Ideal.ofBits_zero_f32
  obtain ⟨x, hx, hxi⟩ := disK_real ei i
  rw [hd, hz]
  refine Eq.trans ?_ (congrArg ((0 : EReal) + ·) (sum_split (show 850000 = 800000 + 50000 by norm_num) _
    (fun k => if (colOf ei k).toInt = (i.val : ℤ)
      then (disK ei (gidx (rowOf ei k)) * L (gidx (rowOf ei k))) * disK ei i else 0)
    (fun j => if (j.val : ℤ) = (i.val : ℤ) then (disK ei j * disK ei j) * L j else 0) ?_ ?_).symm)
  · rw [sum_loops i (fun j => (disK ei j * disK ei j) * L j), hxi]
    exact scaled_law _ _ _ hx
  · intro k hk
    rw [colAll_lo, rowAll_lo]
    by_cases h : (colOf ei k).toInt = (i.val : ℤ)
    · rw [if_pos h, if_pos h, gidx_of_toInt _ i h, mul_right_comm]
    · rw [if_neg h, if_neg h]
  · intro j hj
    rw [colAll_hi, rowAll_hi, toInt_ofNat_node, gidx_of_toInt _ j (toInt_ofNat_node j)]

theorem finK_scaledLin (ei : Edges) (K : ℕ) (h : Mat 50000 K) (w : Mat K 128) (b : Vc 128) :
    finK ei (scaledLin ei K h w) b = convR ei K h w b := by
  funext j
  obtain ⟨i, c, rfl⟩ : ∃ (i : Fin 50000) (c : Fin 128), j = ix2 i c := ⟨j 0, j 1, eq_ix2 j⟩
  unfold finK convR segK aggR scaledLin normR
  exact congrArg (· + b (ix1 c)) (layer_law ei (fun r => lin 50000 K 128 h w (ix2 r c)) i)

theorem nodeK_eq_nodeR (ei : Edges) (x : Mat 50000 256) (nW1 : Mat 256 128) (nb1 : Vc 128) (nW2 : Mat 128 128) (nb2 : Vc 128)
    (cW1 : Mat 128 128) (cb1 : Vc 128) (cW2 : Mat 128 128) (cb2 : Vc 128) (cW3 : Mat 128 128) (cb3 : Vc 128) :
    nodeK ei x nW1 nb1 nW2 nb2 cW1 cb1 cW2 cb2 cW3 cb3 = nodeR ei x nW1 nb1 nW2 nb2 cW1 cb1 cW2 cb2 cW3 cb3 := by
  unfold nodeK nodeR
  rw [finK_scaledLin, finK_scaledLin, finK_scaledLin]

end Cert.GraphLaw

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.LibSegmentSum.lean ====
/-
  An accumulating scatter of a flat list of updates into a flat array, read at an index — the form a
  segment sum `out[seg[k]] += data[k]` takes — in its two spellings: updates and result as flat arrays
  (`[e]` into `[n]`), and as one-column matrices (`[e, 1]` into `[n, 1]`, the column a window axis).
  In both the result at position `i` is the operand there plus the sum, over the update rows `k` whose
  segment id (the index array's entry `[k, 0]`, read as a signed integer) equals `i`, of update `k`;
  an id outside `[0, n)` names no position and its update is dropped. So the two spellings are one
  function, up to the reshaping of a column into a flat array.
-/
import Idealize.ShloMosaic.PureOps.Ideal
import Idealize.ShloMosaic.Lib.ValueIdx
import Idealize.ShloMosaic.Lib.Pipeline.Value

noncomputable section

namespace Idealize.ShloMosaic.SegmentSum

open Idealize.ShloMosaic Idealize.ShloMosaic.ValueIdx
open scoped BigOperators

/-! ## Flat arrays and one-column matrices are indexed by their rows -/

/-- A flat array's indices are its positions. -/
def rowEquiv1 {n : Nat} : (⟨1, ![n]⟩ : Shape).Idx ≃ Fin n where
  toFun j := j 0
  invFun := ix1
  left_inv j := (eq_ix1 j).symm
  right_inv _ := rfl

/-- A one-column matrix's indices are its rows. -/
def rowEquiv2 {n : Nat} : (⟨2, ![n, 1]⟩ : Shape).Idx ≃ Fin n where
  toFun j := j 0
  invFun a := ix2 a 0
  left_inv j := by
    funext a
    match a with
    | ⟨0, _⟩ => rfl
    | ⟨1, _⟩ => exact Subsingleton.elim (α := Fin 1) _ _
  right_inv _ := rfl

/-- On the extended reals the host's accumulating scatter is the exact sum, whatever the schedule. -/
theorem scatterAdd_ideal {φ : FTy} {s si u : Shape} {w : Nat} (d : ScatterDims s si u) (x : FVec Ideal s φ)
    (idx : IVec si w) (upd : FVec Ideal u φ) :
    Host.scatterAdd (F := Ideal) d x idx upd = Ideal.hostScatterAdd d x idx upd := rfl

/-! ## The layout operations around a segment sum, read at an index -/

/-- The ids `[n]` broadcast to the index array `[n, 1]` read, at `(k, 0)`, id `k`. -/
theorem ids_apply {α : Type} {n : Nat} (h : (⟨1, ![n]⟩ : Shape).BroadcastsInDim ⟨2, ![n, 1]⟩ ![0]) (hn : n ≠ 1)
    (x : (⟨1, ![n]⟩ : Shape).Idx → α) (k : Fin n) :
    broadcastInDim ⟨2, ![n, 1]⟩ ![0] h x (ix2 k (0 : Fin 1)) = x (ix1 k) :=
  broadcastInDim_apply _ h x (ix2 k 0) (ix1 k) (fun b => match b with
    | ⟨0, _⟩ => by show k.val = if n = 1 then 0 else k.val; rw [if_neg hn])

/-- A one-column matrix `[n, 1]` reshaped to the flat array `[n]` reads, at `k`, entry `(k, 0)`. -/
theorem flatten_apply {α : Type} {n : Nat} (h : (⟨2, ![n, 1]⟩ : Shape).ShapeCasts ⟨1, ![n]⟩)
    (y : (⟨2, ![n, 1]⟩ : Shape).Idx → α) (k : Fin n) :
    shapeCast ⟨1, ![n]⟩ y h (ix1 k) = y (ix2 k (0 : Fin 1)) :=
  shapeCast_apply y h (ix1 k) (ix2 k 0) (by
    rw [Shape.rowMajor_val_two, Shape.rowMajor_val_one]; show k.val * 1 + 0 = k.val; omega)

/-! ## The flat spelling -/

/-- The dimension numbers of a scatter of flat updates `[e]` into a flat operand `[n]` at indices `[e, 1]`:
    no window axis, the operand's one axis inserted and indexed by the index vector's one component. -/
abbrev flatDims (n e : Nat) (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

section Flat
variable {n e w : Nat} (wf : ScatterDims.WF ⟨1, ![n]⟩ ⟨2, ![e, 1]⟩ ⟨1, ![e]⟩ [] [0] [0] 1)

/-- Update `j` starts at the segment id of its row. -/
theorem flat_start (j : (⟨1, ![e]⟩ : Shape).Idx) (idx : IVec ⟨2, ![e, 1]⟩ w) :
    (flatDims n e wf).start j idx 0 = (idx (ix2 (j 0) 0)).toInt := by
  unfold ScatterDims.start
  rw [dif_pos (show (0 : Fin 1) ∈ (flatDims n e wf).scatterDimsToOperandDims from List.mem_singleton.mpr rfl)]
  have hsi : (flatDims n e wf).siIdx j ⟨List.idxOf (0 : Fin 1) (flatDims n e wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- There is no window: the only operand axis is inserted. -/
theorem flat_window (j : (⟨1, ![e]⟩ : Shape).Idx) : (flatDims n e wf).window j 0 = 0 := by
  unfold ScatterDims.window
  rw [dif_neg (fun h => by
    have h2 := (List.mem_filter.mp h).2
    simp at h2)]

/-- Update `j` lands on position `i` exactly when its row's segment id is `i`. -/
theorem flat_resultIdx (j : (⟨1, ![e]⟩ : Shape).Idx) (idx : IVec ⟨2, ![e, 1]⟩ w) (i : (⟨1, ![n]⟩ : Shape).Idx) :
    (flatDims n e wf).resultIdx? j idx = some i ↔ (idx (ix2 (j 0) 0)).toInt = ((i 0).val : ℤ) := by
  unfold ScatterDims.resultIdx?
  split_ifs with h
  · rw [Option.some.injEq]
    constructor
    · intro hi
      have h0 := (h 0).1
      rw [← hi]
      show _ = (((flatDims n e wf).start j idx 0 + ((flatDims n e wf).window j 0 : ℕ)).toNat : ℤ)
      rw [Int.toNat_of_nonneg h0, flat_start, flat_window]; simp
    · intro hi
      funext a
      obtain rfl : a = 0 := Subsingleton.elim _ _
      refine Fin.ext ?_
      show ((flatDims n e wf).start j idx 0 + ((flatDims n e wf).window j 0 : ℕ)).toNat = (i 0).val
      rw [flat_start, flat_window, hi]; simp
  · constructor
    · intro hi; exact absurd hi (by simp)
    · intro hi
      exfalso; apply h
      intro a
      obtain rfl : a = 0 := Subsingleton.elim _ _
      rw [flat_start, flat_window, hi]
      have := (i 0).isLt
      constructor <;> omega

/-- THE FLAT SCATTER READ AT `i`: the operand there plus the updates of the rows whose segment id is `i`. -/
theorem flat_apply (x : (⟨1, ![n]⟩ : Shape).Idx → EReal) (idx : IVec ⟨2, ![e, 1]⟩ w)
    (upd : (⟨1, ![e]⟩ : Shape).Idx → EReal) (i : (⟨1, ![n]⟩ : Shape).Idx) :
    Ideal.hostScatterAdd (flatDims n e wf) x idx upd i
      = x i + ∑ k : Fin e, if (idx (ix2 k 0)).toInt = ((i 0).val : ℤ) then upd (ix1 k) else 0 := by
  unfold Ideal.hostScatterAdd
  refine congrArg (x i + ·) ?_
  rw [Finset.sum_filter]
  refine Fintype.sum_equiv rowEquiv1 _ _ fun j => ?_
  show _ = if (idx (ix2 (j 0) 0)).toInt = ((i 0).val : ℤ) then upd (ix1 (j 0)) else 0
  by_cases h : (idx (ix2 (j 0) 0)).toInt = ((i 0).val : ℤ)
  · rw [if_pos ((flat_resultIdx wf j idx i).mpr h), if_pos h]
    exact congrArg upd (eq_ix1 j)
  · rw [if_neg (mt (flat_resultIdx wf j idx i).mp h), if_neg h]

end Flat

/-! ## The one-column spelling -/

/-- The dimension numbers of a scatter of one-column updates `[e, 1]` into a one-column operand `[n, 1]` at
    indices `[e, 1]`: the column is the window axis, the operand's row axis inserted and indexed. -/
abbrev colDims (n e : Nat) (wf : ScatterDims.WF ⟨2, ![n, 1]⟩ ⟨2, ![e, 1]⟩ ⟨2, ![e, 1]⟩ [1] [0] [0] 1) :
    ScatterDims ⟨2, ![n, 1]⟩ ⟨2, ![e, 1]⟩ ⟨2, ![e, 1]⟩ where
  updateWindowDims := [1]
  insertedWindowDims := [0]
  scatterDimsToOperandDims := [0]
  indexVectorDim := 1
  wf := wf

section Col
variable {n e w : Nat} (wf : ScatterDims.WF ⟨2, ![n, 1]⟩ ⟨2, ![e, 1]⟩ ⟨2, ![e, 1]⟩ [1] [0] [0] 1)

/-- On the row axis update `j` starts at the segment id of its row; -/
theorem col_start0 (j : (⟨2, ![e, 1]⟩ : Shape).Idx) (idx : IVec ⟨2, ![e, 1]⟩ w) :
    (colDims n e wf).start j idx 0 = (idx (ix2 (j 0) 0)).toInt := by
  unfold ScatterDims.start
  rw [dif_pos (show (0 : Fin 2) ∈ (colDims n e wf).scatterDimsToOperandDims from List.mem_singleton.mpr rfl)]
  have hsi : (colDims n e wf).siIdx j ⟨List.idxOf (0 : Fin 2) (colDims n e wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- on the column axis at `0`. -/
theorem col_start1 (j : (⟨2, ![e, 1]⟩ : Shape).Idx) (idx : IVec ⟨2, ![e, 1]⟩ w) :
    (colDims n e wf).start j idx 1 = 0 := by
  unfold ScatterDims.start
  rw [dif_neg (show ¬ (1 : Fin 2) ∈ ([0] : List (Fin 2)) by decide)]

/-- The row axis is inserted: no window coordinate there; -/
theorem col_window0 (j : (⟨2, ![e, 1]⟩ : Shape).Idx) : (colDims n e wf).window j 0 = 0 := by
  unfold ScatterDims.window
  rw [dif_neg (fun h => by
    have h2 := (List.mem_filter.mp h).2
    simp at h2)]

/-- the column axis carries the update's column coordinate. -/
theorem col_window1 (j : (⟨2, ![e, 1]⟩ : Shape).Idx) : (colDims n e wf).window j 1 = (j 1).val := by
  unfold ScatterDims.window
  rw [dif_pos (show (1 : Fin 2) ∈ (colDims n e wf).sKept from
    List.mem_filter.mpr ⟨List.mem_finRange _, by simp⟩)]
  rfl

/-- Update `j` lands on position `i` exactly when its row's segment id is `i`'s row (the columns, of width
    one, always agree). -/
theorem col_resultIdx (j : (⟨2, ![e, 1]⟩ : Shape).Idx) (idx : IVec ⟨2, ![e, 1]⟩ w) (i : (⟨2, ![n, 1]⟩ : Shape).Idx) :
    (colDims n e wf).resultIdx? j idx = some i ↔ (idx (ix2 (j 0) 0)).toInt = ((i 0).val : ℤ) := by
  have hj1 : (j 1).val = 0 := by have : (j 1).val < 1 := (j 1).isLt; omega
  have hi1 : (i 1).val = 0 := by have : (i 1).val < 1 := (i 1).isLt; omega
  unfold ScatterDims.resultIdx?
  split_ifs with h
  · rw [Option.some.injEq]
    constructor
    · intro hi
      have h0 := (h 0).1
      rw [← hi]
      show _ = (((colDims n e wf).start j idx 0 + ((colDims n e wf).window j 0 : ℕ)).toNat : ℤ)
      rw [Int.toNat_of_nonneg h0, col_start0, col_window0]; simp
    · intro hi
      funext a
      refine Fin.ext ?_
      match a with
      | ⟨0, _⟩ =>
        show ((colDims n e wf).start j idx 0 + ((colDims n e wf).window j 0 : ℕ)).toNat = (i 0).val
        rw [col_start0, col_window0, hi]; simp
      | ⟨1, _⟩ =>
        show ((colDims n e wf).start j idx 1 + ((colDims n e wf).window j 1 : ℕ)).toNat = (i 1).val
        rw [col_start1, col_window1, hj1, hi1]; simp
  · constructor
    · intro hi; exact absurd hi (by simp)
    · intro hi
      exfalso; apply h
      intro a
      match a with
      | ⟨0, _⟩ =>
        show 0 ≤ (colDims n e wf).start j idx 0 + ((colDims n e wf).window j 0 : ℕ)
          ∧ (colDims n e wf).start j idx 0 + ((colDims n e wf).window j 0 : ℕ) < ((⟨2, ![n, 1]⟩ : Shape).size 0 : ℕ)
        rw [col_start0, col_window0, hi]
        have := (i 0).isLt
        constructor <;> omega
      | ⟨1, _⟩ =>
        show 0 ≤ (colDims n e wf).start j idx 1 + ((colDims n e wf).window j 1 : ℕ)
          ∧ (colDims n e wf).start j idx 1 + ((colDims n e wf).window j 1 : ℕ) < ((⟨2, ![n, 1]⟩ : Shape).size 1 : ℕ)
        rw [col_start1, col_window1, hj1]
        have : ((⟨2, ![n, 1]⟩ : Shape).size 1 : ℕ) = 1 := rfl
        constructor <;> omega

/-- THE ONE-COLUMN SCATTER READ AT `i`: the operand there plus the updates of the rows whose segment id is
    `i`'s row. -/
theorem col_apply (x : (⟨2, ![n, 1]⟩ : Shape).Idx → EReal) (idx : IVec ⟨2, ![e, 1]⟩ w)
    (upd : (⟨2, ![e, 1]⟩ : Shape).Idx → EReal) (i : (⟨2, ![n, 1]⟩ : Shape).Idx) :
    Ideal.hostScatterAdd (colDims n e wf) x idx upd i
      = x i + ∑ k : Fin e, if (idx (ix2 k 0)).toInt = ((i 0).val : ℤ) then upd (ix2 k 0) else 0 := by
  unfold Ideal.hostScatterAdd
  refine congrArg (x i + ·) ?_
  rw [Finset.sum_filter]
  refine Fintype.sum_equiv rowEquiv2 _ _ fun j => ?_
  show _ = if (idx (ix2 (j 0) 0)).toInt = ((i 0).val : ℤ) then upd (ix2 (j 0) 0) else 0
  have hj : ix2 (j 0) (0 : Fin 1) = j := rowEquiv2.left_inv j
  by_cases h : (idx (ix2 (j 0) 0)).toInt = ((i 0).val : ℤ)
  · rw [if_pos ((col_resultIdx wf j idx i).mpr h), if_pos h]
    exact congrArg upd hj.symm
  · rw [if_neg (mt (col_resultIdx wf j idx i).mp h), if_neg h]

end Col

end Idealize.ShloMosaic.SegmentSum

end
-- ==== Proof.LibGcnLayer.lean ====
/-
  One graph-convolution layer, entry by entry, on the extended reals.

  A layer first multiplies every node's feature row by a weight matrix: entry (r, n) of the product is
  sum_k x(r, k) * w(k, n), a function of row r of x only.  It then adds, to the aggregated neighbour messages
  agg(r, n), the node's own row scaled by a per-node factor d(r), and a bias b(n):
  (agg(r, n) + d(r) * xw(r, n)) + b(n), followed on the hidden layers by a maximum with zero.  Entry (r, n)
  of that depends on entry (r, n) of agg and xw, on d(r) and on b(n) only.  Because of this a program that
  walks over blocks of rows computes the same array as one that works on whole matrices, and the two
  spellings met here (a matrix product accumulated into a zero splat on operands narrowed to bf16, against a
  dot_general; the factor as a column and the bias as a row, against both broadcast from vectors) read to
  the same functions.  Everything is generic in the extents.
-/
import proofs.«173266_j39247411151001_2_alg».proof.Proof.LibDense
import proofs.«173266_j39247411151001_2_alg».proof.Proof.LibLayout
import Idealize.ShloMosaic.Lib.ValueIdx
import Idealize.ShloMosaic.Lib.Pipeline.Value
import Idealize.ShloMosaic.PureOps.Ideal.Laws

noncomputable section

open scoped BigOperators

namespace Cert.Gcn

open Idealize.ShloMosaic Idealize.ShloMosaic.ValueIdx

/-! ## The product with the weights -/

/-- Entry (r, n) of x times w: the sum over k of x(r, k) * w(k, n). -/
def lin (A K N : Nat) (x : FVec Ideal ⟨2, ![A, K]⟩ .f32) (w : FVec Ideal ⟨2, ![K, N]⟩ .f32) : FVec Ideal ⟨2, ![A, N]⟩ .f32 :=
  fun j => ∑ k : Fin K, x (ix2 (j 0 : Fin A) k) * w (ix2 k (j 1 : Fin N))

/-- A matrix product of operands narrowed to bf16, accumulated into a zero splat, is that sum: narrowing is the
    identity on extended reals and the zero accumulator adds nothing. -/
theorem lin_of_matmul {A K N : Nat} (x : FVec Ideal ⟨2, ![A, K]⟩ .f32) (w : FVec Ideal ⟨2, ![K, N]⟩ .f32)
    (hlt : FTy.bits .bf16 < FTy.bits .f32) :
    matmul (DotDims.plain A K N) none (truncf .bf16 x hlt) (truncf .bf16 w hlt) (constant ⟨2, ![A, N]⟩ .f32 0x00000000#32)
      = lin A K N x w := by
  funext j
  exact (Ideal.matmul_constant_zero_apply (DotDims.plain A K N) none (truncf .bf16 x hlt) (truncf .bf16 w hlt) j).trans
    (Cert.LibDense.plain_sum A K N x w j)

/-- The host's dot_general with the plain dimension numbers is the same sum. -/
theorem lin_of_dotGeneral {A K N : Nat} (x : FVec Ideal ⟨2, ![A, K]⟩ .f32) (w : FVec Ideal ⟨2, ![K, N]⟩ .f32) :
    Host.dotGeneral (DotDims.plain A K N) none x w = lin A K N x w := by
  funext j
  exact (Ideal.dotGeneral_apply (DotDims.plain A K N) none _ x w j).trans (Cert.LibDense.plain_sum A K N x w j)

/-- Entry (p, q) of the product depends on row p of the left factor and on column q of the right one only. -/
theorem lin_entry {A A' K N : Nat} (x : FVec Ideal ⟨2, ![A, K]⟩ .f32) (x' : FVec Ideal ⟨2, ![A', K]⟩ .f32)
    (w w' : FVec Ideal ⟨2, ![K, N]⟩ .f32) (p : Fin A) (r : Fin A') (q : Fin N)
    (hx : ∀ k : Fin K, x (ix2 p k) = x' (ix2 r k)) (hw : ∀ k : Fin K, w (ix2 k q) = w' (ix2 k q)) :
    lin A K N x w (ix2 p q) = lin A' K N x' w' (ix2 r q) := by
  show (∑ k : Fin K, x (ix2 p k) * w (ix2 k q)) = ∑ k : Fin K, x' (ix2 r k) * w' (ix2 k q)
  exact Finset.sum_congr rfl fun k _ => by rw [hx k, hw k]

/-! ## Messages, self term and bias -/

/-- Entry (r, n) of a layer before its activation, the per-node factor given as a column and the bias as a row:
    (agg(r, n) + d(r, 0) * xw(r, n)) + b(0, n). -/
def comb (A N : Nat) (agg xw : FVec Ideal ⟨2, ![A, N]⟩ .f32) (dcol : FVec Ideal ⟨2, ![A, 1]⟩ .f32)
    (brow : FVec Ideal ⟨2, ![1, N]⟩ .f32) : FVec Ideal ⟨2, ![A, N]⟩ .f32 :=
  fun j => (agg j + dcol (ix2 (j 0 : Fin A) (0 : Fin 1)) * xw j) + brow (ix2 (0 : Fin 1) (j 1 : Fin N))

/-- The same followed by the maximum with zero. -/
def combRelu (A N : Nat) (agg xw : FVec Ideal ⟨2, ![A, N]⟩ .f32) (dcol : FVec Ideal ⟨2, ![A, 1]⟩ .f32)
    (brow : FVec Ideal ⟨2, ![1, N]⟩ .f32) : FVec Ideal ⟨2, ![A, N]⟩ .f32 :=
  fun j => max (comb A N agg xw dcol brow j) (Ideal.ofBits .f32 0x00000000#32)

/-- Entry (p, q) depends on entry (p, q) of the messages and of the product, on the factor of row p and on the
    bias of column q. -/
theorem comb_entry {A A' N : Nat} (agg xw : FVec Ideal ⟨2, ![A, N]⟩ .f32) (dcol : FVec Ideal ⟨2, ![A, 1]⟩ .f32)
    (brow brow' : FVec Ideal ⟨2, ![1, N]⟩ .f32) (agg' xw' : FVec Ideal ⟨2, ![A', N]⟩ .f32)
    (dcol' : FVec Ideal ⟨2, ![A', 1]⟩ .f32) (p : Fin A) (r : Fin A') (q : Fin N)
    (h1 : agg (ix2 p q) = agg' (ix2 r q)) (h2 : xw (ix2 p q) = xw' (ix2 r q))
    (h3 : dcol (ix2 p (0 : Fin 1)) = dcol' (ix2 r (0 : Fin 1))) (h4 : brow (ix2 (0 : Fin 1) q) = brow' (ix2 (0 : Fin 1) q)) :
    comb A N agg xw dcol brow (ix2 p q) = comb A' N agg' xw' dcol' brow' (ix2 r q) := by
  show (agg (ix2 p q) + dcol (ix2 p (0 : Fin 1)) * xw (ix2 p q)) + brow (ix2 (0 : Fin 1) q)
    = (agg' (ix2 r q) + dcol' (ix2 r (0 : Fin 1)) * xw' (ix2 r q)) + brow' (ix2 (0 : Fin 1) q)
  rw [h1, h2, h3, h4]

theorem combRelu_entry {A A' N : Nat} (agg xw : FVec Ideal ⟨2, ![A, N]⟩ .f32) (dcol : FVec Ideal ⟨2, ![A, 1]⟩ .f32)
    (brow brow' : FVec Ideal ⟨2, ![1, N]⟩ .f32) (agg' xw' : FVec Ideal ⟨2, ![A', N]⟩ .f32)
    (dcol' : FVec Ideal ⟨2, ![A', 1]⟩ .f32) (p : Fin A) (r : Fin A') (q : Fin N)
    (h1 : agg (ix2 p q) = agg' (ix2 r q)) (h2 : xw (ix2 p q) = xw' (ix2 r q))
    (h3 : dcol (ix2 p (0 : Fin 1)) = dcol' (ix2 r (0 : Fin 1))) (h4 : brow (ix2 (0 : Fin 1) q) = brow' (ix2 (0 : Fin 1) q)) :
    combRelu A N agg xw dcol brow (ix2 p q) = combRelu A' N agg' xw' dcol' brow' (ix2 r q) :=
  congrArg (max · (Ideal.ofBits .f32 0x00000000#32)) (comb_entry agg xw dcol brow brow' agg' xw' dcol' p r q h1 h2 h3 h4)

/-- A one-row array broadcast down the rows reads, at (p, q), the row's entry of column q. -/
theorem broadcastTo_1n_an_apply {A N : Nat} {α : Type} (v : (⟨2, ![1, N]⟩ : Shape).Idx → α)
    (h : (⟨2, ![1, N]⟩ : Shape).Broadcasts ⟨2, ![A, N]⟩) (p : Fin A) (q : Fin N) :
    broadcastTo ⟨2, ![A, N]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if N = 1 then 0 else q.val
    split
    · have := q.isLt; omega
    · rfl

/-- The hidden layers' body: identity casts of the loaded blocks, the factor's column broadcast along the rows, the
    bias row broadcast down them, a maximum with a splatted zero. -/
theorem combRelu_of_body {A N : Nat} (agg xw : FVec Ideal ⟨2, ![A, N]⟩ .f32) (dcol : FVec Ideal ⟨2, ![A, 1]⟩ .f32)
    (brow : FVec Ideal ⟨2, ![1, N]⟩ .f32)
    (hAN : (⟨2, ![A, N]⟩ : Shape).ShapeCasts ⟨2, ![A, N]⟩) (hA1 : (⟨2, ![A, 1]⟩ : Shape).ShapeCasts ⟨2, ![A, 1]⟩)
    (h1N : (⟨2, ![1, N]⟩ : Shape).ShapeCasts ⟨2, ![1, N]⟩)
    (hbd : (⟨2, ![A, 1]⟩ : Shape).Broadcasts ⟨2, ![A, N]⟩) (hbb : (⟨2, ![1, N]⟩ : Shape).Broadcasts ⟨2, ![A, N]⟩) :
    maximumf (addf (addf (shapeCast ⟨2, ![A, N]⟩ agg hAN)
        (mulf (broadcastTo ⟨2, ![A, N]⟩ (shapeCast ⟨2, ![A, 1]⟩ dcol hA1) hbd) (shapeCast ⟨2, ![A, N]⟩ xw hAN)))
        (broadcastTo ⟨2, ![A, N]⟩ (shapeCast ⟨2, ![1, N]⟩ brow h1N) hbb))
      (broadcast ⟨2, ![A, N]⟩ (Scalar.ofBits (F := Ideal) .f32 0x00000000#32))
      = combRelu A N agg xw dcol brow := by
  funext j
  obtain ⟨p, q, rfl⟩ : ∃ (p : Fin A) (q : Fin N), j = ix2 p q := ⟨j 0, j 1, eq_ix2 j⟩
  rw [shapeCast_self, shapeCast_self, shapeCast_self, shapeCast_self]
  show max ((agg (ix2 p q) + broadcastTo ⟨2, ![A, N]⟩ dcol hbd (ix2 p q) * xw (ix2 p q))
      + broadcastTo ⟨2, ![A, N]⟩ brow hbb (ix2 p q)) (Ideal.ofBits .f32 0x00000000#32) = _
  rw [Cert.LibLayout.broadcastTo_a1_ab_apply dcol hbd p q, broadcastTo_1n_an_apply brow hbb p q]
  rfl

/-- The last layer's body (one output column, no activation): the factor's column is already of the output's shape. -/
theorem comb_of_body {A : Nat} (agg xw dcol : FVec Ideal ⟨2, ![A, 1]⟩ .f32) (brow : FVec Ideal ⟨2, ![1, 1]⟩ .f32)
    (hA1 : (⟨2, ![A, 1]⟩ : Shape).ShapeCasts ⟨2, ![A, 1]⟩) (h11 : (⟨2, ![1, 1]⟩ : Shape).ShapeCasts ⟨2, ![1, 1]⟩)
    (hbb : (⟨2, ![1, 1]⟩ : Shape).Broadcasts ⟨2, ![A, 1]⟩) :
    addf (addf (shapeCast ⟨2, ![A, 1]⟩ agg hA1) (mulf (shapeCast ⟨2, ![A, 1]⟩ dcol hA1) (shapeCast ⟨2, ![A, 1]⟩ xw hA1)))
        (broadcastTo ⟨2, ![A, 1]⟩ (shapeCast ⟨2, ![1, 1]⟩ brow h11) hbb)
      = comb A 1 agg xw dcol brow := by
  funext j
  obtain ⟨p, q, rfl⟩ : ∃ (p : Fin A) (q : Fin 1), j = ix2 p q := ⟨j 0, j 1, eq_ix2 j⟩
  rw [shapeCast_self, shapeCast_self, shapeCast_self, shapeCast_self]
  show (agg (ix2 p q) + dcol (ix2 p q) * xw (ix2 p q)) + broadcastTo ⟨2, ![A, 1]⟩ brow hbb (ix2 p q) = _
  rw [broadcastTo_1n_an_apply brow hbb p q]
  have hq : q = (0 : Fin 1) := Subsingleton.elim _ _
  subst hq
  rfl

/-! ## The factor and the bias given as vectors -/

/-- A vector cast to one row reads, at (0, q), the vector at q. -/
theorem shapeCast_n_1n_apply {N : Nat} {α : Type} (b : (⟨1, ![N]⟩ : Shape).Idx → α)
    (h : (⟨1, ![N]⟩ : Shape).ShapeCasts ⟨2, ![1, N]⟩) (q : Fin N) :
    shapeCast ⟨2, ![1, N]⟩ b h (ix2 (0 : Fin 1) q) = b (ix1 q) :=
  shapeCast_apply b h _ _ (by
    rw [Shape.rowMajor_val_two, Shape.rowMajor_val_one]; show q.val = 0 * N + q.val; omega)

/-- With the factor a vector cast to a column and the bias a vector cast to a row, entry (r, q) reads the factor at r
    and the bias at q. -/
theorem comb_of_casts {A N : Nat} (agg xw : FVec Ideal ⟨2, ![A, N]⟩ .f32) (d : FVec Ideal ⟨1, ![A]⟩ .f32)
    (b : FVec Ideal ⟨1, ![N]⟩ .f32) (hd : (⟨1, ![A]⟩ : Shape).ShapeCasts ⟨2, ![A, 1]⟩)
    (hb : (⟨1, ![N]⟩ : Shape).ShapeCasts ⟨2, ![1, N]⟩) (r : Fin A) (q : Fin N) :
    comb A N agg xw (shapeCast ⟨2, ![A, 1]⟩ d hd) (shapeCast ⟨2, ![1, N]⟩ b hb) (ix2 r q)
      = (agg (ix2 r q) + d (ix1 r) * xw (ix2 r q)) + b (ix1 q) := by
  show (agg (ix2 r q) + shapeCast ⟨2, ![A, 1]⟩ d hd (ix2 r (0 : Fin 1)) * xw (ix2 r q))
    + shapeCast ⟨2, ![1, N]⟩ b hb (ix2 (0 : Fin 1) q) = _
  rw [Cert.LibLayout.shapeCast_a_a1_apply d hd r (0 : Fin 1), shapeCast_n_1n_apply b hb q]

theorem combRelu_of_casts {A N : Nat} (agg xw : FVec Ideal ⟨2, ![A, N]⟩ .f32) (d : FVec Ideal ⟨1, ![A]⟩ .f32)
    (b : FVec Ideal ⟨1, ![N]⟩ .f32) (hd : (⟨1, ![A]⟩ : Shape).ShapeCasts ⟨2, ![A, 1]⟩)
    (hb : (⟨1, ![N]⟩ : Shape).ShapeCasts ⟨2, ![1, N]⟩) (r : Fin A) (q : Fin N) :
    combRelu A N agg xw (shapeCast ⟨2, ![A, 1]⟩ d hd) (shapeCast ⟨2, ![1, N]⟩ b hb) (ix2 r q)
      = max ((agg (ix2 r q) + d (ix1 r) * xw (ix2 r q)) + b (ix1 q)) (Ideal.ofBits .f32 0x00000000#32) :=
  congrArg (max · (Ideal.ofBits .f32 0x00000000#32)) (comb_of_casts agg xw d b hd hb r q)

end Cert.Gcn

end
-- ==== Proof.RefValue.lean ====
/-
  The reference program's two results are the specification's functions of the arguments.
-/
import proofs.«173266_j39247411151001_2_alg».proof.Proof.RefReadP
import proofs.«173266_j39247411151001_2_alg».proof.Proof.Spec
import proofs.«173266_j39247411151001_2_alg».proof.Proof.LibDense
import proofs.«173266_j39247411151001_2_alg».proof.Proof.LibLayout
import proofs.«173266_j39247411151001_2_alg».proof.Proof.LibRowOps
import proofs.«173266_j39247411151001_2_alg».proof.Proof.LibSegmentSum
import proofs.«173266_j39247411151001_2_alg».proof.Proof.LibScaleSum
import proofs.«173266_j39247411151001_2_alg».proof.Proof.LibGcnLayer
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.RefValue

open Cert.ReferenceIdeal Cert.ReferenceIdeal.ReadP Cert.Spec
open Idealize.ShloMosaic Idealize.ShloMosaic.ValueIdx Idealize.ShloMosaic.RowOps

/-! ## The perceptrons -/

/-- The host's relu: the maximum with the broadcast scalar zero is the maximum with zero at every entry. -/
theorem relu_host {A N : ℕ} (y : FVec Ideal ⟨2, ![A, N]⟩ .f32)
    (hS : (⟨0, ![]⟩ : Shape).BroadcastsInDim ⟨2, ![A, N]⟩ (![] : Fin 0 → Fin (⟨2, ![A, N]⟩ : Shape).rank)) :
    maximumf y (broadcastInDim ⟨2, ![A, N]⟩ ![] hS (constant (F := Ideal) ⟨0, ![]⟩ .f32 0x00000000#32)) = relu y := by
  funext j
  exact congrArg (max (y j)) (broadcastInDim_scalar_apply hS _ j)

/-- The host's two-layer perceptron (dot_general, bias broadcast twice, relu; twice) is `mlp2`. -/
theorem mlp2_host {A K H N : ℕ} (x : FVec Ideal ⟨2, ![A, K]⟩ .f32) (w1 : FVec Ideal ⟨2, ![K, H]⟩ .f32)
    (b1 : FVec Ideal ⟨1, ![H]⟩ .f32) (w2 : FVec Ideal ⟨2, ![H, N]⟩ .f32) (b2 : FVec Ideal ⟨1, ![N]⟩ .f32)
    (hd1 : (⟨1, ![H]⟩ : Shape).BroadcastsInDim ⟨2, ![1, H]⟩ ![1])
    (hbc1 : (⟨2, ![1, H]⟩ : Shape).BroadcastsInDim ⟨2, ![A, H]⟩ ![0, 1])
    (hS1 : (⟨0, ![]⟩ : Shape).BroadcastsInDim ⟨2, ![A, H]⟩ (![] : Fin 0 → Fin (⟨2, ![A, H]⟩ : Shape).rank))
    (hd2 : (⟨1, ![N]⟩ : Shape).BroadcastsInDim ⟨2, ![1, N]⟩ ![1])
    (hbc2 : (⟨2, ![1, N]⟩ : Shape).BroadcastsInDim ⟨2, ![A, N]⟩ ![0, 1])
    (hS2 : (⟨0, ![]⟩ : Shape).BroadcastsInDim ⟨2, ![A, N]⟩ (![] : Fin 0 → Fin (⟨2, ![A, N]⟩ : Shape).rank)) :
    maximumf (addf (Host.dotGeneral (DotDims.plain A H N) none
        (maximumf (addf (Host.dotGeneral (DotDims.plain A K H) none x w1)
            (broadcastInDim ⟨2, ![A, H]⟩ ![0, 1] hbc1 (broadcastInDim ⟨2, ![1, H]⟩ ![1] hd1 b1)))
          (broadcastInDim ⟨2, ![A, H]⟩ ![] hS1 (constant (F := Ideal) ⟨0, ![]⟩ .f32 0x00000000#32))) w2)
        (broadcastInDim ⟨2, ![A, N]⟩ ![0, 1] hbc2 (broadcastInDim ⟨2, ![1, N]⟩ ![1] hd2 b2)))
      (broadcastInDim ⟨2, ![A, N]⟩ ![] hS2 (constant (F := Ideal) ⟨0, ![]⟩ .f32 0x00000000#32))
      = mlp2 A K H N x w1 b1 w2 b2 := by
  rw [Cert.LibDense.dense_host x w1 b1 hd1 hbc1, relu_host _ hS1, Cert.LibDense.dense_host _ w2 b2 hd2 hbc2, relu_host _ hS2]
  rfl

/-- The edge result: the two-layer perceptron of the edge features. -/
theorem ref_edge (x2 : FVec Ideal S800000x128 .f32) (x7 : FVec Ideal S128x128 .f32) (x8 : FVec Ideal S128 .f32)
    (x9 : FVec Ideal S128x128 .f32) (x10 : FVec Ideal S128 .f32) :
    val_main_v19 (F := Ideal) x2 x7 x8 x9 x10 = mlp2 800000 128 128 128 x2 x7 x8 x9 x10 :=
  mlp2_host (A := 800000) (K := 128) (H := 128) (N := 128) x2 x7 x8 x9 x10 _ _ _ _ _ _

/-! ## The pieces of a layer, read at an index -/

/-- The host's matrix product is `lin`. -/
theorem lin_host {A K N : ℕ} (x : FVec Ideal ⟨2, ![A, K]⟩ .f32) (w : FVec Ideal ⟨2, ![K, N]⟩ .f32) :
    Host.dotGeneral (DotDims.plain A K N) none x w = lin A K N x w := by
  funext j
  exact (Ideal.dotGeneral_apply (DotDims.plain A K N) none _ x w j).trans (Cert.LibDense.plain_sum A K N x w j)

/-- Two flat arrays laid end to end, read at position k: the first array below its length, the second past it. -/
theorem cat_apply {α : Type} {n₁ n₂ n : ℕ} (x₁ : (⟨1, ![n₁]⟩ : Shape).Idx → α) (x₂ : (⟨1, ![n₂]⟩ : Shape).Idx → α)
    (h : Shape.Concatenates [⟨1, ![n₁]⟩, ⟨1, ![n₂]⟩] ⟨1, ![n]⟩ 0) (hn : n₁ + n₂ = n) (k : Fin n) :
    concatenate ⟨1, ![n]⟩ 0 [⟨⟨1, ![n₁]⟩, x₁⟩, ⟨⟨1, ![n₂]⟩, x₂⟩] h (ix1 k)
      = if hk : k.val < n₁ then x₁ (ix1 ⟨k.val, hk⟩) else x₂ (ix1 ⟨k.val - n₁, by omega⟩) := by
  split
  · next hk =>
    exact concatenate_pair_apply_left 0 x₁ x₂ h (ix1 k) rfl (ix1 ⟨k.val, hk⟩) (fun b => by
      match b with
      | ⟨0, _⟩ => rfl)
  · next hk =>
    exact concatenate_pair_apply_right 0 x₁ x₂ h (ix1 k) rfl rfl (ix1 ⟨k.val - n₁, by omega⟩)
      (fun b hb => absurd (Subsingleton.elim _ _) hb) (by show (k.val - n₁) + n₁ = k.val; omega)

/-- A flat array broadcast to one column reads, at (k, 0), entry k. -/
theorem column_apply {α : Type} {n : ℕ} (h : (⟨1, ![n]⟩ : Shape).BroadcastsInDim ⟨2, ![n, 1]⟩ ![0]) (hn : n ≠ 1)
    (x : (⟨1, ![n]⟩ : Shape).Idx → α) (k : Fin n) :
    broadcastInDim ⟨2, ![n, 1]⟩ ![0] h x (ix2 k (0 : Fin 1)) = x (ix1 k) :=
  Idealize.ShloMosaic.SegmentSum.ids_apply h hn x k

/-- One column broadcast along the rows reads, at (k, c), entry (k, 0). -/
theorem colrows_apply {α : Type} {n f : ℕ} (h : (⟨2, ![n, 1]⟩ : Shape).BroadcastsInDim ⟨2, ![n, f]⟩ ![0, 1]) (hn : n ≠ 1)
    (x : (⟨2, ![n, 1]⟩ : Shape).Idx → α) (k : Fin n) (c : Fin f) :
    broadcastInDim ⟨2, ![n, f]⟩ ![0, 1] h x (ix2 k c) = x (ix2 k (0 : Fin 1)) :=
  broadcastInDim_apply _ h x (ix2 k c) (ix2 k 0) (fun b => match b with
    | ⟨0, _⟩ => by show k.val = if n = 1 then 0 else k.val; rw [if_neg hn]
    | ⟨1, _⟩ => by show 0 = if (1 : ℕ) = 1 then 0 else c.val; rw [if_pos rfl])

/-- The reference's row scatter-add, read at (r, c). -/
theorem scatter_rows (x : FVec Ideal S50000x128 .f32) (ids : IVec S850000x1 32) (upd : FVec Ideal S850000x128 .f32)
    (r : Fin 50000) (c : Fin 128) :
    Host.scatterAdd scatter_S50000x128_S850000x1_S850000x128_1_0_0_1 x ids upd (ix2 r c)
      = x (ix2 r c) + ∑ k : Fin 850000, if (ids (ix2 k (0 : Fin 1))).toInt = (r.val : ℤ) then upd (ix2 k c) else 0 := by
  rw [Idealize.ShloMosaic.SegmentSum.scatterAdd_ideal]
  exact rows_apply Facts₀.scatter_S50000x128_S850000x1_S850000x128_1_0_0_1_wf x ids upd r c

/-- The reference's row gather, read at (k, c). -/
theorem gather_rows (x : FVec Ideal S50000x128 .f32) (src : IVec S850000x1 32) (k : Fin 850000) (c : Fin 128) :
    Host.gather gather_S50000x128_S850000x1_S850000x128_1_0_n_n_0_1_1128 x src (ix2 k c)
      = x (ix2 (clampRow 50000 (by decide) (src (ix2 k (0 : Fin 1)))) c) :=
  rowGather_apply (by decide) Facts₀.gather_S50000x128_S850000x1_S850000x128_1_0_n_n_0_1_1128_wf x src k c

/-- The reference's product of the node rows with a weight matrix. -/
theorem dot_lin (H : FVec Ideal S50000x128 .f32) (W : FVec Ideal S128x128 .f32) :
    Host.dotGeneral dot_S50000x128_S128x128_S50000x128_1_0_0_1_n_n none H W = lin 50000 128 128 H W :=
  lin_host H W

/-- One layer as the host spells it: the rows of h W gathered at the wrapped sources, weighted, summed into the rows
    named by the targets over a zero array, plus the bias. -/
theorem layer_host (ei : Edges) (ids src : IVec S850000x1 32) (nrm : FVec Ideal S850000x128 .f32)
    (H : FVec Ideal S50000x128 .f32) (W : FVec Ideal S128x128 .f32) (b : FVec Ideal S128 .f32)
    (hS : S_.BroadcastsInDim S50000x128 (![] : Fin 0 → Fin S50000x128.rank))
    (hd : S128.BroadcastsInDim S1x128 ![1]) (hbc : S1x128.BroadcastsInDim S50000x128 ![0, 1])
    (hids : ∀ k : Fin 850000, ids (ix2 k (0 : Fin 1)) = colAll ei k)
    (hsrc : ∀ k : Fin 850000, src (ix2 k (0 : Fin 1)) = wrap (rowAll ei k))
    (hnrm : ∀ (k : Fin 850000) (c : Fin 128), nrm (ix2 k c) = normR ei k) :
    addf (Host.scatterAdd scatter_S50000x128_S850000x1_S850000x128_1_0_0_1
        (broadcastInDim S50000x128 ![] hS (constant (F := Ideal) S_ .f32 0x00000000#32)) ids
        (mulf nrm (Host.gather gather_S50000x128_S850000x1_S850000x128_1_0_n_n_0_1_1128
          (Host.dotGeneral dot_S50000x128_S128x128_S50000x128_1_0_0_1_n_n none H W) src)))
      (broadcastInDim S50000x128 ![0, 1] hbc (broadcastInDim S1x128 ![1] hd b))
      = convR ei 128 H W b := by
  funext j
  obtain ⟨r, c, rfl⟩ : ∃ (r : Fin 50000) (c : Fin 128), j = ix2 r c := ⟨j 0, j 1, eq_ix2 j⟩
  rw [addf_apply, Cert.LibDense.bias_rows_host b hd hbc (ix2 r c), scatter_rows, broadcastInDim_scalar_apply hS _ (ix2 r c), dot_lin]
  refine congrArg (· + b (ix1 c)) (congrArg (z32 + ·) ?_)
  refine Finset.sum_congr rfl fun k _ => ?_
  rw [hids k, mulf_apply, hnrm k c, gather_rows, hsrc k]
  rfl

/-- The reference's flat scatter-add, read at i. -/
theorem scatter_flat (x : FVec Ideal S50000 .f32) (ids : IVec S850000x1 32) (upd : FVec Ideal S850000 .f32) (i : Fin 50000) :
    Host.scatterAdd scatter_S50000_S850000x1_S850000_n_0_0_1 x ids upd (ix1 i)
      = x (ix1 i) + ∑ k : Fin 850000, if (ids (ix2 k (0 : Fin 1))).toInt = (i.val : ℤ) then upd (ix1 k) else 0 := by
  rw [Idealize.ShloMosaic.SegmentSum.scatterAdd_ideal]
  exact Idealize.ShloMosaic.SegmentSum.flat_apply Facts₀.scatter_S50000_S850000x1_S850000_n_0_0_1_wf x ids upd (ix1 i)

/-- The reference's flat gather, read at k. -/
theorem gather_flat {α : Type} (x : S50000.Idx → α) (src : IVec S850000x1 32) (k : Fin 850000) :
    Host.gather gather_S50000_S850000x1_S850000_n_0_n_n_0_1_1 x src (ix1 k)
      = x (ix1 (clampRow 50000 (by decide) (src (ix2 k (0 : Fin 1))))) :=
  vecGather_apply (by decide) Facts₀.gather_S50000_S850000x1_S850000_n_0_n_n_0_1_1_wf x src k

/-! ## The edge list, the degrees and the weights as the reference computes them -/

section Stages
variable (x1 : IVec S2x800000 32)

/-- Row 0 of the edge array, flattened: the sources. -/
theorem v22_at (k : Fin 800000) : val_main_v22 (F := Ideal) x1 (ix1 k) = rowOf x1 k := by
  rw [val_main_v22_apply, val_main_v21_apply]
  refine congrArg x1 (funext fun a => Fin.ext ?_)
  match a with
  | ⟨0, _⟩ => rfl
  | ⟨1, _⟩ => exact Nat.mod_eq_of_lt k.isLt

/-- Row 1 of the edge array, flattened: the targets. -/
theorem v25_at (k : Fin 800000) : val_main_v25 (F := Ideal) x1 (ix1 k) = colOf x1 k := by
  rw [val_main_v25_apply, val_main_v24_apply]
  refine congrArg x1 (funext fun a => Fin.ext ?_)
  match a with
  | ⟨0, _⟩ => rfl
  | ⟨1, _⟩ => exact Nat.mod_eq_of_lt k.isLt

/-- The sources with the self loops appended. -/
theorem v23_at (k : Fin 850000) : val_main_v23 (F := Ideal) x1 (ix1 k) = rowAll x1 k := by
  refine (cat_apply (n₁ := 800000) (n₂ := 50000) (n := 850000) (val_main_v22 (F := Ideal) x1) (val_main_v20 (F := Ideal))
    _ (by norm_num) k).trans ?_
  by_cases hk : k.val < 800000
  · rw [dif_pos hk, rowAll, dif_pos hk]; exact v22_at x1 ⟨k.val, hk⟩
  · rw [dif_neg hk, rowAll, dif_neg hk]; rfl

/-- The targets with the self loops appended. -/
theorem v26_at (k : Fin 850000) : val_main_v26 (F := Ideal) x1 (ix1 k) = colAll x1 k := by
  refine (cat_apply (n₁ := 800000) (n₂ := 50000) (n := 850000) (val_main_v25 (F := Ideal) x1) (val_main_v20 (F := Ideal))
    _ (by norm_num) k).trans ?_
  by_cases hk : k.val < 800000
  · rw [dif_pos hk, colAll, dif_pos hk]; exact v25_at x1 ⟨k.val, hk⟩
  · rw [dif_neg hk, colAll, dif_neg hk]; rfl

/-- The wrapped sources (the copy the factor gather reads). -/
theorem v39_at (k : Fin 850000) : val_main_v39 (F := Ideal) x1 (ix1 k) = wrap (rowAll x1 k) := by
  rw [val_main_v39_apply, val_main_v36_apply, val_main_v38_apply, val_main_v35_apply, val_main_v37_apply, v23_at]
  rfl

/-- The wrapped targets. -/
theorem v46_at (k : Fin 850000) : val_main_v46 (F := Ideal) x1 (ix1 k) = wrap (colAll x1 k) := by
  rw [val_main_v46_apply, val_main_v43_apply, val_main_v45_apply, val_main_v42_apply, val_main_v44_apply, v26_at]
  rfl

/-- The wrapped sources (the copy the row gathers read). -/
theorem v56_at (k : Fin 850000) : val_main_v56 (F := Ideal) x1 (ix1 k) = wrap (rowAll x1 k) := by
  rw [val_main_v56_apply, val_main_v53_apply, val_main_v55_apply, val_main_v52_apply, val_main_v54_apply, v23_at]
  rfl

/-- The targets as a column of ids. -/
theorem v29_at (k : Fin 850000) : val_main_v29 (F := Ideal) x1 (ix2 k (0 : Fin 1)) = colAll x1 k :=
  (column_apply _ (by norm_num) (val_main_v26 (F := Ideal) x1) k).trans (v26_at x1 k)

theorem v62_at (k : Fin 850000) : val_main_v62 (F := Ideal) x1 (ix2 k (0 : Fin 1)) = colAll x1 k :=
  (column_apply _ (by norm_num) (val_main_v26 (F := Ideal) x1) k).trans (v26_at x1 k)

/-- The wrapped ids as columns. -/
theorem v40_at (k : Fin 850000) : val_main_v40 (F := Ideal) x1 (ix2 k (0 : Fin 1)) = wrap (rowAll x1 k) :=
  (column_apply _ (by norm_num) (val_main_v39 (F := Ideal) x1) k).trans (v39_at x1 k)

theorem v47_at (k : Fin 850000) : val_main_v47 (F := Ideal) x1 (ix2 k (0 : Fin 1)) = wrap (colAll x1 k) :=
  (column_apply _ (by norm_num) (val_main_v46 (F := Ideal) x1) k).trans (v46_at x1 k)

theorem v57_at (k : Fin 850000) : val_main_v57 (F := Ideal) x1 (ix2 k (0 : Fin 1)) = wrap (rowAll x1 k) :=
  (column_apply _ (by norm_num) (val_main_v56 (F := Ideal) x1) k).trans (v56_at x1 k)

/-- The degree: a one for every entry of the long list into the node, summed over a zero. -/
theorem v30_at (i : Fin 50000) : val_main_v30 (F := Ideal) x1 (ix1 i) = degR x1 i := by
  unfold val_main_v30
  rw [scatter_flat]
  refine congrArg (z32 + ·) (Finset.sum_congr rfl fun k _ => ?_)
  rw [v29_at]
  rfl

/-- The factor: the degree to the power -1/2 where the degree is positive. -/
theorem v34_at (i : Fin 50000) : val_main_v34 (F := Ideal) x1 (ix1 i) = disR x1 i := by
  rw [val_main_v34_apply, val_main_v32_apply, val_main_v33_apply, val_main_v31_apply, val_main_cst_1_apply,
    val_main_call4_v1_apply, val_main_call4_v0_apply, val_main_cst_2_apply, v30_at, Ideal.hostUnary_rsqrt_def,
    Ideal.ofBits_def]
  unfold disR disOf
  rfl

/-- The factor of an entry's source and of its target. -/
theorem v41_at (k : Fin 850000) : val_main_v41 (F := Ideal) x1 (ix1 k) = disR x1 (gidx (rowAll x1 k)) := by
  unfold val_main_v41
  rw [gather_flat, v40_at]
  exact v34_at x1 _

theorem v48_at (k : Fin 850000) : val_main_v48 (F := Ideal) x1 (ix1 k) = disR x1 (gidx (colAll x1 k)) := by
  unfold val_main_v48
  rw [gather_flat, v47_at]
  exact v34_at x1 _

/-- The weight of an entry. -/
theorem v49_at (k : Fin 850000) : val_main_v49 (F := Ideal) x1 (ix1 k) = normR x1 k := by
  rw [val_main_v49_apply, v41_at, v48_at, Ideal.mulf_def]
  unfold normR
  rfl

/-- The weights as a column, and laid along the rows. -/
theorem v51_at (k : Fin 850000) : val_main_v51 (F := Ideal) x1 (ix2 k (0 : Fin 1)) = normR x1 k :=
  (column_apply _ (by norm_num) (val_main_v49 (F := Ideal) x1) k).trans (v49_at x1 k)

theorem v59_at (k : Fin 850000) (c : Fin 128) : val_main_v59 (F := Ideal) x1 (ix2 k c) = normR x1 k :=
  (colrows_apply _ (by norm_num) (val_main_v51 (F := Ideal) x1) k c).trans (v51_at x1 k)

end Stages

/-! ## The node result -/

/-- The node result: three layers over the edge list with the self loops appended. -/
theorem ref_node (x0 : FVec Ideal S50000x256 .f32) (x1 : IVec S2x800000 32) (x3 : FVec Ideal S256x128 .f32) (x4 : FVec Ideal S128 .f32)
    (x5 : FVec Ideal S128x128 .f32) (x6 : FVec Ideal S128 .f32) (x11 : FVec Ideal S128x128 .f32) (x12 : FVec Ideal S128 .f32)
    (x13 : FVec Ideal S128x128 .f32) (x14 : FVec Ideal S128 .f32) (x15 : FVec Ideal S128x128 .f32) (x16 : FVec Ideal S128 .f32) :
    val_main_v102 (F := Ideal) x0 x1 x3 x4 x5 x6 x11 x12 x13 x14 x15 x16
      = nodeR x1 x0 x3 x4 x5 x6 x11 x12 x13 x14 x15 x16 := by
  have e9 : val_main_v9 (F := Ideal) x0 x3 x4 x5 x6 = mlp2 50000 256 128 128 x0 x3 x4 x5 x6 :=
    mlp2_host (A := 50000) (K := 256) (H := 128) (N := 128) x0 x3 x4 x5 x6 _ _ _ _ _ _
  have e66 : val_main_v66 (F := Ideal) x0 x1 x3 x4 x5 x6 x11 x12
      = convR x1 128 (val_main_v9 (F := Ideal) x0 x3 x4 x5 x6) x11 x12 :=
    layer_host x1 (val_main_v62 (F := Ideal) x1) (val_main_v57 (F := Ideal) x1) (val_main_v59 (F := Ideal) x1) _ x11 x12 _ _ _
      (v62_at x1) (v57_at x1) (v59_at x1)
  have e67 : val_main_v67 (F := Ideal) x0 x1 x3 x4 x5 x6 x11 x12
      = relu (val_main_v66 (F := Ideal) x0 x1 x3 x4 x5 x6 x11 x12) := relu_host _ _
  have e84 : val_main_v84 (F := Ideal) x0 x1 x3 x4 x5 x6 x11 x12 x13 x14
      = convR x1 128 (val_main_v67 (F := Ideal) x0 x1 x3 x4 x5 x6 x11 x12) x13 x14 :=
    layer_host x1 (val_main_v62 (F := Ideal) x1) (val_main_v57 (F := Ideal) x1) (val_main_v59 (F := Ideal) x1) _ x13 x14 _ _ _
      (v62_at x1) (v57_at x1) (v59_at x1)
  have e85 : val_main_v85 (F := Ideal) x0 x1 x3 x4 x5 x6 x11 x12 x13 x14
      = relu (val_main_v84 (F := Ideal) x0 x1 x3 x4 x5 x6 x11 x12 x13 x14) := relu_host _ _
  have e102 : val_main_v102 (F := Ideal) x0 x1 x3 x4 x5 x6 x11 x12 x13 x14 x15 x16
      = convR x1 128 (val_main_v85 (F := Ideal) x0 x1 x3 x4 x5 x6 x11 x12 x13 x14) x15 x16 :=
    layer_host x1 (val_main_v62 (F := Ideal) x1) (val_main_v57 (F := Ideal) x1) (val_main_v59 (F := Ideal) x1) _ x15 x16 _ _ _
      (v62_at x1) (v57_at x1) (v59_at x1)
  rw [e102, e85, e84, e67, e66, e9]
  rfl

end Cert.RefValue

end
-- ==== Proof.KRun.lean ====
/-
  The kernel program's run with its two results named.

  The program is five kernel launches among stretches of host operations. Its run ends with every buffer that
  outlives a launch at the contents the fold `Gen.W10` computes: a host operation's result from its operands, a
  launch's output array from what its grid points write back. The generated frame keeps, of that final valuation,
  only that the arguments are unchanged; here the same launch over the same segments also keeps the two results.
-/
import proofs.«173266_j39247411151001_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two results at the final
    valuation's contents and the arguments as launched. -/
theorem run_named : θ_run defs (onTc (τ := τ) (main (F := F))) ⟨m, fun _ => 0, ρ⟩ (fun r => ∀ c : Dev nD,
      r.2.mem ((c.tc : Thread nD τ).loc main_v0_0) = W10 m ρ c (Proc.devRef .tc main_v0_0)
      ∧ r.2.mem ((c.tc : Thread nD τ).loc main_v0_1) = W10 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v0_0 (by decide)),
       h c _ (mem_uc main_v0_1 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c)⟩)

end Cert.KernelIdeal.KRun

end
-- ==== Proof.KPay.lean ====
/-
  What each kernel body stores, as a function of the blocks it loads, entry by entry, on the extended reals.

  Every body works on a block of rows. The two perceptron bodies compute, for each row of the block, two dense
  layers with relu (a matrix product into a zero accumulator, plus the bias loaded as a one-row block and repeated
  down the rows, then the maximum with zero); the node body goes on with one more product and scales row p by the
  factor loaded for it as a one-column block. The layer bodies take the summed neighbour rows S and the node's own
  scaled rows, form  d(p) * (S(p, q) + own(p, q)) + b(q),  and either store that (the last layer) or apply relu,
  multiply by the next weight matrix and scale row p by d(p) again.
-/
import proofs.«173266_j39247411151001_2_alg».proof.Proof.Gen.KernelIdeal.Skeleton
import proofs.«173266_j39247411151001_2_alg».proof.Proof.Spec
import proofs.«173266_j39247411151001_2_alg».proof.Proof.LibDense
import proofs.«173266_j39247411151001_2_alg».proof.Proof.LibLayout
import proofs.«173266_j39247411151001_2_alg».proof.Proof.LibGcnLayer
import Idealize.ShloMosaic.Lib.Pipeline.Value
import Idealize.ShloMosaic.Lib.ValueIdx
import Idealize.ShloMosaic.PureOps.Ideal.Laws

noncomputable section

open scoped BigOperators

namespace Cert.KPay

open Cert.KernelIdeal Cert.KernelIdeal.Gen Cert.Spec
open Idealize.ShloMosaic Idealize.ShloMosaic.ValueIdx

/-- A one-row block read as a vector. -/
def rowVec {N : ℕ} (br : Mat 1 N) : Vc N := fun i => br (ix2 (0 : Fin 1) (i 0 : Fin N))

/-- A matrix product accumulated into a zero splat is the plain sum over the shared axis, whatever the precision. -/
theorem matmul_zero {A K N : ℕ} (prec : Option ContractPrecision) (x : FVec Ideal ⟨2, ![A, K]⟩ .f32) (w : FVec Ideal ⟨2, ![K, N]⟩ .f32) :
    matmul (DotDims.plain A K N) prec x w (constant ⟨2, ![A, N]⟩ .f32 0x00000000#32) = lin A K N x w := by
  funext j
  exact (Ideal.matmul_constant_zero_apply (DotDims.plain A K N) prec x w j).trans (Cert.LibDense.plain_sum A K N x w j)

/-- A one-row block, cast to its own shape and repeated down the rows, reads the row's entry of the column. -/
theorem bias_row {A N : ℕ} (br : FVec Ideal ⟨2, ![1, N]⟩ .f32) (h11 : (⟨2, ![1, N]⟩ : Shape).ShapeCasts ⟨2, ![1, N]⟩)
    (hb : (⟨2, ![1, N]⟩ : Shape).Broadcasts ⟨2, ![A, N]⟩) (j : (⟨2, ![A, N]⟩ : Shape).Idx) :
    broadcastTo ⟨2, ![A, N]⟩ (shapeCast ⟨2, ![1, N]⟩ br h11) hb j = br (ix2 (0 : Fin 1) (j 1 : Fin N)) := by
  obtain ⟨p, q, rfl⟩ : ∃ (p : Fin A) (q : Fin N), j = ix2 p q := ⟨j 0, j 1, eq_ix2 j⟩
  rw [shapeCast_self]
  exact Cert.Gcn.broadcastTo_1n_an_apply br hb p q

/-- A one-column block, cast to its own shape and repeated along the rows, reads the column's entry of the row. -/
theorem factor_col {A N : ℕ} (d : FVec Ideal ⟨2, ![A, 1]⟩ .f32) (h11 : (⟨2, ![A, 1]⟩ : Shape).ShapeCasts ⟨2, ![A, 1]⟩)
    (hb : (⟨2, ![A, 1]⟩ : Shape).Broadcasts ⟨2, ![A, N]⟩) (j : (⟨2, ![A, N]⟩ : Shape).Idx) :
    broadcastTo ⟨2, ![A, N]⟩ (shapeCast ⟨2, ![A, 1]⟩ d h11) hb j = d (ix2 (j 0 : Fin A) (0 : Fin 1)) := by
  obtain ⟨p, q, rfl⟩ : ∃ (p : Fin A) (q : Fin N), j = ix2 p q := ⟨j 0, j 1, eq_ix2 j⟩
  rw [shapeCast_self]
  exact Cert.LibLayout.broadcastTo_a1_ab_apply d hb p q

/-- A dense layer of a body: the product into a zero splat plus the bias row. -/
theorem dense_body {A K N : ℕ} (prec : Option ContractPrecision) (x : FVec Ideal ⟨2, ![A, K]⟩ .f32) (w : FVec Ideal ⟨2, ![K, N]⟩ .f32)
    (br : FVec Ideal ⟨2, ![1, N]⟩ .f32) (h11 : (⟨2, ![1, N]⟩ : Shape).ShapeCasts ⟨2, ![1, N]⟩)
    (hb : (⟨2, ![1, N]⟩ : Shape).Broadcasts ⟨2, ![A, N]⟩) :
    addf (matmul (DotDims.plain A K N) prec x w (constant ⟨2, ![A, N]⟩ .f32 0x00000000#32))
      (broadcastTo ⟨2, ![A, N]⟩ (shapeCast ⟨2, ![1, N]⟩ br h11) hb) = Cert.LibDense.dense A K N x w (rowVec br) := by
  funext j
  rw [addf_apply, matmul_zero, bias_row]
  rfl

/-- The maximum with a splatted zero is relu. -/
theorem relu_body {A N : ℕ} (y : FVec Ideal ⟨2, ![A, N]⟩ .f32) :
    maximumf y (broadcast ⟨2, ![A, N]⟩ (Scalar.ofBits (F := Ideal) .f32 0x00000000#32)) = relu y := by
  funext j
  rfl

/-- The edge body: the perceptron of the block's rows. -/
theorem pay0 (v0 : Vec Ideal S8000x128 .f32) (v1 : Vec Ideal S128x128 .f32) (v3 : Vec Ideal S1x128 .f32)
    (v9 : Vec Ideal S128x128 .f32) (v11 : Vec Ideal S1x128 .f32) :
    k0_pay1 (F := Ideal) v0 v1 v3 v9 v11 = mlp2 8000 128 128 128 v0 v1 (rowVec v3) v9 (rowVec v11) := by
  have e : dot_S8000x128_S128x128_S8000x128_1_0_0_1_n_n = DotDims.plain 8000 128 128 := rfl
  unfold k0_pay1
  dsimp only
  rw [e, dense_body, relu_body, dense_body, relu_body]
  rfl

/-- The node body: the perceptron of the block's rows, times the first layer's weights, each row scaled by its factor. -/
theorem pay1 (v0 : Vec Ideal S5000x256 .f32) (v1 : Vec Ideal S256x128 .f32) (v3 : Vec Ideal S1x128 .f32)
    (v9 : Vec Ideal S128x128 .f32) (v11 : Vec Ideal S1x128 .f32) (v17 : Vec Ideal S128x128 .f32) (v19 : Vec Ideal S5000x1 .f32) :
    k1_pay1 (F := Ideal) v0 v1 v3 v9 v11 v17 v19
      = fun j => v19 (ix2 (j 0 : Fin 5000) (0 : Fin 1))
          * lin 5000 128 128 (mlp2 5000 256 128 128 v0 v1 (rowVec v3) v9 (rowVec v11)) v17 j := by
  have e1 : dot_S5000x256_S256x128_S5000x128_1_0_0_1_n_n = DotDims.plain 5000 256 128 := rfl
  have e2 : dot_S5000x128_S128x128_S5000x128_1_0_0_1_n_n = DotDims.plain 5000 128 128 := rfl
  unfold k1_pay1
  dsimp only
  rw [e1, e2, dense_body, relu_body, dense_body, relu_body, matmul_zero]
  funext j
  rw [mulf_apply, factor_col]
  rfl

/-- What a layer body forms before its activation. -/
def fin {A : ℕ} (d : Mat A 1) (s own : Mat A 128) (br : Mat 1 128) : Mat A 128 :=
  fun j => d (ix2 (j 0 : Fin A) (0 : Fin 1)) * (s j + own j) + br (ix2 (0 : Fin 1) (j 1 : Fin 128))

/-- The last layer's body. -/
theorem pay4 (v0 : Vec Ideal S5000x1 .f32) (v2 v4 : Vec Ideal S5000x128 .f32) (v9 : Vec Ideal S1x128 .f32) :
    k4_pay1 (F := Ideal) v0 v2 v4 v9 = fin v0 v2 v4 v9 := by
  unfold k4_pay1
  dsimp only
  funext j
  rw [addf_apply, mulf_apply, factor_col, bias_row, shapeCast_self, shapeCast_self, addf_apply]
  rfl

/-- A hidden layer's body. -/
theorem pay2 (v0 : Vec Ideal S5000x1 .f32) (v2 v4 : Vec Ideal S5000x128 .f32) (v9 : Vec Ideal S1x128 .f32)
    (v15 : Vec Ideal S128x128 .f32) (v17 : Vec Ideal S5000x1 .f32) :
    k2_pay1 (F := Ideal) v0 v2 v4 v9 v15 v17
      = fun j => v17 (ix2 (j 0 : Fin 5000) (0 : Fin 1)) * lin 5000 128 128 (relu (fin v0 v2 v4 v9)) v15 j := by
  have e2 : dot_S5000x128_S128x128_S5000x128_1_0_0_1_n_n = DotDims.plain 5000 128 128 := rfl
  have h : (addf (mulf (broadcastTo S5000x128 (shapeCast S5000x1 v0 shapeCasts_S5000x1_S5000x1) broadcasts_S5000x1_S5000x128)
        (addf (shapeCast S5000x128 v2 shapeCasts_S5000x128_S5000x128) (shapeCast S5000x128 v4 shapeCasts_S5000x128_S5000x128)))
      (broadcastTo S5000x128 (shapeCast S1x128 v9 shapeCasts_S1x128_S1x128) broadcasts_S1x128_S5000x128) : FVec Ideal S5000x128 .f32) = fin v0 v2 v4 v9 := by
    funext j
    rw [addf_apply, mulf_apply, factor_col, bias_row, shapeCast_self, shapeCast_self, addf_apply]
    rfl
  unfold k2_pay1
  dsimp only
  rw [e2, h, relu_body, matmul_zero]
  funext j
  rw [mulf_apply, factor_col]

theorem pay3 (v0 : Vec Ideal S5000x1 .f32) (v2 v4 : Vec Ideal S5000x128 .f32) (v9 : Vec Ideal S1x128 .f32)
    (v15 : Vec Ideal S128x128 .f32) (v17 : Vec Ideal S5000x1 .f32) :
    k3_pay1 (F := Ideal) v0 v2 v4 v9 v15 v17
      = fun j => v17 (ix2 (j 0 : Fin 5000) (0 : Fin 1)) * lin 5000 128 128 (relu (fin v0 v2 v4 v9)) v15 j := by
  have e2 : dot_S5000x128_S128x128_S5000x128_1_0_0_1_n_n = DotDims.plain 5000 128 128 := rfl
  have h : (addf (mulf (broadcastTo S5000x128 (shapeCast S5000x1 v0 shapeCasts_S5000x1_S5000x1) broadcasts_S5000x1_S5000x128)
        (addf (shapeCast S5000x128 v2 shapeCasts_S5000x128_S5000x128) (shapeCast S5000x128 v4 shapeCasts_S5000x128_S5000x128)))
      (broadcastTo S5000x128 (shapeCast S1x128 v9 shapeCasts_S1x128_S1x128) broadcasts_S1x128_S5000x128) : FVec Ideal S5000x128 .f32) = fin v0 v2 v4 v9 := by
    funext j
    rw [addf_apply, mulf_apply, factor_col, bias_row, shapeCast_self, shapeCast_self, addf_apply]
    rfl
  unfold k3_pay1
  dsimp only
  rw [e2, h, relu_body, matmul_zero]
  funext j
  rw [mulf_apply, factor_col]

/-! ## An entry depends on its row only -/

theorem relu_congr {A A' N : ℕ} (y : Mat A N) (y' : Mat A' N) (j : (⟨2, ![A, N]⟩ : Shape).Idx) (j' : (⟨2, ![A', N]⟩ : Shape).Idx)
    (h : y j = y' j') : relu y j = relu y' j' := congrArg (max · z32) h

/-- Entry (p, q) of the perceptron is a function of row p of its input. -/
theorem mlp2_row {A A' K H N : ℕ} (x : Mat A K) (x' : Mat A' K) (w1 : Mat K H) (b1 : Vc H) (w2 : Mat H N) (b2 : Vc N)
    (p : Fin A) (r : Fin A') (q : Fin N) (h : ∀ k : Fin K, x (ix2 p k) = x' (ix2 r k)) :
    mlp2 A K H N x w1 b1 w2 b2 (ix2 p q) = mlp2 A' K H N x' w1 b1 w2 b2 (ix2 r q) :=
  relu_congr _ _ _ _ (Cert.LibDense.dense_row _ _ w2 b2 p r q fun k =>
    relu_congr _ _ _ _ (Cert.LibDense.dense_row x x' w1 b1 p r k h))

/-- Entry (p, q) of a product is a function of row p of the left factor. -/
theorem lin_row {A A' K N : ℕ} (x : Mat A K) (x' : Mat A' K) (w : Mat K N) (p : Fin A) (r : Fin A') (q : Fin N)
    (h : ∀ k : Fin K, x (ix2 p k) = x' (ix2 r k)) : lin A K N x w (ix2 p q) = lin A' K N x' w (ix2 r q) := by
  show (∑ k : Fin K, x (ix2 p k) * w (ix2 k q)) = ∑ k : Fin K, x' (ix2 r k) * w (ix2 k q)
  exact Finset.sum_congr rfl fun k _ => by rw [h k]

/-- Every row of a matrix scaled by its entry of a column of factors. -/
def scaled {A N : ℕ} (d : Mat A 1) (y : Mat A N) : Mat A N := fun j => d (ix2 (j 0 : Fin A) (0 : Fin 1)) * y j

/-- The same for a product whose rows are scaled by a column of factors. -/
theorem scaled_row {A A' K N : ℕ} (d : Mat A 1) (d' : Mat A' 1) (x : Mat A K) (x' : Mat A' K) (w : Mat K N)
    (p : Fin A) (r : Fin A') (q : Fin N) (hd : d (ix2 p (0 : Fin 1)) = d' (ix2 r (0 : Fin 1)))
    (h : ∀ k : Fin K, x (ix2 p k) = x' (ix2 r k)) :
    scaled d (lin A K N x w) (ix2 p q) = scaled d' (lin A' K N x' w) (ix2 r q) := by
  show d (ix2 p (0 : Fin 1)) * lin A K N x w (ix2 p q) = d' (ix2 r (0 : Fin 1)) * lin A' K N x' w (ix2 r q)
  rw [hd, lin_row x x' w p r q h]

/-- Entry (p, q) of a layer's combination depends on row p of its three row-indexed inputs and on column q of the bias. -/
theorem fin_row {A A' : ℕ} (d : Mat A 1) (s own : Mat A 128) (br : Mat 1 128) (d' : Mat A' 1) (s' own' : Mat A' 128) (br' : Mat 1 128)
    (p : Fin A) (r : Fin A') (q : Fin 128) (h1 : d (ix2 p (0 : Fin 1)) = d' (ix2 r (0 : Fin 1)))
    (h2 : s (ix2 p q) = s' (ix2 r q)) (h3 : own (ix2 p q) = own' (ix2 r q))
    (h4 : br (ix2 (0 : Fin 1) q) = br' (ix2 (0 : Fin 1) q)) :
    fin d s own br (ix2 p q) = fin d' s' own' br' (ix2 r q) := by
  show d (ix2 p (0 : Fin 1)) * (s (ix2 p q) + own (ix2 p q)) + br (ix2 (0 : Fin 1) q)
    = d' (ix2 r (0 : Fin 1)) * (s' (ix2 r q) + own' (ix2 r q)) + br' (ix2 (0 : Fin 1) q)
  rw [h1, h2, h3, h4]

end Cert.KPay

end
-- ==== Proof.KTerms.lean ====
/-
  The host operations between the launches, as terms and read at an index.

  Before the first launch the program slices the edge array into its row of sources and its row of targets, counts
  for every node the edges that point at it (ones added into zeros at the targets), adds one for the self loop, and
  takes the inverse square root where that degree is positive: the factor of each node, kept as a one-column matrix.
  Before each later launch it gathers, for every edge, the scaled row of its source (a negative id counted from the
  end, an id past the end clamped into the array), and adds the gathered rows into the rows their targets name
  (a target outside the array drops its row). Read at an index these are the specification's `disK` and `segK`.
-/
import proofs.«173266_j39247411151001_2_alg».proof.Proof.Gen.KernelIdeal
import proofs.«173266_j39247411151001_2_alg».proof.Proof.Spec
import proofs.«173266_j39247411151001_2_alg».proof.Proof.KPay
import proofs.«173266_j39247411151001_2_alg».proof.Proof.LibSegmentSum
import proofs.«173266_j39247411151001_2_alg».proof.Proof.LibRowOps
import proofs.«173266_j39247411151001_2_alg».proof.Proof.LibLayout
import proofs.«173266_j39247411151001_2_alg».proof.Proof.LibGcnLayer
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

open scoped BigOperators

namespace Cert.KernelIdeal.KTerms

open Cert.KernelIdeal Cert.KernelIdeal.Facts₀ Cert.Spec
open Idealize.ShloMosaic Idealize.ShloMosaic.ValueIdx
open Idealize.ShloMosaic.RowOps Idealize.ShloMosaic.SegmentSum

/-! ## The terms -/

/-- The row of sources and the row of targets of the edge array, as flat vectors of ids. -/
def rowIds (ei : IVec S2x800000 32) : IVec S800000 32 :=
  shapeCast S800000 (extractStridedSlice S1x800000 ![0, 0] ei slices_S2x800000_S1x800000_0_0) shapeCasts_S1x800000_S800000
def colIds (ei : IVec S2x800000 32) : IVec S800000 32 :=
  shapeCast S800000 (extractStridedSlice S1x800000 ![1, 0] ei slices_S2x800000_S1x800000_1_0) shapeCasts_S1x800000_S800000

/-- The degrees: ones added into zeros at the targets, plus one. -/
def degTerm (ei : IVec S2x800000 32) : FVec Ideal S50000 .f32 :=
  addf (Host.scatterAdd scatter_S50000_S800000x1_S800000_n_0_0_1 (broadcastInDim S50000 ![] bcast_S_S50000 (constant S_ .f32 0x00000000#32))
      (broadcastInDim S800000x1 ![0] bcast_S800000_S800000x1_0 (colIds ei))
      (broadcastInDim S800000 ![] bcast_S_S800000 (constant S_ .f32 0x3F800000#32)))
    (broadcastInDim S50000 ![] bcast_S_S50000 (constant S_ .f32 0x3F800000#32))

/-- The factors, as a one-column matrix. -/
def disTerm (ei : IVec S2x800000 32) : FVec Ideal S50000x1 .f32 :=
  shapeCast S50000x1 (select (cmpf (F := Ideal) .ogt (degTerm ei) (broadcastInDim S50000 ![] bcast_S_S50000 (constant S_ .f32 0x00000000#32)))
      (Host.rsqrt (degTerm ei)) (broadcastInDim S50000 ![] bcast_S_S50000 (id (constant (F := Ideal) S_ .f32 0x00000000#32))))
    shapeCasts_S50000_S50000x1

/-- The gathered rows of the sources added into the rows of the targets. -/
def segTerm (ids1 ids3 : IVec S800000 32) (hws : FVec Ideal S50000x128 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 ids3)
    (Host.gather gather_S50000x128_S800000x1_S800000x128_1_0_n_n_0_1_1128 hws
      (broadcastInDim S800000x1 ![0] bcast_S800000_S800000x1_0
        (select (cmpi .slt ids1 (broadcastInDim S800000 ![] bcast_S_S800000 (constantI S_ 32 0#32)))
          (addi ids1 (broadcastInDim S800000 ![] bcast_S_S800000 (constantI S_ 32 50000#32))) ids1)))

/-- A bias as a one-row matrix. -/
def biasRow (b : FVec Ideal S128 .f32) : FVec Ideal S1x128 .f32 := shapeCast S1x128 b shapeCasts_S128_S1x128

/-! ## Read at an index -/

/-- A scalar constant broadcast to any shape reads the constant everywhere. -/
theorem bcast_const {t : Shape} (h : S_.BroadcastsInDim t (![] : Fin 0 → Fin t.rank)) (b : BitVec 32) (j : t.Idx) :
    broadcastInDim t ![] h (constant (F := Ideal) S_ .f32 b) j = Ideal.ofBits .f32 b :=
  broadcastInDim_apply _ h _ j (fun a => a.elim0) (fun a => a.elim0)

theorem bcast_constI {t : Shape} (h : S_.BroadcastsInDim t (![] : Fin 0 → Fin t.rank)) (b : BitVec 32) (j : t.Idx) :
    broadcastInDim t ![] h (constantI S_ 32 b) j = b :=
  broadcastInDim_apply _ h _ j (fun a => a.elim0) (fun a => a.elim0)

/-- Entry k of the row of sources is the edge array at (0, k). -/
theorem rowIds_apply (ei : IVec S2x800000 32) (k : Fin 800000) : rowIds ei (ix1 k) = rowOf ei k := by
  unfold rowIds rowOf
  rw [shapeCast_apply _ shapeCasts_S1x800000_S800000 (ix1 k) (ix2 (0 : Fin 1) k) (by
    rw [Shape.rowMajor_val_one, Shape.rowMajor_val_two]; show 0 * 800000 + k.val = k.val; omega)]
  exact extractStridedSlice_apply _ ei slices_S2x800000_S1x800000_0_0 (ix2 (0 : Fin 1) k) (ix2 (0 : Fin 2) k) (fun a =>
    match a with
    | ⟨0, _⟩ => rfl
    | ⟨1, _⟩ => by show k.val = 0 + k.val; omega)

/-- Entry k of the row of targets is the edge array at (1, k). -/
theorem colIds_apply (ei : IVec S2x800000 32) (k : Fin 800000) : colIds ei (ix1 k) = colOf ei k := by
  unfold colIds colOf
  rw [shapeCast_apply _ shapeCasts_S1x800000_S800000 (ix1 k) (ix2 (0 : Fin 1) k) (by
    rw [Shape.rowMajor_val_one, Shape.rowMajor_val_two]; show 0 * 800000 + k.val = k.val; omega)]
  exact extractStridedSlice_apply _ ei slices_S2x800000_S1x800000_1_0 (ix2 (0 : Fin 1) k) (ix2 (1 : Fin 2) k) (fun a =>
    match a with
    | ⟨0, _⟩ => rfl
    | ⟨1, _⟩ => by show k.val = 0 + k.val; omega)

/-- The degree of node i: the ones of the edges into it over a zero, plus one. -/
theorem degTerm_apply (ei : IVec S2x800000 32) (i : Fin 50000) : degTerm ei (ix1 i) = degK ei i := by
  unfold degTerm degK
  rw [addf_apply, bcast_const, scatterAdd_ideal]
  refine congrArg (· + o32) ?_
  refine (flat_apply Facts₀.scatter_S50000_S800000x1_S800000_n_0_0_1_wf _ _ _ (ix1 i)).trans ?_
  rw [bcast_const]
  refine congrArg (z32 + ·) (Finset.sum_congr rfl fun k _ => ?_)
  rw [ids_apply _ (by decide), colIds_apply, bcast_const]

/-- The host's inverse square root is taken entry by entry. -/
theorem hostRsqrt_apply {s : Shape} (x : FVec Ideal s .f32) (j : s.Idx) : Host.rsqrt x j = Ideal.rsqrt (x j) := rfl

theorem bcast_const_id {t : Shape} (h : S_.BroadcastsInDim t (![] : Fin 0 → Fin t.rank)) (b : BitVec 32) (j : t.Idx) :
    broadcastInDim t ![] h (id (constant (F := Ideal) S_ .f32 b)) j = Ideal.ofBits .f32 b := bcast_const h b j

/-- The factor of node i. -/
theorem disTerm_apply (ei : IVec S2x800000 32) (i : Fin 50000) (u : Fin 1) : disTerm ei (ix2 i u) = disK ei i := by
  unfold disTerm
  rw [Cert.LibLayout.shapeCast_a_a1_apply _ _ i u, select_apply, cmpf_apply, hostRsqrt_apply, degTerm_apply, bcast_const, bcast_const_id]
  rfl

/-- The summed scaled rows of the sources of the edges into node i. -/
theorem segTerm_apply (ei : IVec S2x800000 32) (hws : FVec Ideal S50000x128 .f32) (i : Fin 50000) (c : Fin 128) :
    segTerm (rowIds ei) (colIds ei) hws (ix2 i c) = segK ei hws (ix2 i c) := by
  unfold segTerm segK
  rw [scatterAdd_ideal]
  refine (rows_apply Facts₀.scatter_S50000x128_S800000x1_S800000x128_1_0_0_1_wf _ _ _ i c).trans ?_
  rw [bcast_const]
  refine congrArg (z32 + ·) (Finset.sum_congr rfl fun k _ => ?_)
  rw [ids_apply _ (by decide), colIds_apply]
  refine if_congr Iff.rfl ?_ rfl
  refine (rowGather_apply (by decide) Facts₀.gather_S50000x128_S800000x1_S800000x128_1_0_n_n_0_1_1128_wf hws _ k c).trans ?_
  rw [ids_apply _ (by decide), select_apply]
  show hws (ix2 (clampRow 50000 _ (Scalar.select (IntOp.cmpi .slt (rowIds ei (ix1 k)) (broadcastInDim S800000 ![] bcast_S_S800000 (constantI S_ 32 0#32) (ix1 k)))
      (IntOp.addi (rowIds ei (ix1 k)) (broadcastInDim S800000 ![] bcast_S_S800000 (constantI S_ 32 50000#32) (ix1 k))) (rowIds ei (ix1 k)))) c) = _
  rw [rowIds_apply, bcast_constI, bcast_constI]
  rfl

/-- A bias reshaped to one row, read back as a vector, is the bias. -/
theorem rowVec_biasRow (b : FVec Ideal S128 .f32) : Cert.KPay.rowVec (biasRow b) = b := by
  funext i
  obtain ⟨q, rfl⟩ : ∃ q : Fin 128, i = ix1 q := ⟨i 0, eq_ix1 i⟩
  exact Cert.Gcn.shapeCast_n_1n_apply b shapeCasts_S128_S1x128 q

/-! ## The launches' functions in the specification's words -/

theorem segTerm_eq (ei : IVec S2x800000 32) (hws : FVec Ideal S50000x128 .f32) :
    segTerm (rowIds ei) (colIds ei) hws = segK ei hws := by
  funext j
  obtain ⟨i, c, rfl⟩ : ∃ (i : Fin 50000) (c : Fin 128), j = ix2 i c := ⟨j 0, j 1, eq_ix2 j⟩
  exact segTerm_apply ei hws i c

/-- Rows scaled by the column of factors are rows scaled by `disK`. -/
theorem scaled_dis (ei : IVec S2x800000 32) (K : ℕ) (h : Mat 50000 K) (w : Mat K 128) :
    Cert.KPay.scaled (disTerm ei) (lin 50000 K 128 h w) = scaledLin ei K h w := by
  funext j
  obtain ⟨i, c, rfl⟩ : ∃ (i : Fin 50000) (c : Fin 128), j = ix2 i c := ⟨j 0, j 1, eq_ix2 j⟩
  show disTerm ei (ix2 i (0 : Fin 1)) * lin 50000 K 128 h w (ix2 i c) = disK ei i * lin 50000 K 128 h w (ix2 i c)
  rw [disTerm_apply]

/-- A layer's combination over the column of factors, the summed rows and the bias row is `finK`. -/
theorem fin_dis (ei : IVec S2x800000 32) (hws : Mat 50000 128) (b : FVec Ideal S128 .f32) :
    Cert.KPay.fin (disTerm ei) (segK ei hws) hws (biasRow b) = finK ei hws b := by
  funext j
  obtain ⟨i, c, rfl⟩ : ∃ (i : Fin 50000) (c : Fin 128), j = ix2 i c := ⟨j 0, j 1, eq_ix2 j⟩
  show disTerm ei (ix2 i (0 : Fin 1)) * (segK ei hws (ix2 i c) + hws (ix2 i c)) + biasRow b (ix2 (0 : Fin 1) c)
    = disK ei i * (segK ei hws (ix2 i c) + hws (ix2 i c)) + b (ix1 c)
  rw [disTerm_apply]
  exact congrArg (disK ei i * (segK ei hws (ix2 i c) + hws (ix2 i c)) + ·) (Cert.Gcn.shapeCast_n_1n_apply b shapeCasts_S128_S1x128 c)

end Cert.KernelIdeal.KTerms

end
-- ==== Proof.LibUncast.lean ====
/-
  Matching a host stretch's result against a hand-written term, one operation at a time.

  The contents a host operation of an outlined function writes are its pure function of the operands' contents, each
  operand and the result carried along the equation between a typed value's type and its buffer's type. Such a
  carried value is the value itself, but an equation between two such terms is safest decided from the outside in:
  strip the carrying from the left-hand side, match the outermost operation by its congruence, and repeat on the
  operands. `uncast` does the stripping (from an equation whose left-hand side is a value carried along any
  number of type equations to the equation with the bare value); `select_congr` is the congruence of a choice.
-/
import Idealize.ShloMosaic.PureOps.Ideal
import Idealize.ShloMosaic.Lib.ValueIdx

namespace Idealize.ShloMosaic.Uncast

open Idealize.ShloMosaic

/-- A value carried along an equation between its types is still that value. -/
theorem cast_heq' {α β : Sort _} (h : α = β) (a : α) {γ : Sort _} (b : γ) (hab : HEq a b) : HEq (cast h a) b :=
  (cast_heq h a).trans hab

/-- Strip every carrying from the left-hand side of an equation. -/
macro "uncast" : tactic => `(tactic| (refine eq_of_heq ?_; repeat (refine Idealize.ShloMosaic.Uncast.cast_heq' _ _ _ ?_); refine heq_of_eq ?_))

/-- A choice between two arrays is a function of its three operands. -/
theorem select_congr {s : Shape} {α : Type} {c c' : IVec s 1} {a a' b b' : s.Idx → α} (hc : c = c') (ha : a = a') (hb : b = b') :
    select c a b = select c' a' b' := by subst hc ha hb; rfl

end Idealize.ShloMosaic.Uncast
-- ==== Proof.KHost.lean ====
/-
  The host operations between the launches, read as functions of the buffers they find.

  Before the first launch the program slices the edge array into its row of sources and its row of targets, counts
  for every node the edges that point at it (a scatter-add of ones), adds one for the self loop, and takes the inverse
  square root where that degree is positive: the factor of each node, kept as a one-column matrix. Before each later
  launch it gathers, for every edge, the scaled row of its source (a negative id counted from the end, an id past the
  end clamped), and adds the gathered rows into the rows their targets name (a scatter-add into zeros; a target outside
  the array drops its row). Biases are reshaped to one-row matrices. Every other buffer is left as it was.
-/
import proofs.«173266_j39247411151001_2_alg».proof.Proof.Gen.KernelIdeal.Frame
import proofs.«173266_j39247411151001_2_alg».proof.Proof.Spec
import proofs.«173266_j39247411151001_2_alg».proof.Proof.KPay
import proofs.«173266_j39247411151001_2_alg».proof.Proof.KTerms
import proofs.«173266_j39247411151001_2_alg».proof.Proof.LibUncast
import proofs.«173266_j39247411151001_2_alg».proof.Proof.LibSegmentSum
import proofs.«173266_j39247411151001_2_alg».proof.Proof.LibRowOps
import proofs.«173266_j39247411151001_2_alg».proof.Proof.LibLayout
import proofs.«173266_j39247411151001_2_alg».proof.Proof.LibGcnLayer
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KHost

open Cert.KernelIdeal Cert.KernelIdeal.Gen Cert.Spec Cert.KernelIdeal.KTerms
open Idealize.ShloMosaic Idealize.ShloMosaic.TcCoe Idealize.ShloMosaic.StableHlo Idealize.ShloMosaic.ValueIdx
open Idealize.ShloMosaic.RowOps Idealize.ShloMosaic.SegmentSum Idealize.ShloMosaic.Uncast
open Idealize.SL Idealize.SL.Sem

/-- A stretch of host operations leaves a buffer none of them writes as it found it. -/
macro "host_keeps" : tactic => `(tactic| (
  refine StableHlo.after_of_forall_not_mem _ _ (List.forall_iff_forall_mem.mp ?_)
  simp only [hostOps0, hostOps1, hostOps2, hostOps3, hostOps4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

section Keeps
variable (W : Valuation τ sig (Elt Ideal))
theorem keep0_main_arg0 : StableHlo.after hostOps0 W (Proc.devRef .tc main_arg0) = W (Proc.devRef .tc main_arg0) := by host_keeps
theorem keep0_main_arg2 : StableHlo.after hostOps0 W (Proc.devRef .tc main_arg2) = W (Proc.devRef .tc main_arg2) := by host_keeps
theorem keep0_main_arg3 : StableHlo.after hostOps0 W (Proc.devRef .tc main_arg3) = W (Proc.devRef .tc main_arg3) := by host_keeps
theorem keep0_main_arg4 : StableHlo.after hostOps0 W (Proc.devRef .tc main_arg4) = W (Proc.devRef .tc main_arg4) := by host_keeps
theorem keep0_main_arg5 : StableHlo.after hostOps0 W (Proc.devRef .tc main_arg5) = W (Proc.devRef .tc main_arg5) := by host_keeps
theorem keep0_main_arg6 : StableHlo.after hostOps0 W (Proc.devRef .tc main_arg6) = W (Proc.devRef .tc main_arg6) := by host_keeps
theorem keep0_main_arg7 : StableHlo.after hostOps0 W (Proc.devRef .tc main_arg7) = W (Proc.devRef .tc main_arg7) := by host_keeps
theorem keep0_main_arg9 : StableHlo.after hostOps0 W (Proc.devRef .tc main_arg9) = W (Proc.devRef .tc main_arg9) := by host_keeps
theorem keep0_main_arg11 : StableHlo.after hostOps0 W (Proc.devRef .tc main_arg11) = W (Proc.devRef .tc main_arg11) := by host_keeps
theorem keep0_main_arg12 : StableHlo.after hostOps0 W (Proc.devRef .tc main_arg12) = W (Proc.devRef .tc main_arg12) := by host_keeps
theorem keep0_main_arg13 : StableHlo.after hostOps0 W (Proc.devRef .tc main_arg13) = W (Proc.devRef .tc main_arg13) := by host_keeps
theorem keep0_main_arg14 : StableHlo.after hostOps0 W (Proc.devRef .tc main_arg14) = W (Proc.devRef .tc main_arg14) := by host_keeps
theorem keep0_main_arg15 : StableHlo.after hostOps0 W (Proc.devRef .tc main_arg15) = W (Proc.devRef .tc main_arg15) := by host_keeps
theorem keep0_main_arg16 : StableHlo.after hostOps0 W (Proc.devRef .tc main_arg16) = W (Proc.devRef .tc main_arg16) := by host_keeps
theorem keep1_main_arg0 : StableHlo.after hostOps1 W (Proc.devRef .tc main_arg0) = W (Proc.devRef .tc main_arg0) := by host_keeps
theorem keep1_main_arg3 : StableHlo.after hostOps1 W (Proc.devRef .tc main_arg3) = W (Proc.devRef .tc main_arg3) := by host_keeps
theorem keep1_main_arg5 : StableHlo.after hostOps1 W (Proc.devRef .tc main_arg5) = W (Proc.devRef .tc main_arg5) := by host_keeps
theorem keep1_main_arg11 : StableHlo.after hostOps1 W (Proc.devRef .tc main_arg11) = W (Proc.devRef .tc main_arg11) := by host_keeps
theorem keep1_main_call0_v14 : StableHlo.after hostOps1 W (Proc.devRef .tc main_call0_v14) = W (Proc.devRef .tc main_call0_v14) := by host_keeps
theorem keep1_main_call0_v1 : StableHlo.after hostOps1 W (Proc.devRef .tc main_call0_v1) = W (Proc.devRef .tc main_call0_v1) := by host_keeps
theorem keep1_main_call0_v3 : StableHlo.after hostOps1 W (Proc.devRef .tc main_call0_v3) = W (Proc.devRef .tc main_call0_v3) := by host_keeps
theorem keep1_main_arg12 : StableHlo.after hostOps1 W (Proc.devRef .tc main_arg12) = W (Proc.devRef .tc main_arg12) := by host_keeps
theorem keep1_main_arg13 : StableHlo.after hostOps1 W (Proc.devRef .tc main_arg13) = W (Proc.devRef .tc main_arg13) := by host_keeps
theorem keep1_main_arg14 : StableHlo.after hostOps1 W (Proc.devRef .tc main_arg14) = W (Proc.devRef .tc main_arg14) := by host_keeps
theorem keep1_main_arg15 : StableHlo.after hostOps1 W (Proc.devRef .tc main_arg15) = W (Proc.devRef .tc main_arg15) := by host_keeps
theorem keep1_main_arg16 : StableHlo.after hostOps1 W (Proc.devRef .tc main_arg16) = W (Proc.devRef .tc main_arg16) := by host_keeps
theorem keep1_main_v0_1 : StableHlo.after hostOps1 W (Proc.devRef .tc main_v0_1) = W (Proc.devRef .tc main_v0_1) := by host_keeps
theorem keep2_main_call0_v20 : StableHlo.after hostOps2 W (Proc.devRef .tc main_call0_v20) = W (Proc.devRef .tc main_call0_v20) := by host_keeps
theorem keep2_main_call0_v14 : StableHlo.after hostOps2 W (Proc.devRef .tc main_call0_v14) = W (Proc.devRef .tc main_call0_v14) := by host_keeps
theorem keep2_main_arg13 : StableHlo.after hostOps2 W (Proc.devRef .tc main_arg13) = W (Proc.devRef .tc main_arg13) := by host_keeps
theorem keep2_main_call0_v1 : StableHlo.after hostOps2 W (Proc.devRef .tc main_call0_v1) = W (Proc.devRef .tc main_call0_v1) := by host_keeps
theorem keep2_main_call0_v3 : StableHlo.after hostOps2 W (Proc.devRef .tc main_call0_v3) = W (Proc.devRef .tc main_call0_v3) := by host_keeps
theorem keep2_main_arg14 : StableHlo.after hostOps2 W (Proc.devRef .tc main_arg14) = W (Proc.devRef .tc main_arg14) := by host_keeps
theorem keep2_main_arg15 : StableHlo.after hostOps2 W (Proc.devRef .tc main_arg15) = W (Proc.devRef .tc main_arg15) := by host_keeps
theorem keep2_main_arg16 : StableHlo.after hostOps2 W (Proc.devRef .tc main_arg16) = W (Proc.devRef .tc main_arg16) := by host_keeps
theorem keep2_main_v0_1 : StableHlo.after hostOps2 W (Proc.devRef .tc main_v0_1) = W (Proc.devRef .tc main_v0_1) := by host_keeps
theorem keep3_main_call0_v32 : StableHlo.after hostOps3 W (Proc.devRef .tc main_call0_v32) = W (Proc.devRef .tc main_call0_v32) := by host_keeps
theorem keep3_main_call0_v14 : StableHlo.after hostOps3 W (Proc.devRef .tc main_call0_v14) = W (Proc.devRef .tc main_call0_v14) := by host_keeps
theorem keep3_main_arg15 : StableHlo.after hostOps3 W (Proc.devRef .tc main_arg15) = W (Proc.devRef .tc main_arg15) := by host_keeps
theorem keep3_main_call0_v1 : StableHlo.after hostOps3 W (Proc.devRef .tc main_call0_v1) = W (Proc.devRef .tc main_call0_v1) := by host_keeps
theorem keep3_main_call0_v3 : StableHlo.after hostOps3 W (Proc.devRef .tc main_call0_v3) = W (Proc.devRef .tc main_call0_v3) := by host_keeps
theorem keep3_main_arg16 : StableHlo.after hostOps3 W (Proc.devRef .tc main_arg16) = W (Proc.devRef .tc main_arg16) := by host_keeps
theorem keep3_main_v0_1 : StableHlo.after hostOps3 W (Proc.devRef .tc main_v0_1) = W (Proc.devRef .tc main_v0_1) := by host_keeps
theorem keep4_main_call0_v44 : StableHlo.after hostOps4 W (Proc.devRef .tc main_call0_v44) = W (Proc.devRef .tc main_call0_v44) := by host_keeps
theorem keep4_main_call0_v14 : StableHlo.after hostOps4 W (Proc.devRef .tc main_call0_v14) = W (Proc.devRef .tc main_call0_v14) := by host_keeps
theorem keep4_main_v0_1 : StableHlo.after hostOps4 W (Proc.devRef .tc main_v0_1) = W (Proc.devRef .tc main_v0_1) := by host_keeps
end Keeps

/-! ## The stretches' results -/

section Stages
variable (W : Valuation τ sig (Elt Ideal))

set_option maxHeartbeats 4000000 in
theorem h0_v1 : (StableHlo.after hostOps0 W (Proc.devRef .tc main_call0_v1) : S800000.Idx → BitVec 32) = rowIds (W (Proc.devRef .tc main_arg1)) := by
  after_results; rfl
set_option maxHeartbeats 4000000 in
theorem h0_v3 : (StableHlo.after hostOps0 W (Proc.devRef .tc main_call0_v3) : S800000.Idx → BitVec 32) = colIds (W (Proc.devRef .tc main_arg1)) := by
  after_results; rfl
set_option maxHeartbeats 4000000 in
/-- The factors' term has a choice, a comparison, an inverse square root and a sum around the count; it is matched
    against the stretch's result one operation at a time. -/
theorem h0_v14 : (StableHlo.after hostOps0 W (Proc.devRef .tc main_call0_v14) : S50000x1.Idx → EReal) = disTerm (W (Proc.devRef .tc main_arg1)) := by
  unfold disTerm degTerm
  after_results
  refine congrArg (fun x => shapeCast S50000x1 x shapeCasts_S50000_S50000x1) ?_
  uncast
  refine select_congr (s := S50000) ?_ ?_ ?_
  · uncast
    refine congrArg₂ (cmpf (F := Ideal) (s := S50000) (φ := .f32) .ogt) ?_ ?_
    · uncast
      refine congrArg₂ (addf (F := Ideal) (s := S50000) (φ := .f32)) ?_ ?_ <;> rfl
    · rfl
  · uncast
    refine congrArg (Host.rsqrt (F := Ideal) (s := S50000) (φ := .f32)) ?_
    uncast
    refine congrArg₂ (addf (F := Ideal) (s := S50000) (φ := .f32)) ?_ ?_ <;> rfl
  · rfl
set_option maxHeartbeats 4000000 in
theorem h0_v15 : (StableHlo.after hostOps0 W (Proc.devRef .tc main_call0_v15) : S1x128.Idx → EReal) = biasRow (W (Proc.devRef .tc main_arg8)) := by
  after_results; rfl
set_option maxHeartbeats 4000000 in
theorem h0_v16 : (StableHlo.after hostOps0 W (Proc.devRef .tc main_call0_v16) : S1x128.Idx → EReal) = biasRow (W (Proc.devRef .tc main_arg10)) := by
  after_results; rfl
theorem h1_v18 : (StableHlo.after hostOps1 W (Proc.devRef .tc main_call0_v18) : S1x128.Idx → EReal) = biasRow (W (Proc.devRef .tc main_arg4)) := by
  after_results; rfl
theorem h1_v19 : (StableHlo.after hostOps1 W (Proc.devRef .tc main_call0_v19) : S1x128.Idx → EReal) = biasRow (W (Proc.devRef .tc main_arg6)) := by
  after_results; rfl
set_option maxHeartbeats 4000000 in
theorem h2_v30 : (StableHlo.after hostOps2 W (Proc.devRef .tc main_call0_v30) : S50000x128.Idx → EReal)
    = segTerm (W (Proc.devRef .tc main_call0_v1)) (W (Proc.devRef .tc main_call0_v3)) (W (Proc.devRef .tc main_call0_v20)) := by
  after_results; rfl
set_option maxHeartbeats 4000000 in
theorem h2_v31 : (StableHlo.after hostOps2 W (Proc.devRef .tc main_call0_v31) : S1x128.Idx → EReal) = biasRow (W (Proc.devRef .tc main_arg12)) := by
  after_results; rfl
set_option maxHeartbeats 4000000 in
theorem h3_v42 : (StableHlo.after hostOps3 W (Proc.devRef .tc main_call0_v42) : S50000x128.Idx → EReal)
    = segTerm (W (Proc.devRef .tc main_call0_v1)) (W (Proc.devRef .tc main_call0_v3)) (W (Proc.devRef .tc main_call0_v32)) := by
  after_results; rfl
set_option maxHeartbeats 4000000 in
theorem h3_v43 : (StableHlo.after hostOps3 W (Proc.devRef .tc main_call0_v43) : S1x128.Idx → EReal) = biasRow (W (Proc.devRef .tc main_arg14)) := by
  after_results; rfl
set_option maxHeartbeats 4000000 in
theorem h4_v54 : (StableHlo.after hostOps4 W (Proc.devRef .tc main_call0_v54) : S50000x128.Idx → EReal)
    = segTerm (W (Proc.devRef .tc main_call0_v1)) (W (Proc.devRef .tc main_call0_v3)) (W (Proc.devRef .tc main_call0_v44)) := by
  after_results; rfl
set_option maxHeartbeats 4000000 in
theorem h4_v55 : (StableHlo.after hostOps4 W (Proc.devRef .tc main_call0_v55) : S1x128.Idx → EReal) = biasRow (W (Proc.devRef .tc main_arg16)) := by
  after_results; rfl
end Stages

end Cert.KernelIdeal.KHost

end
-- ==== Proof.KB0.lean ====
/-
  Launch 0 of the kernel program: what its output array holds when it ends, as one function of the arrays it finds.

  The launch walks over blocks of 8000 rows. A row-blocked window's block at grid point t is rows t * 8000 … of its
  array; a weight or bias window is its whole array at every point. Every entry the body stores depends on the
  same row of its row-blocked inputs only, so what point t writes back is block t of one function of the whole
  arrays, and the blocks tile the output.
-/
import proofs.«173266_j39247411151001_2_alg».proof.Proof.Gen.KernelIdeal.Frame
import proofs.«173266_j39247411151001_2_alg».proof.Proof.KPay
import Idealize.ShloMosaic.Lib.Pipeline.Value

set_option maxRecDepth 16384

noncomputable section

namespace Cert.KernelIdeal.KB0

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The row of the whole array that row p of block t is. -/
def row (t : Fin cfg0.N) (p : Fin 8000) : Fin 800000 :=
  ⟨t.val * 8000 + p.val, by have h : cfg0.N = 100 := N_0; have := t.isLt; have := p.isLt; omega⟩

/-- The printed index maps over the grid: a row-blocked window is at block (t, 0), the others at block (0, 0). -/
theorem idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem iblk0_0 (c : Dev nD) (t : Fin cfg0.N) (p : Fin 8000) (q : Fin 128) :
    iblk0 V c 0 t (ix2 p q) = V c main_arg2 (ix2 (row t p) q) := by
  obtain ⟨e0, e1, -⟩ := idx t
  show V c main_arg2 (((cfg0.win 0).blk t).view.emb (ix2 p q)) = _
  refine congrArg (V c main_arg2) (funext fun a => Fin.ext ?_)
  match a with
  | ⟨0, _⟩ => show win0_0.index t (0 : Fin 2) * 8000 + 1 * p.val = t.val * 8000 + p.val; rw [e0]; omega
  | ⟨1, _⟩ => show win0_0.index t (1 : Fin 2) * 128 + 1 * q.val = q.val; rw [e1]; omega

theorem iblk0_1 (c : Dev nD) (t : Fin cfg0.N) :
    (iblk0 V c 1 t : S128x128.Idx → EReal) = V c main_arg7 := by
  obtain ⟨-, -, e0, e1, -⟩ := idx t
  funext y
  show V c main_arg7 (((cfg0.win 1).blk t).view.emb y) = _
  refine congrArg (V c main_arg7) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

theorem iblk0_2 (c : Dev nD) (t : Fin cfg0.N) :
    (iblk0 V c 2 t : S1x128.Idx → EReal) = V c main_call0_v15 := by
  obtain ⟨-, -, -, -, e0, e1, -⟩ := idx t
  funext y
  show V c main_call0_v15 (((cfg0.win 2).blk t).view.emb y) = _
  refine congrArg (V c main_call0_v15) (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

theorem iblk0_3 (c : Dev nD) (t : Fin cfg0.N) :
    (iblk0 V c 3 t : S128x128.Idx → EReal) = V c main_arg9 := by
  obtain ⟨-, -, -, -, -, -, e0, e1, -⟩ := idx t
  funext y
  show V c main_arg9 (((cfg0.win 3).blk t).view.emb y) = _
  refine congrArg (V c main_arg9) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem iblk0_4 (c : Dev nD) (t : Fin cfg0.N) :
    (iblk0 V c 4 t : S1x128.Idx → EReal) = V c main_call0_v16 := by
  obtain ⟨-, -, -, -, -, -, -, -, e0, e1, -⟩ := idx t
  funext y
  show V c main_call0_v16 (((cfg0.win 4).blk t).view.emb y) = _
  refine congrArg (V c main_call0_v16) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

theorem emb_out (t : Fin cfg0.N) (p : Fin 8000) (q : Fin 128) :
    ((cfg0.win 5).blk t).view.emb (ix2 p q) = ix2 (row t p) q := by
  obtain ⟨-, -, -, -, -, -, -, -, -, -, e0, e1⟩ := idx t
  refine funext fun a => Fin.ext ?_
  match a with
  | ⟨0, _⟩ => show win0_5.index t (0 : Fin 2) * 8000 + 1 * p.val = t.val * 8000 + p.val; rw [e0]; omega
  | ⟨1, _⟩ => show win0_5.index t (1 : Fin 2) * 128 + 1 * q.val = q.val; rw [e1]; omega

/-- The edge result: the perceptron of every row of the edge features. -/
def G (c : Dev nD) : Mat 800000 128 :=
  mlp2 800000 128 128 128 (V c main_arg2) (V c main_arg7) (Cert.KPay.rowVec (V c main_call0_v15)) (V c main_arg9) (Cert.KPay.rowVec (V c main_call0_v16))

/-- What grid point t writes back is block t of that function. -/
theorem flushed (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S8000x128) hz, View.ld_unit_zero (S := S128x128) hz, View.ld_unit_zero (S := S1x128) hz]
  rw [Cert.KPay.pay0]
  rw [iblk0_1 V c t, iblk0_2 V c t, iblk0_3 V c t, iblk0_4 V c t]
  funext y
  obtain ⟨p, q, rfl⟩ : ∃ (p : Fin 8000) (q : Fin 128), y = ix2 p q := ⟨y 0, y 1, eq_ix2 y⟩
  show _ = G V c (((cfg0.win 5).blk t).view.emb (ix2 p q))
  rw [emb_out]
  exact Cert.KPay.mlp2_row (iblk0 V c 0 t) (V c main_arg2) (V c main_arg7) (Cert.KPay.rowVec (V c main_call0_v15)) (V c main_arg9) (Cert.KPay.rowVec (V c main_call0_v16)) p (row t p) q (fun k => iblk0_0 V c t p k)

theorem mem_blk (t : Fin cfg0.N) (i : S800000x128.Idx) :
    i ∈ ((cfg0.win 5).blk t).view.set ↔ ∀ a : Fin 2, win0_5.index t a * S8000x128.size a ≤ (i a).val ∧ (i a).val < win0_5.index t a * S8000x128.size a + S8000x128.size a := by
  show i ∈ ((View.whole main_v0_1).slice (win0_5.rect t)).set ↔ _
  rw [View.set_slice_whole, Rect.mem_set_unit]
  exact Iff.rfl

/-- Every row of the output lies in the block of the point its row number divided by 8000 names. -/
theorem cover (i : S800000x128.Idx) : ∃ t : Fin cfg0.N, (cfg0.win 5).flush t = true ∧ i ∈ ((cfg0.win 5).blk t).view.set := by
  have hi0 : (i 0).val < 800000 := (i 0).isLt
  have hi1 : (i 1).val < 128 := (i 1).isLt
  have hN : cfg0.N = 100 := N_0
  obtain ⟨t, ht⟩ : ∃ t : Fin cfg0.N, t.val = (i 0).val / 8000 := ⟨⟨(i 0).val / 8000, by omega⟩, rfl⟩
  obtain ⟨-, -, -, -, -, -, -, -, -, -, e0, e1⟩ := idx t
  refine ⟨t, flush0_5 t, ?_⟩
  rw [mem_blk]
  intro a
  match a with
  | ⟨0, _⟩ => show win0_5.index t (0 : Fin 2) * 8000 ≤ (i 0).val ∧ (i 0).val < win0_5.index t (0 : Fin 2) * 8000 + 8000; rw [e0, ht]; omega
  | ⟨1, _⟩ => show win0_5.index t (1 : Fin 2) * 128 ≤ (i 1).val ∧ (i 1).val < win0_5.index t (1 : Fin 2) * 128 + 128; rw [e1]; omega

/-- The output array when the launch ends. -/
theorem final (c : Dev nD) : (dat0 V c).arrAt 5 cfg0.N = G V c :=
  (dat0 V c).arrAt_eq_of_cover 5 (G V c) (fun t _ => flushed V c t) (cover)

end Cert.KernelIdeal.KB0

end
-- ==== Proof.KB1.lean ====
/-
  Launch 1 of the kernel program: what its output array holds when it ends, as one function of the arrays it finds.

  The launch walks over blocks of 5000 rows. A row-blocked window's block at grid point t is rows t * 5000 … of its
  array; a weight or bias window is its whole array at every point. Every entry the body stores depends on the
  same row of its row-blocked inputs only, so what point t writes back is block t of one function of the whole
  arrays, and the blocks tile the output.
-/
import proofs.«173266_j39247411151001_2_alg».proof.Proof.Gen.KernelIdeal.Frame
import proofs.«173266_j39247411151001_2_alg».proof.Proof.KPay
import Idealize.ShloMosaic.Lib.Pipeline.Value

set_option maxRecDepth 16384

noncomputable section

namespace Cert.KernelIdeal.KB1

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The row of the whole array that row p of block t is. -/
def row (t : Fin cfg1.N) (p : Fin 5000) : Fin 50000 :=
  ⟨t.val * 5000 + p.val, by have h : cfg1.N = 10 := N_1; have := t.isLt; have := p.isLt; omega⟩

/-- The printed index maps over the grid: a row-blocked window is at block (t, 0), the others at block (0, 0). -/
theorem idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

theorem iblk1_0 (c : Dev nD) (t : Fin cfg1.N) (p : Fin 5000) (q : Fin 256) :
    iblk1 V c 0 t (ix2 p q) = V c main_arg0 (ix2 (row t p) q) := by
  obtain ⟨e0, e1, -⟩ := idx t
  show V c main_arg0 (((cfg1.win 0).blk t).view.emb (ix2 p q)) = _
  refine congrArg (V c main_arg0) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 256 + 1 * q.val = q.val; rw [e1]; omega

theorem iblk1_1 (c : Dev nD) (t : Fin cfg1.N) :
    (iblk1 V c 1 t : S256x128.Idx → EReal) = V c main_arg3 := by
  obtain ⟨-, -, e0, e1, -⟩ := idx t
  funext y
  show V c main_arg3 (((cfg1.win 1).blk t).view.emb y) = _
  refine congrArg (V c main_arg3) (funext fun a => Fin.ext ?_)
  match a with
  | ⟨0, _⟩ => show win1_1.index t (0 : Fin 2) * 256 + 1 * (y 0).val = (y 0).val; rw [e0]; omega
  | ⟨1, _⟩ => show win1_1.index t (1 : Fin 2) * 128 + 1 * (y 1).val = (y 1).val; rw [e1]; omega

theorem iblk1_2 (c : Dev nD) (t : Fin cfg1.N) :
    (iblk1 V c 2 t : S1x128.Idx → EReal) = V c main_call0_v18 := by
  obtain ⟨-, -, -, -, e0, e1, -⟩ := idx t
  funext y
  show V c main_call0_v18 (((cfg1.win 2).blk t).view.emb y) = _
  refine congrArg (V c main_call0_v18) (funext fun a => Fin.ext ?_)
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

theorem iblk1_3 (c : Dev nD) (t : Fin cfg1.N) :
    (iblk1 V c 3 t : S128x128.Idx → EReal) = V c main_arg5 := by
  obtain ⟨-, -, -, -, -, -, e0, e1, -⟩ := idx t
  funext y
  show V c main_arg5 (((cfg1.win 3).blk t).view.emb y) = _
  refine congrArg (V c main_arg5) (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

theorem iblk1_4 (c : Dev nD) (t : Fin cfg1.N) :
    (iblk1 V c 4 t : S1x128.Idx → EReal) = V c main_call0_v19 := by
  obtain ⟨-, -, -, -, -, -, -, -, e0, e1, -⟩ := idx t
  funext y
  show V c main_call0_v19 (((cfg1.win 4).blk t).view.emb y) = _
  refine congrArg (V c main_call0_v19) (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

theorem iblk1_5 (c : Dev nD) (t : Fin cfg1.N) :
    (iblk1 V c 5 t : S128x128.Idx → EReal) = V c main_arg11 := by
  obtain ⟨-, -, -, -, -, -, -, -, -, -, e0, e1, -⟩ := idx t
  funext y
  show V c main_arg11 (((cfg1.win 5).blk t).view.emb y) = _
  refine congrArg (V c main_arg11) (funext fun a => Fin.ext ?_)
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

theorem iblk1_6 (c : Dev nD) (t : Fin cfg1.N) (p : Fin 5000) (q : Fin 1) :
    iblk1 V c 6 t (ix2 p q) = V c main_call0_v14 (ix2 (row t p) q) := by
  obtain ⟨-, -, -, -, -, -, -, -, -, -, -, -, e0, e1, -⟩ := idx t
  show V c main_call0_v14 (((cfg1.win 6).blk t).view.emb (ix2 p q)) = _
  refine congrArg (V c main_call0_v14) (funext fun a => Fin.ext ?_)
  match a with
  | ⟨0, _⟩ => show win1_6.index t (0 : Fin 2) * 5000 + 1 * p.val = t.val * 5000 + p.val; rw [e0]; omega
  | ⟨1, _⟩ => show win1_6.index t (1 : Fin 2) * 1 + 1 * q.val = q.val; rw [e1]; omega

theorem emb_out (t : Fin cfg1.N) (p : Fin 5000) (q : Fin 128) :
    ((cfg1.win 7).blk t).view.emb (ix2 p q) = ix2 (row t p) q := by
  obtain ⟨-, -, -, -, -, -, -, -, -, -, -, -, -, -, e0, e1⟩ := idx t
  refine funext fun a => Fin.ext ?_
  match a with
  | ⟨0, _⟩ => show win1_7.index t (0 : Fin 2) * 5000 + 1 * p.val = t.val * 5000 + p.val; rw [e0]; omega
  | ⟨1, _⟩ => show win1_7.index t (1 : Fin 2) * 128 + 1 * q.val = q.val; rw [e1]; omega

/-- The first layer's scaled rows: the perceptron of every node's features, times the layer's weights, row r scaled by the factor of node r. -/
def G (c : Dev nD) : Mat 50000 128 :=
  Cert.KPay.scaled (V c main_call0_v14) (lin 50000 128 128 (mlp2 50000 256 128 128 (V c main_arg0) (V c main_arg3) (Cert.KPay.rowVec (V c main_call0_v18)) (V c main_arg5) (Cert.KPay.rowVec (V c main_call0_v19))) (V c main_arg11))

/-- What grid point t writes back is block t of that function. -/
theorem flushed (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S5000x256) hz, View.ld_unit_zero (S := S256x128) hz, View.ld_unit_zero (S := S1x128) hz, View.ld_unit_zero (S := S128x128) hz, View.ld_unit_zero (S := S5000x1) hz, View.ld_unit_zero (S := S5000x128) hz]
  rw [Cert.KPay.pay1]
  rw [iblk1_1 V c t, iblk1_2 V c t, iblk1_3 V c t, iblk1_4 V c t, iblk1_5 V c t]
  funext y
  obtain ⟨p, q, rfl⟩ : ∃ (p : Fin 5000) (q : Fin 128), y = ix2 p q := ⟨y 0, y 1, eq_ix2 y⟩
  show _ = G V c (((cfg1.win 7).blk t).view.emb (ix2 p q))
  rw [emb_out]
  exact Cert.KPay.scaled_row (iblk1 V c 6 t) (V c main_call0_v14) (mlp2 5000 256 128 128 (iblk1 V c 0 t) (V c main_arg3) (Cert.KPay.rowVec (V c main_call0_v18)) (V c main_arg5) (Cert.KPay.rowVec (V c main_call0_v19))) (mlp2 50000 256 128 128 (V c main_arg0) (V c main_arg3) (Cert.KPay.rowVec (V c main_call0_v18)) (V c main_arg5) (Cert.KPay.rowVec (V c main_call0_v19))) (V c main_arg11) p (row t p) q (iblk1_6 V c t p (0 : Fin 1)) (fun k => Cert.KPay.mlp2_row (iblk1 V c 0 t) (V c main_arg0) (V c main_arg3) (Cert.KPay.rowVec (V c main_call0_v18)) (V c main_arg5) (Cert.KPay.rowVec (V c main_call0_v19)) p (row t p) k (fun k' => iblk1_0 V c t p k'))

theorem mem_blk (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_call0_v20).slice (win1_7.rect t)).set ↔ _
  rw [View.set_slice_whole, Rect.mem_set_unit]
  exact Iff.rfl

/-- Every row of the output lies in the block of the point its row number divided by 5000 names. -/
theorem cover (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by omega⟩, rfl⟩
  obtain ⟨-, -, -, -, -, -, -, -, -, -, -, -, -, -, e0, e1⟩ := idx t
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; rw [e0, ht]; omega
  | ⟨1, _⟩ => show win1_7.index t (1 : Fin 2) * 128 ≤ (i 1).val ∧ (i 1).val < win1_7.index t (1 : Fin 2) * 128 + 128; rw [e1]; omega

/-- The output array when the launch ends. -/
theorem final (c : Dev nD) : (dat1 V c).arrAt 7 cfg1.N = G V c :=
  (dat1 V c).arrAt_eq_of_cover 7 (G V c) (fun t _ => flushed V c t) (cover)

end Cert.KernelIdeal.KB1

end
-- ==== Proof.KB2.lean ====
/-
  Launch 2 of the kernel program: what its output array holds when it ends, as one function of the arrays it finds.

  The launch walks over blocks of 5000 rows. A row-blocked window's block at grid point t is rows t * 5000 … of its
  array; a weight or bias window is its whole array at every point. Every entry the body stores depends on the
  same row of its row-blocked inputs only, so what point t writes back is block t of one function of the whole
  arrays, and the blocks tile the output.
-/
import proofs.«173266_j39247411151001_2_alg».proof.Proof.Gen.KernelIdeal.Frame
import proofs.«173266_j39247411151001_2_alg».proof.Proof.KPay
import Idealize.ShloMosaic.Lib.Pipeline.Value

set_option maxRecDepth 16384

noncomputable section

namespace Cert.KernelIdeal.KB2

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The row of the whole array that row p of block t is. -/
def row (t : Fin cfg2.N) (p : Fin 5000) : Fin 50000 :=
  ⟨t.val * 5000 + p.val, by have h : cfg2.N = 10 := N_2; have := t.isLt; have := p.isLt; omega⟩

/-- The printed index maps over the grid: a row-blocked window is at block (t, 0), the others at block (0, 0). -/
theorem idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem iblk2_0 (c : Dev nD) (t : Fin cfg2.N) (p : Fin 5000) (q : Fin 128) :
    iblk2 V c 0 t (ix2 p q) = V c main_call0_v30 (ix2 (row t p) q) := by
  obtain ⟨e0, e1, -⟩ := idx t
  show V c main_call0_v30 (((cfg2.win 0).blk t).view.emb (ix2 p q)) = _
  refine congrArg (V c main_call0_v30) (funext fun a => Fin.ext ?_)
  match a with
  | ⟨0, _⟩ => show win2_0.index t (0 : Fin 2) * 5000 + 1 * p.val = t.val * 5000 + p.val; rw [e0]; omega
  | ⟨1, _⟩ => show win2_0.index t (1 : Fin 2) * 128 + 1 * q.val = q.val; rw [e1]; omega

theorem iblk2_1 (c : Dev nD) (t : Fin cfg2.N) (p : Fin 5000) (q : Fin 128) :
    iblk2 V c 1 t (ix2 p q) = V c main_call0_v20 (ix2 (row t p) q) := by
  obtain ⟨-, -, e0, e1, -⟩ := idx t
  show V c main_call0_v20 (((cfg2.win 1).blk t).view.emb (ix2 p q)) = _
  refine congrArg (V c main_call0_v20) (funext fun a => Fin.ext ?_)
  match a with
  | ⟨0, _⟩ => show win2_1.index t (0 : Fin 2) * 5000 + 1 * p.val = t.val * 5000 + p.val; rw [e0]; omega
  | ⟨1, _⟩ => show win2_1.index t (1 : Fin 2) * 128 + 1 * q.val = q.val; rw [e1]; omega

theorem iblk2_2 (c : Dev nD) (t : Fin cfg2.N) (p : Fin 5000) (q : Fin 1) :
    iblk2 V c 2 t (ix2 p q) = V c main_call0_v14 (ix2 (row t p) q) := by
  obtain ⟨-, -, -, -, e0, e1, -⟩ := idx t
  show V c main_call0_v14 (((cfg2.win 2).blk t).view.emb (ix2 p q)) = _
  refine congrArg (V c main_call0_v14) (funext fun a => Fin.ext ?_)
  match a with
  | ⟨0, _⟩ => show win2_2.index t (0 : Fin 2) * 5000 + 1 * p.val = t.val * 5000 + p.val; rw [e0]; omega
  | ⟨1, _⟩ => show win2_2.index t (1 : Fin 2) * 1 + 1 * q.val = q.val; rw [e1]; omega

theorem iblk2_3 (c : Dev nD) (t : Fin cfg2.N) :
    (iblk2 V c 3 t : S1x128.Idx → EReal) = V c main_call0_v31 := by
  obtain ⟨-, -, -, -, -, -, e0, e1, -⟩ := idx t
  funext y
  show V c main_call0_v31 (((cfg2.win 3).blk t).view.emb y) = _
  refine congrArg (V c main_call0_v31) (funext fun a => Fin.ext ?_)
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

theorem iblk2_4 (c : Dev nD) (t : Fin cfg2.N) :
    (iblk2 V c 4 t : S128x128.Idx → EReal) = V c main_arg13 := by
  obtain ⟨-, -, -, -, -, -, -, -, e0, e1, -⟩ := idx t
  funext y
  show V c main_arg13 (((cfg2.win 4).blk t).view.emb y) = _
  refine congrArg (V c main_arg13) (funext fun a => Fin.ext ?_)
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

theorem emb_out (t : Fin cfg2.N) (p : Fin 5000) (q : Fin 128) :
    ((cfg2.win 5).blk t).view.emb (ix2 p q) = ix2 (row t p) q := by
  obtain ⟨-, -, -, -, -, -, -, -, -, -, e0, e1⟩ := idx t
  refine funext fun a => Fin.ext ?_
  match a with
  | ⟨0, _⟩ => show win2_5.index t (0 : Fin 2) * 5000 + 1 * p.val = t.val * 5000 + p.val; rw [e0]; omega
  | ⟨1, _⟩ => show win2_5.index t (1 : Fin 2) * 128 + 1 * q.val = q.val; rw [e1]; omega

/-- A hidden layer's scaled rows for the next layer: the combination of the summed neighbour rows and the node's own row, relu, times the next weights, row r scaled by the factor of node r. -/
def G (c : Dev nD) : Mat 50000 128 :=
  Cert.KPay.scaled (V c main_call0_v14) (lin 50000 128 128 (relu (Cert.KPay.fin (V c main_call0_v14) (V c main_call0_v30) (V c main_call0_v20) (V c main_call0_v31))) (V c main_arg13))

/-- What grid point t writes back is block t of that function. -/
theorem flushed (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S5000x1) hz, View.ld_unit_zero (S := S1x128) hz, View.ld_unit_zero (S := S128x128) hz]
  rw [Cert.KPay.pay2]
  rw [iblk2_3 V c t, iblk2_4 V c t]
  funext y
  obtain ⟨p, q, rfl⟩ : ∃ (p : Fin 5000) (q : Fin 128), y = ix2 p q := ⟨y 0, y 1, eq_ix2 y⟩
  show _ = G V c (((cfg2.win 5).blk t).view.emb (ix2 p q))
  rw [emb_out]
  exact Cert.KPay.scaled_row (iblk2 V c 2 t) (V c main_call0_v14) (relu (Cert.KPay.fin (iblk2 V c 2 t) (iblk2 V c 0 t) (iblk2 V c 1 t) (V c main_call0_v31))) (relu (Cert.KPay.fin (V c main_call0_v14) (V c main_call0_v30) (V c main_call0_v20) (V c main_call0_v31))) (V c main_arg13) p (row t p) q (iblk2_2 V c t p (0 : Fin 1)) (fun k => Cert.KPay.relu_congr _ _ _ _ (Cert.KPay.fin_row (iblk2 V c 2 t) (iblk2 V c 0 t) (iblk2 V c 1 t) (V c main_call0_v31) (V c main_call0_v14) (V c main_call0_v30) (V c main_call0_v20) (V c main_call0_v31) p (row t p) k (iblk2_2 V c t p (0 : Fin 1)) (iblk2_0 V c t p k) (iblk2_1 V c t p k) rfl))

theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_call0_v32).slice (win2_5.rect t)).set ↔ _
  rw [View.set_slice_whole, Rect.mem_set_unit]
  exact Iff.rfl

/-- Every row of the output lies in the block of the point its row number divided by 5000 names. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by omega⟩, rfl⟩
  obtain ⟨-, -, -, -, -, -, -, -, -, -, e0, e1⟩ := idx t
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; rw [e0, ht]; omega
  | ⟨1, _⟩ => show win2_5.index t (1 : Fin 2) * 128 ≤ (i 1).val ∧ (i 1).val < win2_5.index t (1 : Fin 2) * 128 + 128; rw [e1]; omega

/-- The output array when the launch ends. -/
theorem final (c : Dev nD) : (dat2 V c).arrAt 5 cfg2.N = G V c :=
  (dat2 V c).arrAt_eq_of_cover 5 (G V c) (fun t _ => flushed V c t) (cover)

end Cert.KernelIdeal.KB2

end
-- ==== Proof.KB3.lean ====
/-
  Launch 3 of the kernel program: what its output array holds when it ends, as one function of the arrays it finds.

  The launch walks over blocks of 5000 rows. A row-blocked window's block at grid point t is rows t * 5000 … of its
  array; a weight or bias window is its whole array at every point. Every entry the body stores depends on the
  same row of its row-blocked inputs only, so what point t writes back is block t of one function of the whole
  arrays, and the blocks tile the output.
-/
import proofs.«173266_j39247411151001_2_alg».proof.Proof.Gen.KernelIdeal.Frame
import proofs.«173266_j39247411151001_2_alg».proof.Proof.KPay
import Idealize.ShloMosaic.Lib.Pipeline.Value

set_option maxRecDepth 16384

noncomputable section

namespace Cert.KernelIdeal.KB3

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The row of the whole array that row p of block t is. -/
def row (t : Fin cfg3.N) (p : Fin 5000) : Fin 50000 :=
  ⟨t.val * 5000 + p.val, by have h : cfg3.N = 10 := N_3; have := t.isLt; have := p.isLt; omega⟩

/-- The printed index maps over the grid: a row-blocked window is at block (t, 0), the others at block (0, 0). -/
theorem idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem iblk3_0 (c : Dev nD) (t : Fin cfg3.N) (p : Fin 5000) (q : Fin 128) :
    iblk3 V c 0 t (ix2 p q) = V c main_call0_v42 (ix2 (row t p) q) := by
  obtain ⟨e0, e1, -⟩ := idx t
  show V c main_call0_v42 (((cfg3.win 0).blk t).view.emb (ix2 p q)) = _
  refine congrArg (V c main_call0_v42) (funext fun a => Fin.ext ?_)
  match a with
  | ⟨0, _⟩ => show win3_0.index t (0 : Fin 2) * 5000 + 1 * p.val = t.val * 5000 + p.val; rw [e0]; omega
  | ⟨1, _⟩ => show win3_0.index t (1 : Fin 2) * 128 + 1 * q.val = q.val; rw [e1]; omega

theorem iblk3_1 (c : Dev nD) (t : Fin cfg3.N) (p : Fin 5000) (q : Fin 128) :
    iblk3 V c 1 t (ix2 p q) = V c main_call0_v32 (ix2 (row t p) q) := by
  obtain ⟨-, -, e0, e1, -⟩ := idx t
  show V c main_call0_v32 (((cfg3.win 1).blk t).view.emb (ix2 p q)) = _
  refine congrArg (V c main_call0_v32) (funext fun a => Fin.ext ?_)
  match a with
  | ⟨0, _⟩ => show win3_1.index t (0 : Fin 2) * 5000 + 1 * p.val = t.val * 5000 + p.val; rw [e0]; omega
  | ⟨1, _⟩ => show win3_1.index t (1 : Fin 2) * 128 + 1 * q.val = q.val; rw [e1]; omega

theorem iblk3_2 (c : Dev nD) (t : Fin cfg3.N) (p : Fin 5000) (q : Fin 1) :
    iblk3 V c 2 t (ix2 p q) = V c main_call0_v14 (ix2 (row t p) q) := by
  obtain ⟨-, -, -, -, e0, e1, -⟩ := idx t
  show V c main_call0_v14 (((cfg3.win 2).blk t).view.emb (ix2 p q)) = _
  refine congrArg (V c main_call0_v14) (funext fun a => Fin.ext ?_)
  match a with
  | ⟨0, _⟩ => show win3_2.index t (0 : Fin 2) * 5000 + 1 * p.val = t.val * 5000 + p.val; rw [e0]; omega
  | ⟨1, _⟩ => show win3_2.index t (1 : Fin 2) * 1 + 1 * q.val = q.val; rw [e1]; omega

theorem iblk3_3 (c : Dev nD) (t : Fin cfg3.N) :
    (iblk3 V c 3 t : S1x128.Idx → EReal) = V c main_call0_v43 := by
  obtain ⟨-, -, -, -, -, -, e0, e1, -⟩ := idx t
  funext y
  show V c main_call0_v43 (((cfg3.win 3).blk t).view.emb y) = _
  refine congrArg (V c main_call0_v43) (funext fun a => Fin.ext ?_)
  match a with
  | ⟨0, _⟩ => show win3_3.index t (0 : Fin 2) * 1 + 1 * (y 0).val = (y 0).val; rw [e0]; omega
  | ⟨1, _⟩ => show win3_3.index t (1 : Fin 2) * 128 + 1 * (y 1).val = (y 1).val; rw [e1]; omega

theorem iblk3_4 (c : Dev nD) (t : Fin cfg3.N) :
    (iblk3 V c 4 t : S128x128.Idx → EReal) = V c main_arg15 := by
  obtain ⟨-, -, -, -, -, -, -, -, e0, e1, -⟩ := idx t
  funext y
  show V c main_arg15 (((cfg3.win 4).blk t).view.emb y) = _
  refine congrArg (V c main_arg15) (funext fun a => Fin.ext ?_)
  match a with
  | ⟨0, _⟩ => show win3_4.index t (0 : Fin 2) * 128 + 1 * (y 0).val = (y 0).val; rw [e0]; omega
  | ⟨1, _⟩ => show win3_4.index t (1 : Fin 2) * 128 + 1 * (y 1).val = (y 1).val; rw [e1]; omega

theorem emb_out (t : Fin cfg3.N) (p : Fin 5000) (q : Fin 128) :
    ((cfg3.win 5).blk t).view.emb (ix2 p q) = ix2 (row t p) q := by
  obtain ⟨-, -, -, -, -, -, -, -, -, -, e0, e1⟩ := idx t
  refine funext fun a => Fin.ext ?_
  match a with
  | ⟨0, _⟩ => show win3_5.index t (0 : Fin 2) * 5000 + 1 * p.val = t.val * 5000 + p.val; rw [e0]; omega
  | ⟨1, _⟩ => show win3_5.index t (1 : Fin 2) * 128 + 1 * q.val = q.val; rw [e1]; omega

/-- A hidden layer's scaled rows for the next layer: the combination of the summed neighbour rows and the node's own row, relu, times the next weights, row r scaled by the factor of node r. -/
def G (c : Dev nD) : Mat 50000 128 :=
  Cert.KPay.scaled (V c main_call0_v14) (lin 50000 128 128 (relu (Cert.KPay.fin (V c main_call0_v14) (V c main_call0_v42) (V c main_call0_v32) (V c main_call0_v43))) (V c main_arg15))

/-- What grid point t writes back is block t of that function. -/
theorem flushed (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S5000x1) hz, View.ld_unit_zero (S := S1x128) hz, View.ld_unit_zero (S := S128x128) hz]
  rw [Cert.KPay.pay3]
  rw [iblk3_3 V c t, iblk3_4 V c t]
  funext y
  obtain ⟨p, q, rfl⟩ : ∃ (p : Fin 5000) (q : Fin 128), y = ix2 p q := ⟨y 0, y 1, eq_ix2 y⟩
  show _ = G V c (((cfg3.win 5).blk t).view.emb (ix2 p q))
  rw [emb_out]
  exact Cert.KPay.scaled_row (iblk3 V c 2 t) (V c main_call0_v14) (relu (Cert.KPay.fin (iblk3 V c 2 t) (iblk3 V c 0 t) (iblk3 V c 1 t) (V c main_call0_v43))) (relu (Cert.KPay.fin (V c main_call0_v14) (V c main_call0_v42) (V c main_call0_v32) (V c main_call0_v43))) (V c main_arg15) p (row t p) q (iblk3_2 V c t p (0 : Fin 1)) (fun k => Cert.KPay.relu_congr _ _ _ _ (Cert.KPay.fin_row (iblk3 V c 2 t) (iblk3 V c 0 t) (iblk3 V c 1 t) (V c main_call0_v43) (V c main_call0_v14) (V c main_call0_v42) (V c main_call0_v32) (V c main_call0_v43) p (row t p) k (iblk3_2 V c t p (0 : Fin 1)) (iblk3_0 V c t p k) (iblk3_1 V c t p k) rfl))

theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_call0_v44).slice (win3_5.rect t)).set ↔ _
  rw [View.set_slice_whole, Rect.mem_set_unit]
  exact Iff.rfl

/-- Every row of the output lies in the block of the point its row number divided by 5000 names. -/
theorem cover (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by omega⟩, rfl⟩
  obtain ⟨-, -, -, -, -, -, -, -, -, -, e0, e1⟩ := idx t
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; rw [e0, ht]; omega
  | ⟨1, _⟩ => show win3_5.index t (1 : Fin 2) * 128 ≤ (i 1).val ∧ (i 1).val < win3_5.index t (1 : Fin 2) * 128 + 128; rw [e1]; omega

/-- The output array when the launch ends. -/
theorem final (c : Dev nD) : (dat3 V c).arrAt 5 cfg3.N = G V c :=
  (dat3 V c).arrAt_eq_of_cover 5 (G V c) (fun t _ => flushed V c t) (cover)

end Cert.KernelIdeal.KB3

end
-- ==== Proof.KB4.lean ====
/-
  Launch 4 of the kernel program: what its output array holds when it ends, as one function of the arrays it finds.

  The launch walks over blocks of 5000 rows. A row-blocked window's block at grid point t is rows t * 5000 … of its
  array; a weight or bias window is its whole array at every point. Every entry the body stores depends on the
  same row of its row-blocked inputs only, so what point t writes back is block t of one function of the whole
  arrays, and the blocks tile the output.
-/
import proofs.«173266_j39247411151001_2_alg».proof.Proof.Gen.KernelIdeal.Frame
import proofs.«173266_j39247411151001_2_alg».proof.Proof.KPay
import Idealize.ShloMosaic.Lib.Pipeline.Value

set_option maxRecDepth 16384

noncomputable section

namespace Cert.KernelIdeal.KB4

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The row of the whole array that row p of block t is. -/
def row (t : Fin cfg4.N) (p : Fin 5000) : Fin 50000 :=
  ⟨t.val * 5000 + p.val, by have h : cfg4.N = 10 := N_4; have := t.isLt; have := p.isLt; omega⟩

/-- The printed index maps over the grid: a row-blocked window is at block (t, 0), the others at block (0, 0). -/
theorem idx : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

theorem iblk4_0 (c : Dev nD) (t : Fin cfg4.N) (p : Fin 5000) (q : Fin 128) :
    iblk4 V c 0 t (ix2 p q) = V c main_call0_v54 (ix2 (row t p) q) := by
  obtain ⟨e0, e1, -⟩ := idx t
  show V c main_call0_v54 (((cfg4.win 0).blk t).view.emb (ix2 p q)) = _
  refine congrArg (V c main_call0_v54) (funext fun a => Fin.ext ?_)
  match a with
  | ⟨0, _⟩ => show win4_0.index t (0 : Fin 2) * 5000 + 1 * p.val = t.val * 5000 + p.val; rw [e0]; omega
  | ⟨1, _⟩ => show win4_0.index t (1 : Fin 2) * 128 + 1 * q.val = q.val; rw [e1]; omega

theorem iblk4_1 (c : Dev nD) (t : Fin cfg4.N) (p : Fin 5000) (q : Fin 128) :
    iblk4 V c 1 t (ix2 p q) = V c main_call0_v44 (ix2 (row t p) q) := by
  obtain ⟨-, -, e0, e1, -⟩ := idx t
  show V c main_call0_v44 (((cfg4.win 1).blk t).view.emb (ix2 p q)) = _
  refine congrArg (V c main_call0_v44) (funext fun a => Fin.ext ?_)
  match a with
  | ⟨0, _⟩ => show win4_1.index t (0 : Fin 2) * 5000 + 1 * p.val = t.val * 5000 + p.val; rw [e0]; omega
  | ⟨1, _⟩ => show win4_1.index t (1 : Fin 2) * 128 + 1 * q.val = q.val; rw [e1]; omega

theorem iblk4_2 (c : Dev nD) (t : Fin cfg4.N) (p : Fin 5000) (q : Fin 1) :
    iblk4 V c 2 t (ix2 p q) = V c main_call0_v14 (ix2 (row t p) q) := by
  obtain ⟨-, -, -, -, e0, e1, -⟩ := idx t
  show V c main_call0_v14 (((cfg4.win 2).blk t).view.emb (ix2 p q)) = _
  refine congrArg (V c main_call0_v14) (funext fun a => Fin.ext ?_)
  match a with
  | ⟨0, _⟩ => show win4_2.index t (0 : Fin 2) * 5000 + 1 * p.val = t.val * 5000 + p.val; rw [e0]; omega
  | ⟨1, _⟩ => show win4_2.index t (1 : Fin 2) * 1 + 1 * q.val = q.val; rw [e1]; omega

theorem iblk4_3 (c : Dev nD) (t : Fin cfg4.N) :
    (iblk4 V c 3 t : S1x128.Idx → EReal) = V c main_call0_v55 := by
  obtain ⟨-, -, -, -, -, -, e0, e1, -⟩ := idx t
  funext y
  show V c main_call0_v55 (((cfg4.win 3).blk t).view.emb y) = _
  refine congrArg (V c main_call0_v55) (funext fun a => Fin.ext ?_)
  match a with
  | ⟨0, _⟩ => show win4_3.index t (0 : Fin 2) * 1 + 1 * (y 0).val = (y 0).val; rw [e0]; omega
  | ⟨1, _⟩ => show win4_3.index t (1 : Fin 2) * 128 + 1 * (y 1).val = (y 1).val; rw [e1]; omega

theorem emb_out (t : Fin cfg4.N) (p : Fin 5000) (q : Fin 128) :
    ((cfg4.win 4).blk t).view.emb (ix2 p q) = ix2 (row t p) q := by
  obtain ⟨-, -, -, -, -, -, -, -, e0, e1⟩ := idx t
  refine funext fun a => Fin.ext ?_
  match a with
  | ⟨0, _⟩ => show win4_4.index t (0 : Fin 2) * 5000 + 1 * p.val = t.val * 5000 + p.val; rw [e0]; omega
  | ⟨1, _⟩ => show win4_4.index t (1 : Fin 2) * 128 + 1 * q.val = q.val; rw [e1]; omega

/-- The last layer's result: the combination of the summed neighbour rows and the node's own row, no activation. -/
def G (c : Dev nD) : Mat 50000 128 :=
  Cert.KPay.fin (V c main_call0_v14) (V c main_call0_v54) (V c main_call0_v44) (V c main_call0_v55)

/-- What grid point t writes back is block t of that function. -/
theorem flushed (c : Dev nD) (t : Fin cfg4.N) :
    (dat4 V c).flushed 4 t = ((cfg4.win 4).blk t).view.read (Elt Ideal) (G V c) := by
  show (cfg4.win 4).cut (grid4.coords t) ((dat4 V c).after 4 t) = _
  rw [after4_4]
  unfold out4_4
  rw [View.canon_unit_zero hz]
  simp only [View.ld_unit_zero (S := S5000x128) hz, View.ld_unit_zero (S := S5000x1) hz, View.ld_unit_zero (S := S1x128) hz]
  rw [Cert.KPay.pay4]
  rw [iblk4_3 V c t]
  funext y
  obtain ⟨p, q, rfl⟩ : ∃ (p : Fin 5000) (q : Fin 128), y = ix2 p q := ⟨y 0, y 1, eq_ix2 y⟩
  show _ = G V c (((cfg4.win 4).blk t).view.emb (ix2 p q))
  rw [emb_out]
  exact Cert.KPay.fin_row (iblk4 V c 2 t) (iblk4 V c 0 t) (iblk4 V c 1 t) (V c main_call0_v55) (V c main_call0_v14) (V c main_call0_v54) (V c main_call0_v44) (V c main_call0_v55) p (row t p) q (iblk4_2 V c t p (0 : Fin 1)) (iblk4_0 V c t p q) (iblk4_1 V c t p q) rfl

theorem mem_blk (t : Fin cfg4.N) (i : S50000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v0_0).slice (win4_4.rect t)).set ↔ _
  rw [View.set_slice_whole, Rect.mem_set_unit]
  exact Iff.rfl

/-- Every row of the output lies in the block of the point its row number divided by 5000 names. -/
theorem cover (i : S50000x128.Idx) : ∃ t : Fin cfg4.N, (cfg4.win 4).flush t = true ∧ i ∈ ((cfg4.win 4).blk t).view.set := by
  have hi0 : (i 0).val < 50000 := (i 0).isLt
  have hi1 : (i 1).val < 128 := (i 1).isLt
  have hN : cfg4.N = 10 := N_4
  obtain ⟨t, ht⟩ : ∃ t : Fin cfg4.N, t.val = (i 0).val / 5000 := ⟨⟨(i 0).val / 5000, by omega⟩, rfl⟩
  obtain ⟨-, -, -, -, -, -, -, -, e0, e1⟩ := idx t
  refine ⟨t, flush4_4 t, ?_⟩
  rw [mem_blk]
  intro a
  match a with
  | ⟨0, _⟩ => show win4_4.index t (0 : Fin 2) * 5000 ≤ (i 0).val ∧ (i 0).val < win4_4.index t (0 : Fin 2) * 5000 + 5000; rw [e0, ht]; omega
  | ⟨1, _⟩ => show win4_4.index t (1 : Fin 2) * 128 ≤ (i 1).val ∧ (i 1).val < win4_4.index t (1 : Fin 2) * 128 + 128; rw [e1]; omega

/-- The output array when the launch ends. -/
theorem final (c : Dev nD) : (dat4 V c).arrAt 4 cfg4.N = G V c :=
  (dat4 V c).arrAt_eq_of_cover 4 (G V c) (fun t _ => flushed V c t) (cover)

end Cert.KernelIdeal.KB4

end
-- ==== Proof.KValue.lean ====
/-
  What the kernel program's run leaves in its two results, as the specification's functions of the arguments.

  The run's final valuation is a fold through the program: a stretch of host operations computes its results from the
  buffers it finds and leaves the others alone; a launch replaces its output array by what its grid points write back
  and leaves its inputs alone. Walking the fold back from each result: the edge result is the first launch's output, the
  perceptron of the edge features; the node result is the last launch's output, whose inputs are the previous
  launch's output and the host's gather and scatter-add of it, and so on down to the node perceptron.
-/
import proofs.«173266_j39247411151001_2_alg».proof.Proof.Gen.KernelIdeal.Frame
import proofs.«173266_j39247411151001_2_alg».proof.Proof.Spec
import proofs.«173266_j39247411151001_2_alg».proof.Proof.KPay
import proofs.«173266_j39247411151001_2_alg».proof.Proof.KTerms
import proofs.«173266_j39247411151001_2_alg».proof.Proof.KHost
import proofs.«173266_j39247411151001_2_alg».proof.Proof.KB0
import proofs.«173266_j39247411151001_2_alg».proof.Proof.KB1
import proofs.«173266_j39247411151001_2_alg».proof.Proof.KB2
import proofs.«173266_j39247411151001_2_alg».proof.Proof.KB3
import proofs.«173266_j39247411151001_2_alg».proof.Proof.KB4

set_option maxRecDepth 16384

noncomputable section

namespace Cert.KernelIdeal.KValue

open Cert.KernelIdeal Cert.KernelIdeal.Gen Cert.Spec Cert.KernelIdeal.KTerms Cert.KernelIdeal.KHost
open Idealize.ShloMosaic Idealize.ShloMosaic.TcCoe Idealize.ShloMosaic.StableHlo Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## Buffers nothing has written yet -/
theorem arg2_at (c : Dev nD) : W1 m ρ c (Proc.devRef .tc main_arg2) = m ((c : Thread nD τ).loc main_arg2) :=
  (keep0_main_arg2 (W0 m ρ c)).trans rfl
theorem arg7_at (c : Dev nD) : W1 m ρ c (Proc.devRef .tc main_arg7) = m ((c : Thread nD τ).loc main_arg7) :=
  (keep0_main_arg7 (W0 m ρ c)).trans rfl
theorem arg9_at (c : Dev nD) : W1 m ρ c (Proc.devRef .tc main_arg9) = m ((c : Thread nD τ).loc main_arg9) :=
  (keep0_main_arg9 (W0 m ρ c)).trans rfl
theorem arg0_at (c : Dev nD) : W3 m ρ c (Proc.devRef .tc main_arg0) = m ((c : Thread nD τ).loc main_arg0) :=
  (((keep1_main_arg0 (W2 m ρ c)).trans (W2_of_ne m ρ c main_arg0 (by decide))).trans (keep0_main_arg0 (W0 m ρ c))).trans rfl
theorem arg3_at (c : Dev nD) : W3 m ρ c (Proc.devRef .tc main_arg3) = m ((c : Thread nD τ).loc main_arg3) :=
  (((keep1_main_arg3 (W2 m ρ c)).trans (W2_of_ne m ρ c main_arg3 (by decide))).trans (keep0_main_arg3 (W0 m ρ c))).trans rfl
theorem arg5_at (c : Dev nD) : W3 m ρ c (Proc.devRef .tc main_arg5) = m ((c : Thread nD τ).loc main_arg5) :=
  (((keep1_main_arg5 (W2 m ρ c)).trans (W2_of_ne m ρ c main_arg5 (by decide))).trans (keep0_main_arg5 (W0 m ρ c))).trans rfl
theorem arg11_at (c : Dev nD) : W3 m ρ c (Proc.devRef .tc main_arg11) = m ((c : Thread nD τ).loc main_arg11) :=
  (((keep1_main_arg11 (W2 m ρ c)).trans (W2_of_ne m ρ c main_arg11 (by decide))).trans (keep0_main_arg11 (W0 m ρ c))).trans rfl
theorem arg4_at (c : Dev nD) : W2 m ρ c (Proc.devRef .tc main_arg4) = m ((c : Thread nD τ).loc main_arg4) :=
  ((W2_of_ne m ρ c main_arg4 (by decide)).trans (keep0_main_arg4 (W0 m ρ c))).trans rfl
theorem arg6_at (c : Dev nD) : W2 m ρ c (Proc.devRef .tc main_arg6) = m ((c : Thread nD τ).loc main_arg6) :=
  ((W2_of_ne m ρ c main_arg6 (by decide)).trans (keep0_main_arg6 (W0 m ρ c))).trans rfl
theorem arg12_at (c : Dev nD) : W4 m ρ c (Proc.devRef .tc main_arg12) = m ((c : Thread nD τ).loc main_arg12) :=
  ((((W4_of_ne m ρ c main_arg12 (by decide)).trans (keep1_main_arg12 (W2 m ρ c))).trans (W2_of_ne m ρ c main_arg12 (by decide))).trans (keep0_main_arg12 (W0 m ρ c))).trans rfl
theorem arg13_at (c : Dev nD) : W5 m ρ c (Proc.devRef .tc main_arg13) = m ((c : Thread nD τ).loc main_arg13) :=
  (((((keep2_main_arg13 (W4 m ρ c)).trans (W4_of_ne m ρ c main_arg13 (by decide))).trans (keep1_main_arg13 (W2 m ρ c))).trans (W2_of_ne m ρ c main_arg13 (by decide))).trans (keep0_main_arg13 (W0 m ρ c))).trans rfl
theorem arg14_at (c : Dev nD) : W6 m ρ c (Proc.devRef .tc main_arg14) = m ((c : Thread nD τ).loc main_arg14) :=
  ((((((W6_of_ne m ρ c main_arg14 (by decide)).trans (keep2_main_arg14 (W4 m ρ c))).trans (W4_of_ne m ρ c main_arg14 (by decide))).trans (keep1_main_arg14 (W2 m ρ c))).trans (W2_of_ne m ρ c main_arg14 (by decide))).trans (keep0_main_arg14 (W0 m ρ c))).trans rfl
theorem arg15_at (c : Dev nD) : W7 m ρ c (Proc.devRef .tc main_arg15) = m ((c : Thread nD τ).loc main_arg15) :=
  (((((((keep3_main_arg15 (W6 m ρ c)).trans (W6_of_ne m ρ c main_arg15 (by decide))).trans (keep2_main_arg15 (W4 m ρ c))).trans (W4_of_ne m ρ c main_arg15 (by decide))).trans (keep1_main_arg15 (W2 m ρ c))).trans (W2_of_ne m ρ c main_arg15 (by decide))).trans (keep0_main_arg15 (W0 m ρ c))).trans rfl
theorem arg16_at (c : Dev nD) : W8 m ρ c (Proc.devRef .tc main_arg16) = m ((c : Thread nD τ).loc main_arg16) :=
  ((((((((W8_of_ne m ρ c main_arg16 (by decide)).trans (keep3_main_arg16 (W6 m ρ c))).trans (W6_of_ne m ρ c main_arg16 (by decide))).trans (keep2_main_arg16 (W4 m ρ c))).trans (W4_of_ne m ρ c main_arg16 (by decide))).trans (keep1_main_arg16 (W2 m ρ c))).trans (W2_of_ne m ρ c main_arg16 (by decide))).trans (keep0_main_arg16 (W0 m ρ c))).trans rfl

/-! ## The edge ids and the factors, wherever they are read -/
theorem v1_at4 (c : Dev nD) : (W4 m ρ c (Proc.devRef .tc main_call0_v1) : S800000.Idx → BitVec 32) = rowIds (m ((c : Thread nD τ).loc main_arg1)) :=
  (((W4_of_ne m ρ c main_call0_v1 (by decide)).trans (keep1_main_call0_v1 (W2 m ρ c))).trans (W2_of_ne m ρ c main_call0_v1 (by decide))).trans (h0_v1 (W0 m ρ c))
theorem v3_at4 (c : Dev nD) : (W4 m ρ c (Proc.devRef .tc main_call0_v3) : S800000.Idx → BitVec 32) = colIds (m ((c : Thread nD τ).loc main_arg1)) :=
  (((W4_of_ne m ρ c main_call0_v3 (by decide)).trans (keep1_main_call0_v3 (W2 m ρ c))).trans (W2_of_ne m ρ c main_call0_v3 (by decide))).trans (h0_v3 (W0 m ρ c))
theorem v1_at6 (c : Dev nD) : (W6 m ρ c (Proc.devRef .tc main_call0_v1) : S800000.Idx → BitVec 32) = rowIds (m ((c : Thread nD τ).loc main_arg1)) :=
  (((((W6_of_ne m ρ c main_call0_v1 (by decide)).trans (keep2_main_call0_v1 (W4 m ρ c))).trans (W4_of_ne m ρ c main_call0_v1 (by decide))).trans (keep1_main_call0_v1 (W2 m ρ c))).trans (W2_of_ne m ρ c main_call0_v1 (by decide))).trans (h0_v1 (W0 m ρ c))
theorem v3_at6 (c : Dev nD) : (W6 m ρ c (Proc.devRef .tc main_call0_v3) : S800000.Idx → BitVec 32) = colIds (m ((c : Thread nD τ).loc main_arg1)) :=
  (((((W6_of_ne m ρ c main_call0_v3 (by decide)).trans (keep2_main_call0_v3 (W4 m ρ c))).trans (W4_of_ne m ρ c main_call0_v3 (by decide))).trans (keep1_main_call0_v3 (W2 m ρ c))).trans (W2_of_ne m ρ c main_call0_v3 (by decide))).trans (h0_v3 (W0 m ρ c))
theorem v1_at8 (c : Dev nD) : (W8 m ρ c (Proc.devRef .tc main_call0_v1) : S800000.Idx → BitVec 32) = rowIds (m ((c : Thread nD τ).loc main_arg1)) :=
  (((((((W8_of_ne m ρ c main_call0_v1 (by decide)).trans (keep3_main_call0_v1 (W6 m ρ c))).trans (W6_of_ne m ρ c main_call0_v1 (by decide))).trans (keep2_main_call0_v1 (W4 m ρ c))).trans (W4_of_ne m ρ c main_call0_v1 (by decide))).trans (keep1_main_call0_v1 (W2 m ρ c))).trans (W2_of_ne m ρ c main_call0_v1 (by decide))).trans (h0_v1 (W0 m ρ c))
theorem v3_at8 (c : Dev nD) : (W8 m ρ c (Proc.devRef .tc main_call0_v3) : S800000.Idx → BitVec 32) = colIds (m ((c : Thread nD τ).loc main_arg1)) :=
  (((((((W8_of_ne m ρ c main_call0_v3 (by decide)).trans (keep3_main_call0_v3 (W6 m ρ c))).trans (W6_of_ne m ρ c main_call0_v3 (by decide))).trans (keep2_main_call0_v3 (W4 m ρ c))).trans (W4_of_ne m ρ c main_call0_v3 (by decide))).trans (keep1_main_call0_v3 (W2 m ρ c))).trans (W2_of_ne m ρ c main_call0_v3 (by decide))).trans (h0_v3 (W0 m ρ c))
theorem v14_at3 (c : Dev nD) : (W3 m ρ c (Proc.devRef .tc main_call0_v14) : S50000x1.Idx → EReal) = disTerm (m ((c : Thread nD τ).loc main_arg1)) :=
  ((keep1_main_call0_v14 (W2 m ρ c)).trans (W2_of_ne m ρ c main_call0_v14 (by decide))).trans (h0_v14 (W0 m ρ c))
theorem v14_at5 (c : Dev nD) : (W5 m ρ c (Proc.devRef .tc main_call0_v14) : S50000x1.Idx → EReal) = disTerm (m ((c : Thread nD τ).loc main_arg1)) :=
  ((((keep2_main_call0_v14 (W4 m ρ c)).trans ((W4_arr m ρ c 6).trans (((dat1 (V3 m ρ) c).arrAt_in 6 rfl _).trans (A_eq1 (V3 m ρ) c 6)))).trans (keep1_main_call0_v14 (W2 m ρ c))).trans (W2_of_ne m ρ c main_call0_v14 (by decide))).trans (h0_v14 (W0 m ρ c))
theorem v14_at7 (c : Dev nD) : (W7 m ρ c (Proc.devRef .tc main_call0_v14) : S50000x1.Idx → EReal) = disTerm (m ((c : Thread nD τ).loc main_arg1)) :=
  ((((((keep3_main_call0_v14 (W6 m ρ c)).trans ((W6_arr m ρ c 2).trans (((dat2 (V5 m ρ) c).arrAt_in 2 rfl _).trans (A_eq2 (V5 m ρ) c 2)))).trans (keep2_main_call0_v14 (W4 m ρ c))).trans ((W4_arr m ρ c 6).trans (((dat1 (V3 m ρ) c).arrAt_in 6 rfl _).trans (A_eq1 (V3 m ρ) c 6)))).trans (keep1_main_call0_v14 (W2 m ρ c))).trans (W2_of_ne m ρ c main_call0_v14 (by decide))).trans (h0_v14 (W0 m ρ c))
theorem v14_at9 (c : Dev nD) : (W9 m ρ c (Proc.devRef .tc main_call0_v14) : S50000x1.Idx → EReal) = disTerm (m ((c : Thread nD τ).loc main_arg1)) :=
  ((((((((keep4_main_call0_v14 (W8 m ρ c)).trans ((W8_arr m ρ c 2).trans (((dat3 (V7 m ρ) c).arrAt_in 2 rfl _).trans (A_eq3 (V7 m ρ) c 2)))).trans (keep3_main_call0_v14 (W6 m ρ c))).trans ((W6_arr m ρ c 2).trans (((dat2 (V5 m ρ) c).arrAt_in 2 rfl _).trans (A_eq2 (V5 m ρ) c 2)))).trans (keep2_main_call0_v14 (W4 m ρ c))).trans ((W4_arr m ρ c 6).trans (((dat1 (V3 m ρ) c).arrAt_in 6 rfl _).trans (A_eq1 (V3 m ρ) c 6)))).trans (keep1_main_call0_v14 (W2 m ρ c))).trans (W2_of_ne m ρ c main_call0_v14 (by decide))).trans (h0_v14 (W0 m ρ c))

/-! ## The biases as rows -/
theorem v15_at1 (c : Dev nD) : (W1 m ρ c (Proc.devRef .tc main_call0_v15) : S1x128.Idx → EReal) = biasRow (m ((c : Thread nD τ).loc main_arg8)) := h0_v15 (W0 m ρ c)
theorem v16_at1 (c : Dev nD) : (W1 m ρ c (Proc.devRef .tc main_call0_v16) : S1x128.Idx → EReal) = biasRow (m ((c : Thread nD τ).loc main_arg10)) := h0_v16 (W0 m ρ c)
theorem v18_at3 (c : Dev nD) : (W3 m ρ c (Proc.devRef .tc main_call0_v18) : S1x128.Idx → EReal) = biasRow (m ((c : Thread nD τ).loc main_arg4)) :=
  (h1_v18 (W2 m ρ c)).trans (congrArg biasRow (arg4_at m ρ c))
theorem v19_at3 (c : Dev nD) : (W3 m ρ c (Proc.devRef .tc main_call0_v19) : S1x128.Idx → EReal) = biasRow (m ((c : Thread nD τ).loc main_arg6)) :=
  (h1_v19 (W2 m ρ c)).trans (congrArg biasRow (arg6_at m ρ c))
theorem v31_at5 (c : Dev nD) : (W5 m ρ c (Proc.devRef .tc main_call0_v31) : S1x128.Idx → EReal) = biasRow (m ((c : Thread nD τ).loc main_arg12)) :=
  (h2_v31 (W4 m ρ c)).trans (congrArg biasRow (arg12_at m ρ c))
theorem v43_at7 (c : Dev nD) : (W7 m ρ c (Proc.devRef .tc main_call0_v43) : S1x128.Idx → EReal) = biasRow (m ((c : Thread nD τ).loc main_arg14)) :=
  (h3_v43 (W6 m ρ c)).trans (congrArg biasRow (arg14_at m ρ c))
theorem v55_at9 (c : Dev nD) : (W9 m ρ c (Proc.devRef .tc main_call0_v55) : S1x128.Idx → EReal) = biasRow (m ((c : Thread nD τ).loc main_arg16)) :=
  (h4_v55 (W8 m ρ c)).trans (congrArg biasRow (arg16_at m ρ c))

/-! ## The edge result -/

/-- The edge result is the perceptron of the edge features. -/
theorem ker_edge (c : Dev nD) : (W10 m ρ c (Proc.devRef .tc main_v0_1) : S800000x128.Idx → EReal)
    = mlp2 800000 128 128 128 (m ((c : Thread nD τ).loc main_arg2)) (m ((c : Thread nD τ).loc main_arg7)) (m ((c : Thread nD τ).loc main_arg8)) (m ((c : Thread nD τ).loc main_arg9)) (m ((c : Thread nD τ).loc main_arg10)) := by
  refine (((((((((W10_of_ne m ρ c main_v0_1 (by decide)).trans (keep4_main_v0_1 (W8 m ρ c))).trans (W8_of_ne m ρ c main_v0_1 (by decide))).trans (keep3_main_v0_1 (W6 m ρ c))).trans (W6_of_ne m ρ c main_v0_1 (by decide))).trans (keep2_main_v0_1 (W4 m ρ c))).trans (W4_of_ne m ρ c main_v0_1 (by decide))).trans (keep1_main_v0_1 (W2 m ρ c)))).trans ?_
  refine ((W2_arr m ρ c 5).trans (Cert.KernelIdeal.KB0.final (V1 m ρ) c)).trans ?_
  unfold Cert.KernelIdeal.KB0.G
  show mlp2 800000 128 128 128 (W1 m ρ c (Proc.devRef .tc main_arg2)) (W1 m ρ c (Proc.devRef .tc main_arg7)) (Cert.KPay.rowVec (W1 m ρ c (Proc.devRef .tc main_call0_v15)))
    (W1 m ρ c (Proc.devRef .tc main_arg9)) (Cert.KPay.rowVec (W1 m ρ c (Proc.devRef .tc main_call0_v16))) = _
  rw [arg2_at m ρ c, arg7_at m ρ c, arg9_at m ρ c, v15_at1 m ρ c, v16_at1 m ρ c, rowVec_biasRow, rowVec_biasRow]

/-! ## The node result, layer by layer -/

/-- The first launch of the node chain: the scaled rows of the first layer. -/
theorem v20_at4 (c : Dev nD) : (W4 m ρ c (Proc.devRef .tc main_call0_v20) : S50000x128.Idx → EReal)
    = scaledLin (m ((c : Thread nD τ).loc main_arg1)) 128 (mlp2 50000 256 128 128 (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg11)) := by
  refine ((W4_arr m ρ c 7).trans (Cert.KernelIdeal.KB1.final (V3 m ρ) c)).trans ?_
  unfold Cert.KernelIdeal.KB1.G
  show Cert.KPay.scaled (W3 m ρ c (Proc.devRef .tc main_call0_v14)) (lin 50000 128 128 (mlp2 50000 256 128 128 (W3 m ρ c (Proc.devRef .tc main_arg0)) (W3 m ρ c (Proc.devRef .tc main_arg3))
    (Cert.KPay.rowVec (W3 m ρ c (Proc.devRef .tc main_call0_v18))) (W3 m ρ c (Proc.devRef .tc main_arg5)) (Cert.KPay.rowVec (W3 m ρ c (Proc.devRef .tc main_call0_v19)))) (W3 m ρ c (Proc.devRef .tc main_arg11))) = _
  rw [arg0_at m ρ c, arg3_at m ρ c, arg5_at m ρ c, arg11_at m ρ c, v18_at3 m ρ c, v19_at3 m ρ c, v14_at3 m ρ c, rowVec_biasRow, rowVec_biasRow]
  exact scaled_dis _ 128 _ _

/-- The summed neighbour rows before launch 2. -/
theorem seg_at5 (c : Dev nD) : (W5 m ρ c (Proc.devRef .tc main_call0_v30) : S50000x128.Idx → EReal) = segK (m ((c : Thread nD τ).loc main_arg1)) (scaledLin (m ((c : Thread nD τ).loc main_arg1)) 128 (mlp2 50000 256 128 128 (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg11))) := by
  refine (h2_v30 (W4 m ρ c)).trans ?_
  rw [v1_at4 m ρ c, v3_at4 m ρ c, v20_at4 m ρ c]
  exact segTerm_eq _ _
theorem own_at5 (c : Dev nD) : (W5 m ρ c (Proc.devRef .tc main_call0_v20) : S50000x128.Idx → EReal) = scaledLin (m ((c : Thread nD τ).loc main_arg1)) 128 (mlp2 50000 256 128 128 (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg11)) :=
  (keep2_main_call0_v20 (W4 m ρ c)).trans (v20_at4 m ρ c)
/-- Launch 2: the scaled rows of the next layer. -/
theorem v32_at6 (c : Dev nD) : (W6 m ρ c (Proc.devRef .tc main_call0_v32) : S50000x128.Idx → EReal) = scaledLin (m ((c : Thread nD τ).loc main_arg1)) 128 (relu (finK (m ((c : Thread nD τ).loc main_arg1)) (scaledLin (m ((c : Thread nD τ).loc main_arg1)) 128 (mlp2 50000 256 128 128 (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg11))) (m ((c : Thread nD τ).loc main_arg12)))) (m ((c : Thread nD τ).loc main_arg13)) := by
  refine ((W6_arr m ρ c 5).trans (Cert.KernelIdeal.KB2.final (V5 m ρ) c)).trans ?_
  unfold Cert.KernelIdeal.KB2.G
  show Cert.KPay.scaled (W5 m ρ c (Proc.devRef .tc main_call0_v14)) (lin 50000 128 128 (relu (Cert.KPay.fin (W5 m ρ c (Proc.devRef .tc main_call0_v14)) (W5 m ρ c (Proc.devRef .tc main_call0_v30))
    (W5 m ρ c (Proc.devRef .tc main_call0_v20)) (W5 m ρ c (Proc.devRef .tc main_call0_v31)))) (W5 m ρ c (Proc.devRef .tc main_arg13))) = _
  rw [v14_at5 m ρ c, seg_at5 m ρ c, own_at5 m ρ c, v31_at5 m ρ c, arg13_at m ρ c, fin_dis]
  exact scaled_dis _ 128 _ _

/-- The summed neighbour rows before launch 3. -/
theorem seg_at7 (c : Dev nD) : (W7 m ρ c (Proc.devRef .tc main_call0_v42) : S50000x128.Idx → EReal) = segK (m ((c : Thread nD τ).loc main_arg1)) (scaledLin (m ((c : Thread nD τ).loc main_arg1)) 128 (relu (finK (m ((c : Thread nD τ).loc main_arg1)) (scaledLin (m ((c : Thread nD τ).loc main_arg1)) 128 (mlp2 50000 256 128 128 (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg11))) (m ((c : Thread nD τ).loc main_arg12)))) (m ((c : Thread nD τ).loc main_arg13))) := by
  refine (h3_v42 (W6 m ρ c)).trans ?_
  rw [v1_at6 m ρ c, v3_at6 m ρ c, v32_at6 m ρ c]
  exact segTerm_eq _ _
theorem own_at7 (c : Dev nD) : (W7 m ρ c (Proc.devRef .tc main_call0_v32) : S50000x128.Idx → EReal) = scaledLin (m ((c : Thread nD τ).loc main_arg1)) 128 (relu (finK (m ((c : Thread nD τ).loc main_arg1)) (scaledLin (m ((c : Thread nD τ).loc main_arg1)) 128 (mlp2 50000 256 128 128 (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg11))) (m ((c : Thread nD τ).loc main_arg12)))) (m ((c : Thread nD τ).loc main_arg13)) :=
  (keep3_main_call0_v32 (W6 m ρ c)).trans (v32_at6 m ρ c)
/-- Launch 3: the scaled rows of the next layer. -/
theorem v44_at8 (c : Dev nD) : (W8 m ρ c (Proc.devRef .tc main_call0_v44) : S50000x128.Idx → EReal) = scaledLin (m ((c : Thread nD τ).loc main_arg1)) 128 (relu (finK (m ((c : Thread nD τ).loc main_arg1)) (scaledLin (m ((c : Thread nD τ).loc main_arg1)) 128 (relu (finK (m ((c : Thread nD τ).loc main_arg1)) (scaledLin (m ((c : Thread nD τ).loc main_arg1)) 128 (mlp2 50000 256 128 128 (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg11))) (m ((c : Thread nD τ).loc main_arg12)))) (m ((c : Thread nD τ).loc main_arg13))) (m ((c : Thread nD τ).loc main_arg14)))) (m ((c : Thread nD τ).loc main_arg15)) := by
  refine ((W8_arr m ρ c 5).trans (Cert.KernelIdeal.KB3.final (V7 m ρ) c)).trans ?_
  unfold Cert.KernelIdeal.KB3.G
  show Cert.KPay.scaled (W7 m ρ c (Proc.devRef .tc main_call0_v14)) (lin 50000 128 128 (relu (Cert.KPay.fin (W7 m ρ c (Proc.devRef .tc main_call0_v14)) (W7 m ρ c (Proc.devRef .tc main_call0_v42))
    (W7 m ρ c (Proc.devRef .tc main_call0_v32)) (W7 m ρ c (Proc.devRef .tc main_call0_v43)))) (W7 m ρ c (Proc.devRef .tc main_arg15))) = _
  rw [v14_at7 m ρ c, seg_at7 m ρ c, own_at7 m ρ c, v43_at7 m ρ c, arg15_at m ρ c, fin_dis]
  exact scaled_dis _ 128 _ _

theorem seg_at9 (c : Dev nD) : (W9 m ρ c (Proc.devRef .tc main_call0_v54) : S50000x128.Idx → EReal) = segK (m ((c : Thread nD τ).loc main_arg1)) (scaledLin (m ((c : Thread nD τ).loc main_arg1)) 128 (relu (finK (m ((c : Thread nD τ).loc main_arg1)) (scaledLin (m ((c : Thread nD τ).loc main_arg1)) 128 (relu (finK (m ((c : Thread nD τ).loc main_arg1)) (scaledLin (m ((c : Thread nD τ).loc main_arg1)) 128 (mlp2 50000 256 128 128 (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg11))) (m ((c : Thread nD τ).loc main_arg12)))) (m ((c : Thread nD τ).loc main_arg13))) (m ((c : Thread nD τ).loc main_arg14)))) (m ((c : Thread nD τ).loc main_arg15))) := by
  refine (h4_v54 (W8 m ρ c)).trans ?_
  rw [v1_at8 m ρ c, v3_at8 m ρ c, v44_at8 m ρ c]
  exact segTerm_eq _ _
theorem own_at9 (c : Dev nD) : (W9 m ρ c (Proc.devRef .tc main_call0_v44) : S50000x128.Idx → EReal) = scaledLin (m ((c : Thread nD τ).loc main_arg1)) 128 (relu (finK (m ((c : Thread nD τ).loc main_arg1)) (scaledLin (m ((c : Thread nD τ).loc main_arg1)) 128 (relu (finK (m ((c : Thread nD τ).loc main_arg1)) (scaledLin (m ((c : Thread nD τ).loc main_arg1)) 128 (mlp2 50000 256 128 128 (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg11))) (m ((c : Thread nD τ).loc main_arg12)))) (m ((c : Thread nD τ).loc main_arg13))) (m ((c : Thread nD τ).loc main_arg14)))) (m ((c : Thread nD τ).loc main_arg15)) :=
  (keep4_main_call0_v44 (W8 m ρ c)).trans (v44_at8 m ρ c)

/-- The node result is the three layers over the node perceptron, each in the form that scales the rows first. -/
theorem ker_node (c : Dev nD) : (W10 m ρ c (Proc.devRef .tc main_v0_0) : S50000x128.Idx → EReal)
    = nodeK (m ((c : Thread nD τ).loc main_arg1)) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine ((W10_arr m ρ c 4).trans (Cert.KernelIdeal.KB4.final (V9 m ρ) c)).trans ?_
  unfold Cert.KernelIdeal.KB4.G
  show Cert.KPay.fin (W9 m ρ c (Proc.devRef .tc main_call0_v14)) (W9 m ρ c (Proc.devRef .tc main_call0_v54)) (W9 m ρ c (Proc.devRef .tc main_call0_v44)) (W9 m ρ c (Proc.devRef .tc main_call0_v55)) = _
  rw [v14_at9 m ρ c, seg_at9 m ρ c, own_at9 m ρ c, v55_at9 m ρ c, fin_dis]
  rfl

end Cert.KernelIdeal.KValue

end
-- ==== Proof.lean ====
/-
  The certificate of a three-layer graph-convolution network on 50000 nodes and 800000 edges, with a perceptron in
  front of the node features and another on the edge features.

  The kernel program is five launches among host gathers and scatter-adds; the reference is a plain host program.
  At the ideal values both return the same two arrays. The edge result is the same perceptron of every edge's row in
  both (a matrix product into a zero accumulator against a dot_general, a bias row against a broadcast bias, a maximum
  with a splatted zero against one with a broadcast zero). The node result differs in how a layer is arranged: the
  kernel program scales every row of h W by its node's factor dis = deg^(-1/2) first, sums the scaled rows of the
  sources of the real edges into each node, adds the node's own scaled row (the self loop) and scales the total by
  dis again; the reference appends the 50000 self loops to the edge list, weights entry k by dis(source) * dis(target)
  and sums over the 850000 entries. The two agree because dis is a nonnegative REAL number at every node (the inverse
  square root of one plus a count), and such a factor distributes over a sum of extended reals; the degrees agree
  because the appended loops contribute exactly one to each node. Nothing here needs the inputs to be finite.

  The frames of the two kernel programs are the generated ones; the reference's frame is its run with the results
  dropped; no operation was rewritten by the idealization, so there is nothing to preserve.
-/
import proofs.«173266_j39247411151001_2_alg».proof.Defs
import proofs.«173266_j39247411151001_2_alg».proof.Proof.Gen.Kernel
import proofs.«173266_j39247411151001_2_alg».proof.Proof.Gen.Kernel.Skeleton
import proofs.«173266_j39247411151001_2_alg».proof.Proof.Gen.Kernel.Launch
import proofs.«173266_j39247411151001_2_alg».proof.Proof.Gen.Kernel.Points
import proofs.«173266_j39247411151001_2_alg».proof.Proof.Gen.Kernel.Frame
import proofs.«173266_j39247411151001_2_alg».proof.Proof.Gen.KernelIdeal
import proofs.«173266_j39247411151001_2_alg».proof.Proof.Gen.KernelIdeal.Skeleton
import proofs.«173266_j39247411151001_2_alg».proof.Proof.Gen.KernelIdeal.Launch
import proofs.«173266_j39247411151001_2_alg».proof.Proof.Gen.KernelIdeal.Points
import proofs.«173266_j39247411151001_2_alg».proof.Proof.Gen.KernelIdeal.Frame
import proofs.«173266_j39247411151001_2_alg».proof.Proof.Gen.ReferenceIdeal
import proofs.«173266_j39247411151001_2_alg».proof.Proof.Gen.Pre_finite_inputs
import proofs.«173266_j39247411151001_2_alg».proof.Proof.RefRunP
import proofs.«173266_j39247411151001_2_alg».proof.Proof.RefReadP
import proofs.«173266_j39247411151001_2_alg».proof.Proof.Spec
import proofs.«173266_j39247411151001_2_alg».proof.Proof.GraphLaw
import proofs.«173266_j39247411151001_2_alg».proof.Proof.RefValue
import proofs.«173266_j39247411151001_2_alg».proof.Proof.KRun
import proofs.«173266_j39247411151001_2_alg».proof.Proof.KValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- Both programs end with the node result at the layers' function of the arguments and the edge result at the edge
    perceptron: the kernel program by walking its launches, the reference by reading its operations, the two forms of
    a layer joined by the law of the nonnegative real factor. -/
theorem algebraic : Cert.algebraic_KernelIdeal_ReferenceIdeal := by
  intro m ρ m' ρ' _ hagree
  refine ⟨fun c => Cert.Spec.nodeK (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16)),
    fun c => Cert.Spec.mlp2 800000 128 128 128 (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.KRun.run_named (F := Ideal) m ρ)
    obtain ⟨h0, h1, hargs⟩ := h c
    exact ⟨h0.trans (Cert.KernelIdeal.KValue.ker_node m ρ c), h1.trans (Cert.KernelIdeal.KValue.ker_edge m ρ c), hargs⟩
  · refine (θ_run Cert.ReferenceIdeal.defs _ _).mono (fun r h c => ?_) (Cert.ReferenceIdeal.ValueP.run (F := Ideal) m' ρ')
    obtain ⟨h0, h1, hargs⟩ := h c
    obtain ⟨a0, a1, a2, a3, a4, a5, a6, a7, a8, a9, a10, a11, a12, a13, a14, a15, a16⟩ := hagree c
    refine ⟨?_, ?_, hargs⟩
    · rw [h0, Cert.ReferenceIdeal.ReadP.val_main_v102_eq, Cert.RefValue.ref_node, a0, a1, a3, a4, a5, a6, a11, a12, a13, a14, a15, a16]
      exact (Cert.GraphLaw.nodeK_eq_nodeR _ _ _ _ _ _ _ _ _ _ _ _).symm
    · rw [h1, Cert.ReferenceIdeal.ReadP.val_main_v19_eq, Cert.RefValue.ref_edge, a2, a7, a8, a9, a10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
